-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x512x512 : Shape := ⟨4, ![8, 32, 512, 512]⟩
abbrev S8x512x512 : Shape := ⟨3, ![8, 512, 512]⟩
abbrev S_ : Shape := ⟨0, ![]⟩

class Facts : Prop where
  bcast_S_S8x32x512x512 : S_.BroadcastsInDim S8x32x512x512 (![] : Fin 0 → Fin S8x32x512x512.rank)
  reducesTo_S8x32x512x512_S_d0_1_2_3 : S8x32x512x512.ReducesTo [0, 1, 2, 3] S_
  h_S_ : 0 < S_.numel

variable [Facts]

def fn {F : FTy → Type} [FloatOps F] (main_arg0 : FVec F S8x32x512x512 .f32) (main_arg1 : IVec S8x512x512 32) : IVec S_ 1 :=
  let main_v0 : FVec F S8x32x512x512 .f32 := Host.absf main_arg0
  let main_cst : FVec F S_ .f32 := constant S_ .f32 0x7F800000#32
  let main_v1 : FVec F S8x32x512x512 .f32 := broadcastInDim S8x32x512x512 ![] bcast_S_S8x32x512x512 main_cst
  let main_v2 : IVec S8x32x512x512 1 := cmpf .olt main_v0 main_v1
  let main_c : IVec S_ 1 := constantI S_ 1 1#1
  let main_v3 : IVec S_ 1 := (fun x v => Host.reduce IntOp.andi x v reducesTo_S8x32x512x512_S_d0_1_2_3 h_S_) main_v2 main_c
  main_v3
-- ==== Kernel.lean ====
abbrev S8x32x512x512 : Shape := ⟨4, ![8, 32, 512, 512]⟩
abbrev S8x512x512 : Shape := ⟨3, ![8, 512, 512]⟩
abbrev S8x1x32 : Shape := ⟨3, ![8, 1, 32]⟩
abbrev S1x32x64x512 : Shape := ⟨4, ![1, 32, 64, 512]⟩
abbrev S1x64x512 : Shape := ⟨3, ![1, 64, 512]⟩
abbrev S1x1x32 : Shape := ⟨3, ![1, 1, 32]⟩
abbrev S32x64x512 : Shape := ⟨3, ![32, 64, 512]⟩
abbrev S64x512 : Shape := ⟨2, ![64, 512]⟩
abbrev S32x64 : Shape := ⟨2, ![32, 64]⟩
abbrev S32 : Shape := ⟨1, ![32]⟩
abbrev S8x32 : Shape := ⟨2, ![8, 32]⟩
abbrev S_ : Shape := ⟨0, ![]⟩

abbrev nBuf : Space → Nat
  | .hbm => 58
  | .vmem => 10
  | .smem => 0
  | _ => 0

abbrev bufTy : (tb : Table) → Fin (tcTables nBuf tb) → BufTy
  | .hbm, ⟨0, _⟩ => ⟨S8x32x512x512, .f32⟩
  | .hbm, ⟨1, _⟩ => ⟨S8x512x512, .i32⟩
  | .hbm, ⟨2, _⟩ => ⟨S8x1x32, .f32⟩
  | .hbm, ⟨3, _⟩ => ⟨S8x1x32, .f32⟩
  | .hbm, ⟨4, _⟩ => ⟨S8x1x32, .f32⟩
  | .hbm, ⟨5, _⟩ => ⟨S8x32, .f32⟩
  | .hbm, ⟨6, _⟩ => ⟨S_, .f32⟩
  | .hbm, ⟨7, _⟩ => ⟨S32, .f32⟩
  | .hbm, ⟨8, _⟩ => ⟨S8x32, .f32⟩
  | .hbm, ⟨9, _⟩ => ⟨S_, .f32⟩
  | .hbm, ⟨10, _⟩ => ⟨S32, .f32⟩
  | .hbm, ⟨11, _⟩ => ⟨S8x32, .f32⟩
  | .hbm, ⟨12, _⟩ => ⟨S_, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S32, .f32⟩
  | .hbm, ⟨46, _⟩ => ⟨S32, .f32⟩
  | .hbm, ⟨47, _⟩ => ⟨S32, .f32⟩
  | .hbm, ⟨48, _⟩ => ⟨S32, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .local _ .vmem, ⟨0, _⟩ => ⟨S1x32x64x512, .f32⟩
  | .local _ .vmem, ⟨1, _⟩ => ⟨S1x32x64x512, .f32⟩
  | .local _ .vmem, ⟨2, _⟩ => ⟨S1x64x512, .i32⟩
  | .local _ .vmem, ⟨3, _⟩ => ⟨S1x64x512, .i32⟩
  | .local _ .vmem, ⟨4, _⟩ => ⟨S1x1x32, .f32⟩
  | .local _ .vmem, ⟨5, _⟩ => ⟨S1x1x32, .f32⟩
  | .local _ .vmem, ⟨6, _⟩ => ⟨S1x1x32, .f32⟩
  | .local _ .vmem, ⟨7, _⟩ => ⟨S1x1x32, .f32⟩
  | .local _ .vmem, ⟨8, _⟩ => ⟨S1x1x32, .f32⟩
  | .local _ .vmem, ⟨9, _⟩ => ⟨S1x1x32, .f32⟩
  | _, _ => ⟨S8x32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_cst_8 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v22 : Ref sig .tc := ⟨.hbm, 41, rfl⟩
abbrev main_cst_9 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_10 : Ref sig .tc := ⟨.hbm, 51, rfl⟩
abbrev main_v31 : Ref sig .tc := ⟨.hbm, 52, rfl⟩
abbrev main_v32 : Ref sig .tc := ⟨.hbm, 53, rfl⟩
abbrev main_cst_11 : Ref sig .tc := ⟨.hbm, 54, rfl⟩
abbrev main_v33 : Ref sig .tc := ⟨.hbm, 55, rfl⟩
abbrev main_cst_12 : Ref sig .tc := ⟨.hbm, 56, rfl⟩
abbrev main_v34 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x1x32_S1x1x32_0_0_0 : ∀ a, (![0, 0, 0] : Fin 3 → Nat) a + S1x1x32.size a ≤ S1x1x32.size a
  h_S1x1x32 : 0 < S1x1x32.numel
  inb_S1x32x64x512_S1x32x64x512_0_0_0_0 : ∀ a, (![0, 0, 0, 0] : Fin 4 → Nat) a + S1x32x64x512.size a ≤ S1x32x64x512.size a
  h_S1x32x64x512 : 0 < S1x32x64x512.numel
  shapeCasts_S1x32x64x512_S32x64x512 : S1x32x64x512.ShapeCasts S32x64x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  reduces_S32x64x512_S64x512 : S32x64x512.Reduces [0] S64x512
  shapeCasts_S64x512_S1x64x512 : S64x512.ShapeCasts S1x64x512
  broadcasts_S1x64x512_S32x64x512 : S1x64x512.Broadcasts S32x64x512
  iota_S32x64x512_d0_w32 : S32x64x512.Iotas .tc 32 [0]
  natLt_1_32 : 1 < 32
  reduces_S32x64x512_S32x64 : S32x64x512.Reduces [2] S32x64
  reduces_S32x64_S32 : S32x64.Reduces [1] S32
  shapeCasts_S1x1x32_S1x1x32 : S1x1x32.ShapeCasts S1x1x32
  shapeCasts_S32_S1x1x32 : S32.ShapeCasts S1x1x32
  shapeCasts_S8x1x32_S8x32 : S8x1x32.ShapeCasts S8x32
  reducesTo_S8x32_S32_d0 : S8x32.ReducesTo [0] S32
  h_S_ : 0 < S_.numel
  bcast_S_S32 : S_.BroadcastsInDim S32 (![] : Fin 0 → Fin S32.rank)
  reducesTo_S32_S_d0 : S32.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x64x512.size a ≤ S8x32x512x512.size a
  hwx0_0 : ∀ i : grid0.Coords, EltTy.bits .f32 = 32 ∨ (Rect.block (s := S8x32x512x512) S1x32x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S8x512x512.size a
  hwx0_1 : ∀ i : grid0.Coords, EltTy.bits .i32 = 32 ∨ (Rect.block (s := S8x512x512) S1x64x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x32.size a ≤ S8x1x32.size a
  hwx0_2 : ∀ i : grid0.Coords, EltTy.bits .f32 = 32 ∨ (Rect.block (s := S8x1x32) S1x1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x32.size a ≤ S8x1x32.size a
  hwx0_3 : ∀ i : grid0.Coords, EltTy.bits .f32 = 32 ∨ (Rect.block (s := S8x1x32) S1x1x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x32.size a ≤ S8x1x32.size a
  hwx0_4 : ∀ i : grid0.Coords, EltTy.bits .f32 = 32 ∨ (Rect.block (s := S8x1x32) S1x1x32.size (cc0_transform_4 i) (hinb0_4 i)).WholeWords (EltTy.packing .f32)

variable [Facts₀]

abbrev win0_0 : Pipeline.Window sig grid0 :=
  Pipeline.Window.ofSpec (Memref.whole main_arg0) S1x32x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x32.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x32.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x32x512x512 : Shape := ⟨4, ![8, 32, 512, 512]⟩
abbrev S8x512x512 : Shape := ⟨3, ![8, 512, 512]⟩
abbrev S8x512x512x32 : Shape := ⟨4, ![8, 512, 512, 32]⟩
abbrev S2097152x32 : Shape := ⟨2, ![2097152, 32]⟩
abbrev S2097152 : Shape := ⟨1, ![2097152]⟩
abbrev S_ : Shape := ⟨0, ![]⟩
abbrev S2097152x1 : Shape := ⟨2, ![2097152, 1]⟩
abbrev S1x32 : Shape := ⟨2, ![1, 32]⟩
abbrev S32 : Shape := ⟨1, ![32]⟩

abbrev nBuf : Space → Nat
  | .hbm => 77
  | .vmem => 0
  | .smem => 0
  | _ => 0

abbrev bufTy : (tb : Table) → Fin (tcTables nBuf tb) → BufTy
  | .hbm, ⟨0, _⟩ => ⟨S8x32x512x512, .f32⟩
  | .hbm, ⟨1, _⟩ => ⟨S8x512x512, .i32⟩
  | .hbm, ⟨2, _⟩ => ⟨S8x512x512x32, .f32⟩
  | .hbm, ⟨3, _⟩ => ⟨S2097152x32, .f32⟩
  | .hbm, ⟨4, _⟩ => ⟨S2097152, .i32⟩
  | .hbm, ⟨5, _⟩ => ⟨S_, .f32⟩
  | .hbm, ⟨6, _⟩ => ⟨S2097152, .f32⟩
  | .hbm, ⟨7, _⟩ => ⟨S_, .f32⟩
  | .hbm, ⟨8, _⟩ => ⟨S2097152, .f32⟩
  | .hbm, ⟨9, _⟩ => ⟨S2097152, .f32⟩
  | .hbm, ⟨10, _⟩ => ⟨S2097152x1, .f32⟩
  | .hbm, ⟨11, _⟩ => ⟨S2097152x32, .f32⟩
  | .hbm, ⟨12, _⟩ => ⟨S2097152x32, .f32⟩
  | .hbm, ⟨13, _⟩ => ⟨S2097152x32, .f32⟩
  | .hbm, ⟨14, _⟩ => ⟨S_, .f32⟩
  | .hbm, ⟨15, _⟩ => ⟨S2097152, .f32⟩
  | .hbm, ⟨16, _⟩ => ⟨S2097152x1, .f32⟩
  | .hbm, ⟨17, _⟩ => ⟨S2097152x1, .f32⟩
  | .hbm, ⟨18, _⟩ => ⟨S2097152x32, .f32⟩
  | .hbm, ⟨19, _⟩ => ⟨S2097152x32, .f32⟩
  | .hbm, ⟨20, _⟩ => ⟨S2097152x32, .f32⟩
  | .hbm, ⟨21, _⟩ => ⟨S2097152x1, .i32⟩
  | .hbm, ⟨22, _⟩ => ⟨S1x32, .i32⟩
  | .hbm, ⟨23, _⟩ => ⟨S2097152x32, .i32⟩
  | .hbm, ⟨24, _⟩ => ⟨S2097152x32, .i32⟩
  | .hbm, ⟨25, _⟩ => ⟨S2097152x32, .i1⟩
  | .hbm, ⟨26, _⟩ => ⟨S2097152x32, .f32⟩
  | .hbm, ⟨27, _⟩ => ⟨S_, .f32⟩
  | .hbm, ⟨28, _⟩ => ⟨S2097152x32, .f32⟩
  | .hbm, ⟨29, _⟩ => ⟨S2097152x32, .f32⟩
  | .hbm, ⟨30, _⟩ => ⟨S_, .f32⟩
  | .hbm, ⟨31, _⟩ => ⟨S2097152x32, .f32⟩
  | .hbm, ⟨32, _⟩ => ⟨S2097152x32, .f32⟩
  | .hbm, ⟨33, _⟩ => ⟨S2097152x32, .f32⟩
  | .hbm, ⟨34, _⟩ => ⟨S_, .f32⟩
  | .hbm, ⟨35, _⟩ => ⟨S32, .f32⟩
  | .hbm, ⟨36, _⟩ => ⟨S_, .f32⟩
  | .hbm, ⟨37, _⟩ => ⟨S2097152x32, .f32⟩
  | .hbm, ⟨38, _⟩ => ⟨S2097152x32, .f32⟩
  | .hbm, ⟨39, _⟩ => ⟨S2097152x32, .f32⟩
  | .hbm, ⟨40, _⟩ => ⟨S_, .f32⟩
  | .hbm, ⟨41, _⟩ => ⟨S32, .f32⟩
  | .hbm, ⟨42, _⟩ => ⟨S_, .f32⟩
  | .hbm, ⟨43, _⟩ => ⟨S2097152x32, .f32⟩
  | .hbm, ⟨44, _⟩ => ⟨S2097152x32, .f32⟩
  | .hbm, ⟨45, _⟩ => ⟨S2097152x32, .f32⟩
  | .hbm, ⟨46, _⟩ => ⟨S_, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S32, .f32⟩
  | .hbm, ⟨57, _⟩ => ⟨S32, .f32⟩
  | .hbm, ⟨58, _⟩ => ⟨S_, .f32⟩
  | .hbm, ⟨59, _⟩ => ⟨S32, .f32⟩
  | .hbm, ⟨60, _⟩ => ⟨S32, .f32⟩
  | .hbm, ⟨61, _⟩ => ⟨S_, .f32⟩
  | .hbm, ⟨62, _⟩ => ⟨S32, .f32⟩
  | .hbm, ⟨63, _⟩ => ⟨S32, .f32⟩
  | .hbm, ⟨64, _⟩ => ⟨S32, .f32⟩
  | .hbm, ⟨65, _⟩ => ⟨S32, .f32⟩
  | .hbm, ⟨66, _⟩ => ⟨S32, .f32⟩
  | .hbm, ⟨67, _⟩ => ⟨S32, .f32⟩
  | .hbm, ⟨68, _⟩ => ⟨S32, .f32⟩
  | .hbm, ⟨69, _⟩ => ⟨S32, .f32⟩
  | .hbm, ⟨70, _⟩ => ⟨S_, .f32⟩
  | .hbm, ⟨71, _⟩ => ⟨S32, .f32⟩
  | .hbm, ⟨72, _⟩ => ⟨S32, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | _, _ => ⟨S8x32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_call0_cst_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst_1 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_v3 : Ref sig .tc := ⟨.hbm, 19, rfl⟩
abbrev main_v4 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v5 : Ref sig .tc := ⟨.hbm, 26, rfl⟩
abbrev main_cst : Ref sig .tc := ⟨.hbm, 27, rfl⟩
abbrev main_v6 : Ref sig .tc := ⟨.hbm, 28, rfl⟩
abbrev main_v7 : Ref sig .tc := ⟨.hbm, 29, rfl⟩
abbrev main_cst_0 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_1 : Ref sig .tc := ⟨.hbm, 34, rfl⟩
abbrev main_v11 : Ref sig .tc := ⟨.hbm, 35, rfl⟩
abbrev main_cst_2 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_3 : Ref sig .tc := ⟨.hbm, 40, rfl⟩
abbrev main_v15 : Ref sig .tc := ⟨.hbm, 41, rfl⟩
abbrev main_cst_4 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_5 : Ref sig .tc := ⟨.hbm, 46, rfl⟩
abbrev main_v19 : Ref sig .tc := ⟨.hbm, 47, rfl⟩
abbrev main_cst_6 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst_7 : Ref sig .tc := ⟨.hbm, 53, rfl⟩
abbrev main_cst_8 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_v24 : Ref sig .tc := ⟨.hbm, 60, rfl⟩
abbrev main_cst_9 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_cst_10 : Ref sig .tc := ⟨.hbm, 70, rfl⟩
abbrev main_v33 : Ref sig .tc := ⟨.hbm, 71, rfl⟩
abbrev main_v34 : Ref sig .tc := ⟨.hbm, 72, rfl⟩
abbrev main_cst_11 : Ref sig .tc := ⟨.hbm, 73, rfl⟩
abbrev main_v35 : Ref sig .tc := ⟨.hbm, 74, rfl⟩
abbrev main_cst_12 : Ref sig .tc := ⟨.hbm, 75, rfl⟩
abbrev main_v36 : Ref sig .tc := ⟨.hbm, 76, rfl⟩

abbrev nD : Nat := 1
abbrev τ : Topo := Topo.v7x

variable {F : FTy → Type} [FloatOps F]

class Facts₀ : Prop where
  transposes_S8x32x512x512_S8x512x512x32_0_2_3_1 : S8x32x512x512.Transposes [0, 2, 3, 1] S8x512x512x32
  shapeCasts_S8x512x512x32_S2097152x32 : S8x512x512x32.ShapeCasts S2097152x32
  shapeCasts_S8x512x512_S2097152 : S8x512x512.ShapeCasts S2097152
  reducesTo_S2097152x32_S2097152_d1 : S2097152x32.ReducesTo [1] S2097152
  h_S_ : 0 < S_.numel
  bcast_S_S2097152 : S_.BroadcastsInDim S2097152 (![] : Fin 0 → Fin S2097152.rank)
  bcast_S2097152_S2097152x1_0 : S2097152.BroadcastsInDim S2097152x1 (![0] : Fin 1 → Fin S2097152x1.rank)
  bcast_S2097152x1_S2097152x32_0_1 : S2097152x1.BroadcastsInDim S2097152x32 (![0, 1] : Fin 2 → Fin S2097152x32.rank)
  bcast_S1x32_S2097152x32_0_1 : S1x32.BroadcastsInDim S2097152x32 (![0, 1] : Fin 2 → Fin S2097152x32.rank)
  bcast_S_S2097152x32 : S_.BroadcastsInDim S2097152x32 (![] : Fin 0 → Fin S2097152x32.rank)
  reducesTo_S2097152x32_S32_d0 : S2097152x32.ReducesTo [0] S32
  bcast_S_S32 : S_.BroadcastsInDim S32 (![] : Fin 0 → Fin S32.rank)
  reducesTo_S32_S_d0 : S32.ReducesTo [0] S_

variable [Facts₀]

class Facts : Prop extends Facts₀ where

variable [Facts]
-- ==== Proof.LibFields.lean ====
/-
  Arrays of fields: an [a, b, c] array summed, and a per-field number spread, along the last axis.

  At the extended reals the sum of an [a, b, c] vector along its last axis (a lane reduction into [a, b], from the
  additive neutral word) is, at (p, f), the plain sum over k of the entries (p, f, k); the host's sum is the initial
  value plus that.  An [a, b] array viewed as [a, b, 1] holds at (p, f, 0) the array's entry (p, f), and an
  [a, b, 1] array spread over [a, b, c] holds at (p, f, k) the entry (p, f, 0).  Two arrays joined along the last
  axis hold the first array's entries first and the second's after them.
-/
import Idealize.ShloMosaic.Lib.Pipeline.Value
import Idealize.ShloMosaic.Lib.ValueIdx
import Idealize.ShloMosaic.PureOps.Ideal.Laws

noncomputable section

open scoped BigOperators

namespace Cert.LibFields

open Idealize.ShloMosaic Idealize.ShloMosaic.ValueIdx

variable {α : Type} {a b c : ℕ}

/-- The index (p, f) with the last coordinate k put back is (p, f, k). -/
theorem lift_field (h : (⟨3, ![a, b, c]⟩ : Shape).Reduces [2] ⟨2, ![a, b]⟩) (p : Fin a) (f : Fin b)
    (k : Fin ((⟨3, ![a, b, c]⟩ : Shape).size 2)) : h.lift (ix2 p f) k = ix3 p f (⟨k.val, k.isLt⟩ : Fin c) := by
  funext ax
  refine Fin.ext ?_
  match ax with
  | ⟨0, _⟩ => rfl
  | ⟨1, _⟩ => rfl
  | ⟨2, _⟩ => rfl

/-- A lane sum of an [a, b, c] f32 vector along its last axis, at (p, f): the sum over k of the entries (p, f, k). -/
theorem fieldSum_apply (v : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (p : Fin a) (f : Fin b) :
    multiReduction .add [2] ⟨2, ![a, b]⟩ v acc h hφ hacc (ix2 p f) = ∑ k : Fin c, v (ix3 p f k) := by
  refine (Ideal.multiReduction_add_single v acc h hφ hacc (ix2 p f)).trans ?_
  exact Finset.sum_congr rfl fun k _ => congrArg v (lift_field h p f k)

/-- The host's sum of an [a, b, c] array along its last axis, at (p, f): the initial value plus the sum over k of
    the entries (p, f, k). -/
theorem hostFieldSum_apply {u : Shape} (x : FVec Ideal ⟨3, ![a, b, c]⟩ .f32) (init : u.Idx → Ideal .f32)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (f : Fin b) :
    Host.reduceAdd (F := Ideal) x init h' hu (ix2 p f) = init (Shape.Idx.first hu) + ∑ k : Fin c, x (ix3 p f k) := by
  unfold Host.reduceAdd
  rw [Ideal.hostReduceAdd_def, Ideal.hostReduceAdd_single h' h]
  exact congrArg (_ + ·) (Finset.sum_congr rfl fun k _ => congrArg x (lift_field h p f k))

/-- An [a, b] array viewed as [a, b, 1] reads, at (p, f, 0), the array's entry (p, f). -/
theorem shapeCast_ab_ab1_apply (x : (⟨2, ![a, b]⟩ : Shape).Idx → α)
    (h : (⟨2, ![a, b]⟩ : Shape).ShapeCasts ⟨3, ![a, b, 1]⟩) (p : Fin a) (f : Fin b) (z : Fin 1) :
    shapeCast ⟨3, ![a, b, 1]⟩ x h (ix3 p f z) = x (ix2 p f) :=
  shapeCast_apply x h _ _ (by
    rw [Shape.rowMajor_val_two, Shape.rowMajor_val_three]
    show p.val * b + f.val = (p.val * b + f.val) * 1 + z.val
    have := z.isLt
    omega)

/-- An [a, b, 1] array spread over [a, b, c] reads, at (p, f, k), the array's entry (p, f, 0). -/
theorem broadcastTo_ab1_abc_apply (x : (⟨3, ![a, b, 1]⟩ : Shape).Idx → α)
    (h : (⟨3, ![a, b, 1]⟩ : Shape).Broadcasts ⟨3, ![a, b, c]⟩) (p : Fin a) (f : Fin b) (k : Fin c) :
    broadcastTo ⟨3, ![a, b, c]⟩ x h (ix3 p f k) = x (ix3 p f (0 : Fin 1)) :=
  broadcastTo_apply x h _ _ (fun ax => by
    match ax with
    | ⟨0, _⟩ =>
      show p.val = if a = 1 then 0 else p.val
      split
      · have := p.isLt; omega
      · rfl
    | ⟨1, _⟩ =>
      show f.val = if b = 1 then 0 else f.val
      split
      · have := f.isLt; omega
      · rfl
    | ⟨2, _⟩ =>
      show 0 = if (1 : ℕ) = 1 then 0 else k.val
      rw [if_pos rfl])

end Cert.LibFields

end
-- ==== Proof.LibRowReduce.lean ====
/-
  Rows of a matrix reduced along their entries, and a matrix read through its transpose.

  Over the extended reals a host sum of an [a, b] array along its second axis is, at row r, the initial value plus
  the plain sum over k of the entries (r, k).  A maximum along the second axis, whether taken by a lane reduction or
  by the host, is at row r the fold of max from the initial value over the entries (r, k), in any order.  The word
  of minus infinity is the least extended real, so taking a maximum with it changes nothing.  The transpose of a
  [b, a] matrix holds at (k, j) the matrix's entry (j, k).
-/
import Idealize.ShloMosaic.Lib.Pipeline.Value
import Idealize.ShloMosaic.Lib.ValueIdx
import Idealize.ShloMosaic.PureOps.Ideal.Laws

noncomputable section

open scoped BigOperators

namespace Cert.LibRowReduce

open Idealize.ShloMosaic Idealize.ShloMosaic.ValueIdx

variable {a b : ℕ}

/-- The index of row r with the second coordinate k put back is (r, k). -/
theorem lift_row (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext ax
  refine Fin.ext ?_
  match ax with
  | ⟨0, _⟩ => rfl
  | ⟨1, _⟩ => rfl

/-- The host's sum of an [a, b] array along axis 1, at row r: the initial value plus the sum over k of the
    entries (r, k). -/
theorem hostRowSum_apply {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd (F := Ideal) x init h' hu (ix1 r) = init (Shape.Idx.first hu) + ∑ k : Fin b, x (ix2 r k) := by
  unfold Host.reduceAdd
  rw [Ideal.hostReduceAdd_def, Ideal.hostReduceAdd_single h' h]
  refine congrArg (_ + ·) (Finset.sum_congr rfl fun k _ => congrArg x ?_)
  exact lift_row h r k

/-- A lane maximum of an [a, b] f32 vector along axis 1, at row r: the fold of max from the accumulator's value over the
    entries (r, k). -/
theorem rowMax_apply (v : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ v acc h hφ hacc (ix1 r)
      = (Finset.univ : Finset (Fin b)).fold max (Ideal.ofBits .f32 acc) (fun k => v (ix2 r k)) := by
  refine (Ideal.multiReduction_maximumf_single v acc h hφ hacc (ix1 r)).trans ?_
  refine congrArg (fun f => Finset.fold max (Ideal.ofBits .f32 acc) f (Finset.univ : Finset (Fin b))) ?_
  funext k
  exact congrArg v (lift_row h r k)

/-- The host's maximum of an [a, b] array along axis 1, at row r: the fold of max from the initial value over the
    entries (r, k). -/
theorem hostRowMax_apply {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun k => x (ix2 r k)) := by
  rw [Host.reduce_eq_fold_single (FloatOps.maximumf (F := Ideal) (φ := .f32)) x init h' h hu]
  refine congrArg (fun f => Finset.fold max (init (Shape.Idx.first hu)) f (Finset.univ : Finset (Fin b))) ?_
  funext k
  exact congrArg x (lift_row h r k)

/-- The f32 word of minus infinity is the least extended real: a maximum with it is the other operand. -/
theorem max_negInf_left (y : EReal) : max (Ideal.ofBits .f32 0xFF800000#32) y = y := by
  simp [Ideal.ofBits, Ideal.ieee]

/-- The transpose of a [b, a] matrix reads, at (k, j), the matrix's entry (j, k). -/
theorem transpose_swap_apply {α : Type} (x : (⟨2, ![b, a]⟩ : Shape).Idx → α)
    (h : (⟨2, ![b, a]⟩ : Shape).Transposes [1, 0] ⟨2, ![a, b]⟩) (k : Fin a) (j : Fin b) :
    transpose ⟨2, ![a, b]⟩ [1, 0] x h (ix2 k j) = x (ix2 j k) := by
  refine transpose_apply [1, 0] x h (ix2 k j) (ix2 j k) fun ax => ?_
  match ax with
  | ⟨0, _⟩ => rfl
  | ⟨1, _⟩ => rfl

end Cert.LibRowReduce

end
-- ==== Proof.LibIndicator.lean ====
/-
  The class indicator, on words and as a real number.

  Both programs build the 0/1 indicator "this pixel's label is class c" by comparing two 32-bit words for equality and
  converting the answer bit to a float: one converts the bit as an unsigned number, the other widens it to 32 bits with
  zeros and converts it as a signed number, and they compare the two words in opposite orders.  Either way the float is
  the real number 1 when the words are equal and 0 when they are not.
-/
import Idealize.ShloMosaic.PureOps
import Idealize.ShloMosaic.PureOps.Ideal

noncomputable section

namespace Cert.Dice

open Idealize.ShloMosaic

/-- The indicator of `t = c` as a real number. -/
def ind (t c : BitVec 32) : ℝ := if t = c then 1 else 0

theorem uitofp_ind (t c : BitVec 32) :
    (FloatOps.uitofp (F := Ideal) .f32 (IntOp.cmpi .eq t c) : EReal) = ((ind t c : ℝ) : EReal) := by
  show ((((IntOp.cmpi .eq t c).toNat : ℕ) : ℝ) : EReal) = _
  unfold IntOp.cmpi ind
  by_cases h : t = c
  · subst h; simp
  · simp [h]

theorem sitofp_ind (t c : BitVec 32) :
    (FloatOps.sitofp (F := Ideal) .f32 ((IntOp.cmpi .eq c t).setWidth 32) : EReal) = ((ind t c : ℝ) : EReal) := by
  show (((((IntOp.cmpi .eq c t).setWidth 32).toInt : ℤ) : ℝ) : EReal) = _
  unfold IntOp.cmpi ind
  by_cases h : t = c
  · subst h; simp
  · have hb : (c == t) = false := beq_eq_false_iff_ne.mpr fun e => h e.symm
    simp [h, hb]

end Cert.Dice

end
-- ==== Proof.KTile.lean ====
/-
  One grid point's arithmetic, read at an index.

  At a grid point the body holds a tile of logits x[c, r, w] (32 classes, 64 rows, 512 columns) and the tile of labels
  t[r, w].  It forms, for every pixel (r, w), the softmax over the 32 classes in the quotient spelling
  exp(x - top) / Σ_k exp(x_k - top) with top the fold of max from minus infinity over the classes, and the indicator
  [label = c]; then three per-class totals over the tile — of the probabilities, of probability·indicator, of the indicators —
  each a sum over the columns and then over the rows, viewed as a [1, 1, 32] row and added to what the output block held.
-/
import proofs.«137565_j22840636080773_2_alg».proof.Proof.Gen.KernelIdeal.Skeleton
import Idealize.ShloMosaic.Lib.Pipeline.Value
import Idealize.ShloMosaic.Lib.ValueIdx
import Idealize.ShloMosaic.PureOps.Ideal.Laws
import proofs.«137565_j22840636080773_2_alg».proof.Proof.LibFields
import proofs.«137565_j22840636080773_2_alg».proof.Proof.LibRowReduce
import proofs.«137565_j22840636080773_2_alg».proof.Proof.LibIndicator

noncomputable section

open scoped BigOperators

namespace Cert.KernelIdeal.Body

open Cert.KernelIdeal Cert.KernelIdeal.Gen Idealize.ShloMosaic Idealize.ShloMosaic.ValueIdx

variable {F : FTy → Type} [FloatOps F]

/-! ## The payloads in one vocabulary -/

/-- The per-class total of a tile, as a [1, 1, 32] row: columns summed, then rows. -/
def tileSum (v : FVec F S32x64x512 .f32) : FVec F S1x1x32 .f32 :=
  shapeCast S1x1x32
    (multiReduction .add [1] S32
      (multiReduction .add [2] S32x64 v 0x00000000#32 reduces_S32x64x512_S32x64 (.inl rfl) rfl)
      0x00000000#32 reduces_S32x64_S32 (.inl rfl) rfl)
    shapeCasts_S32_S1x1x32

/-- Each pixel's largest logit, spread back over the classes. -/
def tileTop (v4 : FVec F S32x64x512 .f32) : FVec F S32x64x512 .f32 :=
  broadcastTo S32x64x512 (shapeCast S1x64x512
    (multiReduction .maximumf [0] S64x512 v4 0xFF800000#32 reduces_S32x64x512_S64x512 (.inl rfl) rfl)
    shapeCasts_S64x512_S1x64x512) broadcasts_S1x64x512_S32x64x512

/-- The exponentials of the shifted logits. -/
def tileExp (v4 : FVec F S32x64x512 .f32) : FVec F S32x64x512 .f32 := exp (subf v4 (tileTop v4))

/-- Each pixel's sum of exponentials, spread back over the classes. -/
def tileDen (v4 : FVec F S32x64x512 .f32) : FVec F S32x64x512 .f32 :=
  broadcastTo S32x64x512 (shapeCast S1x64x512
    (multiReduction .add [0] S64x512 (tileExp v4) 0x00000000#32 reduces_S32x64x512_S64x512 (.inl rfl) rfl)
    shapeCasts_S64x512_S1x64x512) broadcasts_S1x64x512_S32x64x512

/-- The softmax of a tile of logits over its first axis, in the quotient spelling. -/
def tileSoft (v4 : FVec F S32x64x512 .f32) : FVec F S32x64x512 .f32 := divf (tileExp v4) (tileDen v4)

theorem pay6_eq (x0 : Vec F S1x32x64x512 .f32) :
    k0_pay6 x0 = tileSoft (shapeCast S32x64x512 x0 shapeCasts_S1x32x64x512_S32x64x512) := rfl

theorem pay10_eq (x0 : Vec F S1x32x64x512 .f32) (acc : Vec F S1x1x32 .f32) :
    k0_pay10 x0 acc = addf (shapeCast S1x1x32 acc shapeCasts_S1x1x32_S1x1x32) (tileSum (k0_pay6 x0)) := rfl

theorem pay1_eq (x0 : Vec F S1x32x64x512 .f32) (x1 : Vec F S1x64x512 .i32) (acc : Vec F S1x1x32 .f32) :
    k0_pay1 (k0_pay8 x0 x1) acc
      = addf (shapeCast S1x1x32 acc shapeCasts_S1x1x32_S1x1x32) (tileSum (mulf (k0_pay6 x0) (k0_pay7 (F := F) x1))) := rfl

theorem pay2_eq (x1 : Vec F S1x64x512 .i32) (acc : Vec F S1x1x32 .f32) :
    k0_pay2 (k0_pay9 (F := F) x1) acc
      = addf (shapeCast S1x1x32 acc shapeCasts_S1x1x32_S1x1x32) (tileSum (k0_pay7 (F := F) x1)) := rfl

/-! ## Layout operations of these shapes, read at an index -/

section Layout

variable {α : Type}

/-- A [1, 32, 64, 512] block viewed as [32, 64, 512]. -/
theorem dropLead_apply (x : S1x32x64x512.Idx → α) (h : S1x32x64x512.ShapeCasts S32x64x512) (c : Fin 32) (r : Fin 64)
    (w : Fin 512) : shapeCast S32x64x512 x h (ix3 c r w) = x (ix4 (0 : Fin 1) c r w) :=
  shapeCast_apply x h _ _ (by
    rw [Shape.rowMajor_val_four, Shape.rowMajor_val_three]
    show (((0 : ℕ) * 32 + c.val) * 64 + r.val) * 512 + w.val = (c.val * 64 + r.val) * 512 + w.val
    omega)

/-- A [64, 512] array viewed as [1, 64, 512] and spread over the 32 classes. -/
theorem spreadRows_apply (u : S64x512.Idx → α) (h1 : S64x512.ShapeCasts S1x64x512) (h2 : S1x64x512.Broadcasts S32x64x512)
    (c : Fin 32) (r : Fin 64) (w : Fin 512) :
    broadcastTo S32x64x512 (shapeCast S1x64x512 u h1) h2 (ix3 c r w) = u (ix2 r w) := by
  rw [broadcastTo_apply (shapeCast S1x64x512 u h1) h2 (ix3 c r w) (ix3 (0 : Fin 1) r w) (fun ax => by
    match ax with
    | ⟨0, _⟩ => show (0 : ℕ) = if (1 : ℕ) = 1 then 0 else c.val; rw [if_pos rfl]
    | ⟨1, _⟩ => show r.val = if (64 : ℕ) = 1 then 0 else r.val; rw [if_neg (by decide)]
    | ⟨2, _⟩ => show w.val = if (512 : ℕ) = 1 then 0 else w.val; rw [if_neg (by decide)])]
  exact shapeCast_apply u h1 _ _ (by
    rw [Shape.rowMajor_val_two, Shape.rowMajor_val_three]
    show r.val * 512 + w.val = ((0 : ℕ) * 64 + r.val) * 512 + w.val
    omega)

/-- A [1, 64, 512] block spread over the 32 classes. -/
theorem spreadBlock_apply (u : S1x64x512.Idx → α) (h2 : S1x64x512.Broadcasts S32x64x512)
    (c : Fin 32) (r : Fin 64) (w : Fin 512) :
    broadcastTo S32x64x512 u h2 (ix3 c r w) = u (ix3 (0 : Fin 1) r w) :=
  broadcastTo_apply u h2 (ix3 c r w) (ix3 (0 : Fin 1) r w) (fun ax => by
    match ax with
    | ⟨0, _⟩ => show (0 : ℕ) = if (1 : ℕ) = 1 then 0 else c.val; rw [if_pos rfl]
    | ⟨1, _⟩ => show r.val = if (64 : ℕ) = 1 then 0 else r.val; rw [if_neg (by decide)]
    | ⟨2, _⟩ => show w.val = if (512 : ℕ) = 1 then 0 else w.val; rw [if_neg (by decide)])

/-- A length-32 array viewed as a [1, 1, 32] row. -/
theorem rowOf_apply (u : S32.Idx → α) (h : S32.ShapeCasts S1x1x32) (c : Fin 32) :
    shapeCast S1x1x32 u h (ix3 (0 : Fin 1) (0 : Fin 1) c) = u (ix1 c) :=
  shapeCast_apply u h _ _ (by
    rw [Shape.rowMajor_val_one, Shape.rowMajor_val_three]
    show c.val = ((0 : ℕ) * 1 + 0) * 32 + c.val
    omega)

end Layout

/-! ## Reductions of these shapes at the extended reals -/

/-- The index (r, w) with the class k put back in front is (k, r, w). -/
theorem lift_class (h : S32x64x512.Reduces [0] S64x512) (r : Fin 64) (w : Fin 512) (k : Fin (S32x64x512.size 0)) :
    h.lift (ix2 r w) k = ix3 (⟨k.val, k.isLt⟩ : Fin 32) r w := by
  funext ax
  refine Fin.ext ?_
  match ax with
  | ⟨0, _⟩ => rfl
  | ⟨1, _⟩ => rfl
  | ⟨2, _⟩ => rfl

theorem classSum_apply (v : FVec Ideal S32x64x512 .f32) (h : S32x64x512.Reduces [0] S64x512) (hφ : FKind.Formats .f32)
    (hacc : (0x00000000#32 : BitVec 32) = 0x00000000#32) (r : Fin 64) (w : Fin 512) :
    multiReduction .add [0] S64x512 v 0x00000000#32 h hφ hacc (ix2 r w) = ∑ k : Fin 32, v (ix3 k r w) := by
  refine (Ideal.multiReduction_add_single v _ h hφ hacc (ix2 r w)).trans ?_
  exact Finset.sum_congr rfl fun k _ => congrArg v (lift_class h r w k)

theorem classMax_apply (v : FVec Ideal S32x64x512 .f32) (h : S32x64x512.Reduces [0] S64x512) (hφ : FKind.Formats .f32)
    (hacc : (0xFF800000#32 : BitVec 32) = 0xFF800000#32) (r : Fin 64) (w : Fin 512) :
    multiReduction .maximumf [0] S64x512 v 0xFF800000#32 h hφ hacc (ix2 r w)
      = (Finset.univ : Finset (Fin 32)).fold max (Ideal.ofBits .f32 0xFF800000#32) (fun k => v (ix3 k r w)) := by
  refine (Ideal.multiReduction_maximumf_single v _ h hφ hacc (ix2 r w)).trans ?_
  refine congrArg (fun f => Finset.fold max (Ideal.ofBits .f32 0xFF800000#32) f (Finset.univ : Finset (Fin 32))) ?_
  funext k
  exact congrArg v (lift_class h r w k)

/-- The sum along axis 1 of a [32, 64] array at class c. -/
theorem rowsSum_apply (v : FVec Ideal S32x64 .f32) (h : S32x64.Reduces [1] S32) (hφ : FKind.Formats .f32)
    (hacc : (0x00000000#32 : BitVec 32) = 0x00000000#32) (c : Fin 32) :
    multiReduction .add [1] S32 v 0x00000000#32 h hφ hacc (ix1 c) = ∑ r : Fin 64, v (ix2 c r) := by
  refine (Ideal.multiReduction_add_single v _ h hφ hacc (ix1 c)).trans ?_
  exact Finset.sum_congr rfl fun k _ => congrArg v (LibRowReduce.lift_row h c k)

/-! ## The three vocabulary terms at an index -/

/-- A tile's per-class total: the sum over rows of the sums over columns. -/
theorem tileSum_apply (v : FVec Ideal S32x64x512 .f32) (c : Fin 32) :
    tileSum v (ix3 (0 : Fin 1) (0 : Fin 1) c) = ∑ r : Fin 64, ∑ w : Fin 512, v (ix3 c r w) :=
  (rowOf_apply _ shapeCasts_S32_S1x1x32 c).trans
    ((rowsSum_apply _ reduces_S32x64_S32 (.inl rfl) rfl c).trans
      (Finset.sum_congr rfl fun r _ => LibFields.fieldSum_apply v _ reduces_S32x64x512_S32x64 (.inl rfl) rfl c r))

/-- The largest logit of pixel (r, w), folded from minus infinity. -/
def topOf (v4 : FVec Ideal S32x64x512 .f32) (r : Fin 64) (w : Fin 512) : EReal :=
  (Finset.univ : Finset (Fin 32)).fold max (Ideal.ofBits .f32 0xFF800000#32) (fun k => v4 (ix3 k r w))

theorem tileTop_apply (v4 : FVec Ideal S32x64x512 .f32) (k : Fin 32) (r : Fin 64) (w : Fin 512) :
    tileTop v4 (ix3 k r w) = topOf v4 r w :=
  (spreadRows_apply _ shapeCasts_S64x512_S1x64x512 broadcasts_S1x64x512_S32x64x512 k r w).trans
    (classMax_apply v4 reduces_S32x64x512_S64x512 (.inl rfl) rfl r w)

theorem tileExp_apply (v4 : FVec Ideal S32x64x512 .f32) (k : Fin 32) (r : Fin 64) (w : Fin 512) :
    tileExp v4 (ix3 k r w) = Ideal.exp (v4 (ix3 k r w) - topOf v4 r w) :=
  congrArg (fun z => Ideal.exp (v4 (ix3 k r w) - z)) (tileTop_apply v4 k r w)

theorem tileDen_apply (v4 : FVec Ideal S32x64x512 .f32) (c : Fin 32) (r : Fin 64) (w : Fin 512) :
    tileDen v4 (ix3 c r w) = ∑ k : Fin 32, Ideal.exp (v4 (ix3 k r w) - topOf v4 r w) :=
  (spreadRows_apply _ shapeCasts_S64x512_S1x64x512 broadcasts_S1x64x512_S32x64x512 c r w).trans
    ((classSum_apply (tileExp v4) reduces_S32x64x512_S64x512 (.inl rfl) rfl r w).trans
      (Finset.sum_congr rfl fun k _ => tileExp_apply v4 k r w))

/-- The softmax of a tile at (c, r, w). -/
theorem tileSoft_apply (v4 : FVec Ideal S32x64x512 .f32) (c : Fin 32) (r : Fin 64) (w : Fin 512) :
    tileSoft v4 (ix3 c r w)
      = Ideal.div (Ideal.exp (v4 (ix3 c r w) - topOf v4 r w)) (∑ k : Fin 32, Ideal.exp (v4 (ix3 k r w) - topOf v4 r w)) :=
  congrArg₂ Ideal.div (tileExp_apply v4 c r w) (tileDen_apply v4 c r w)

/-- The indicator tile at (c, r, w). -/
theorem pay7_apply (x1 : Vec Ideal S1x64x512 .i32) (c : Fin 32) (r : Fin 64) (w : Fin 512) :
    k0_pay7 (F := Ideal) x1 (ix3 c r w) = ((Cert.Dice.ind (x1 (ix3 (0 : Fin 1) r w)) (BitVec.ofNat 32 c.val) : ℝ) : EReal) := by
  unfold k0_pay7
  show FloatOps.sitofp (F := Ideal) .f32 ((IntOp.cmpi .eq (iota .tc S32x64x512 32 [0] iota_S32x64x512_d0_w32 (ix3 c r w))
    (broadcastTo S32x64x512 (shapeCast S1x64x512 (shapeCast S64x512 x1 shapeCasts_S1x64x512_S64x512)
      shapeCasts_S64x512_S1x64x512) broadcasts_S1x64x512_S32x64x512 (ix3 c r w))).setWidth 32) = _
  rw [shapeCast_shapeCast, spreadBlock_apply, iota_single_apply]
  exact Cert.Dice.sitofp_ind _ _

end Cert.KernelIdeal.Body

end
-- ==== Proof.KCases.lean ====
/-
  What each case of the body leaves in the three output blocks.

  The body has two cases: at the first tile of an image (the grid's second coordinate is 0) it zeroes the three output
  blocks and then adds the tile's three totals to them; at the other tiles it adds the totals to what the blocks held.
  So case A leaves 0 + total and case B leaves (what was there) + total, for each of the three outputs.
-/
import proofs.«137565_j22840636080773_2_alg».proof.Proof.Gen.KernelIdeal.Frame
import proofs.«137565_j22840636080773_2_alg».proof.Proof.KTile
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.Body

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

theorem out_A_2 (c : Dev nD) (i : grid0.Coords) (a2 : Memref sig .tc .vmem S1x32x64x512 .f32) (h2 : a2.IsWhole) (a3 : Memref sig .tc .vmem S1x64x512 .i32) (h3 : a3.IsWhole) (a4 : Memref sig .tc .vmem S1x1x32 .f32) (h4 : a4.IsWhole) (a5 : Memref sig .tc .vmem S1x1x32 .f32) (h5 : a5.IsWhole) (a6 : Memref sig .tc .vmem S1x1x32 .f32) (h6 : a6.IsWhole) (hc : cond0_0 i)
    (x0 : Vec F S1x32x64x512 .f32) (x1 : Vec F S1x64x512 .i32) :
    out0_A_2 c i a2 h2 a3 h3 a4 h4 a5 h5 a6 h6 hc x0 x1 = k0_pay10 x0 k0_pay3 := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_cons_unit_zero (S := S1x1x32) hz3, View.readCov_unit_zero (S := S1x1x32) _ hz3]
  simp only [View.readAt_eq_ld, h2.read_unread, h3.read_unread, View.ld_unit_zero (S := S1x32x64x512) hz4,
    View.ld_unit_zero (S := S1x64x512) hz3]

theorem out_A_3 (c : Dev nD) (i : grid0.Coords) (a2 : Memref sig .tc .vmem S1x32x64x512 .f32) (h2 : a2.IsWhole) (a3 : Memref sig .tc .vmem S1x64x512 .i32) (h3 : a3.IsWhole) (a4 : Memref sig .tc .vmem S1x1x32 .f32) (h4 : a4.IsWhole) (a5 : Memref sig .tc .vmem S1x1x32 .f32) (h5 : a5.IsWhole) (a6 : Memref sig .tc .vmem S1x1x32 .f32) (h6 : a6.IsWhole) (hc : cond0_0 i)
    (x0 : Vec F S1x32x64x512 .f32) (x1 : Vec F S1x64x512 .i32) :
    out0_A_3 c i a2 h2 a3 h3 a4 h4 a5 h5 a6 h6 hc x0 x1 = k0_pay1 (k0_pay8 x0 x1) k0_pay4 := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S1x1x32) hz3, View.readCov_unit_zero (S := S1x1x32) _ hz3]
  simp only [View.readAt_eq_ld, h2.read_unread, h3.read_unread, View.ld_unit_zero (S := S1x32x64x512) hz4,
    View.ld_unit_zero (S := S1x64x512) hz3]

theorem out_A_4 (c : Dev nD) (i : grid0.Coords) (a2 : Memref sig .tc .vmem S1x32x64x512 .f32) (h2 : a2.IsWhole) (a3 : Memref sig .tc .vmem S1x64x512 .i32) (h3 : a3.IsWhole) (a4 : Memref sig .tc .vmem S1x1x32 .f32) (h4 : a4.IsWhole) (a5 : Memref sig .tc .vmem S1x1x32 .f32) (h5 : a5.IsWhole) (a6 : Memref sig .tc .vmem S1x1x32 .f32) (h6 : a6.IsWhole) (hc : cond0_0 i)
    (x0 : Vec F S1x32x64x512 .f32) (x1 : Vec F S1x64x512 .i32) :
    out0_A_4 c i a2 h2 a3 h3 a4 h4 a5 h5 a6 h6 hc x0 x1 = k0_pay2 (k0_pay9 (F := F) x1) k0_pay5 := by
  unfold out0_A_4
  rw [View.read_writes_eq_canon _ _ _ (cover0_A_4 c i a2 h2 a3 h3 a4 h4 a5 h5 a6 h6 hc x0 x1)]
  unfold kernelRun0_A
  dsimp only
  sl_unfold_words
  rw [View.canon_cons_unit_zero (S := S1x1x32) hz3, View.readCov_unit_zero (S := S1x1x32) _ hz3]
  simp only [View.readAt_eq_ld, h2.read_unread, h3.read_unread, View.ld_unit_zero (S := S1x32x64x512) hz4,
    View.ld_unit_zero (S := S1x64x512) hz3]

theorem out_B_2 (c : Dev nD) (i : grid0.Coords) (a2 : Memref sig .tc .vmem S1x32x64x512 .f32) (h2 : a2.IsWhole) (a3 : Memref sig .tc .vmem S1x64x512 .i32) (h3 : a3.IsWhole) (a4 : Memref sig .tc .vmem S1x1x32 .f32) (h4 : a4.IsWhole) (a5 : Memref sig .tc .vmem S1x1x32 .f32) (h5 : a5.IsWhole) (a6 : Memref sig .tc .vmem S1x1x32 .f32) (h6 : a6.IsWhole) (hc : ¬cond0_0 i)
    (x0 : Vec F S1x32x64x512 .f32) (x1 : Vec F S1x64x512 .i32) (xo2 xo3 xo4 : Vec F S1x1x32 .f32) :
    out0_B_2 c i a2 h2 a3 h3 a4 h4 a5 h5 a6 h6 hc x0 x1 xo2 xo3 xo4 = k0_pay10 x0 xo2 := by
  unfold out0_B_2
  rw [View.read_writes_eq_canon _ _ _ (cover0_B_2 c i a2 h2 a3 h3 a4 h4 a5 h5 a6 h6 hc x0 x1 xo2 xo3 xo4)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S1x32x64x512) hz4, View.ld_unit_zero (S := S1x64x512) hz3, View.ld_unit_zero (S := S1x1x32) hz3]

theorem out_B_3 (c : Dev nD) (i : grid0.Coords) (a2 : Memref sig .tc .vmem S1x32x64x512 .f32) (h2 : a2.IsWhole) (a3 : Memref sig .tc .vmem S1x64x512 .i32) (h3 : a3.IsWhole) (a4 : Memref sig .tc .vmem S1x1x32 .f32) (h4 : a4.IsWhole) (a5 : Memref sig .tc .vmem S1x1x32 .f32) (h5 : a5.IsWhole) (a6 : Memref sig .tc .vmem S1x1x32 .f32) (h6 : a6.IsWhole) (hc : ¬cond0_0 i)
    (x0 : Vec F S1x32x64x512 .f32) (x1 : Vec F S1x64x512 .i32) (xo2 xo3 xo4 : Vec F S1x1x32 .f32) :
    out0_B_3 c i a2 h2 a3 h3 a4 h4 a5 h5 a6 h6 hc x0 x1 xo2 xo3 xo4 = k0_pay1 (k0_pay8 x0 x1) xo3 := by
  unfold out0_B_3
  rw [View.read_writes_eq_canon _ _ _ (cover0_B_3 c i a2 h2 a3 h3 a4 h4 a5 h5 a6 h6 hc x0 x1 xo2 xo3 xo4)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S1x32x64x512) hz4, View.ld_unit_zero (S := S1x64x512) hz3, View.ld_unit_zero (S := S1x1x32) hz3]

theorem out_B_4 (c : Dev nD) (i : grid0.Coords) (a2 : Memref sig .tc .vmem S1x32x64x512 .f32) (h2 : a2.IsWhole) (a3 : Memref sig .tc .vmem S1x64x512 .i32) (h3 : a3.IsWhole) (a4 : Memref sig .tc .vmem S1x1x32 .f32) (h4 : a4.IsWhole) (a5 : Memref sig .tc .vmem S1x1x32 .f32) (h5 : a5.IsWhole) (a6 : Memref sig .tc .vmem S1x1x32 .f32) (h6 : a6.IsWhole) (hc : ¬cond0_0 i)
    (x0 : Vec F S1x32x64x512 .f32) (x1 : Vec F S1x64x512 .i32) (xo2 xo3 xo4 : Vec F S1x1x32 .f32) :
    out0_B_4 c i a2 h2 a3 h3 a4 h4 a5 h5 a6 h6 hc x0 x1 xo2 xo3 xo4 = k0_pay2 (k0_pay9 (F := F) x1) xo4 := by
  unfold out0_B_4
  rw [View.read_writes_eq_canon _ _ _ (cover0_B_4 c i a2 h2 a3 h3 a4 h4 a5 h5 a6 h6 hc x0 x1 xo2 xo3 xo4)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S1x32x64x512) hz4, View.ld_unit_zero (S := S1x64x512) hz3, View.ld_unit_zero (S := S1x1x32) hz3]

end Cert.KernelIdeal.Acc

end
-- ==== Proof.LibTiles.lean ====
/-
  A sum over a long axis taken tile by tile.

  In any commutative additive monoid, the sum over c < a·b of f c is the sum over the a tiles s of the sums over the
  b positions k inside a tile of f (b·s + k): the index c is written uniquely as b·s + k.
-/
import Mathlib.Algebra.BigOperators.Fin
import Mathlib.Logic.Equiv.Fin.Basic

open scoped BigOperators

namespace Cert.LibTiles

/-- Position k of tile s lies below a·b. -/
theorem tile_lt {a b s : ℕ} (hs : s < a) (k : Fin b) : b * s + k.val < a * b :=
  calc b * s + k.val < b * s + b := Nat.add_lt_add_left k.isLt _
    _ = b * (s + 1) := (Nat.mul_succ b s).symm
    _ ≤ b * a := Nat.mul_le_mul_left _ hs
    _ = a * b := Nat.mul_comm _ _

/-- The sum over every index is the sum over the tiles of the sums inside each tile. -/
theorem sum_tiles {M : Type*} [AddCommMonoid M] (a b : ℕ) (f : Fin (a * b) → M) :
    ∑ s : Fin a, ∑ k : Fin b, f ⟨b * s.val + k.val, tile_lt s.isLt k⟩ = ∑ c : Fin (a * b), f c := by
  rw [← Fintype.sum_prod_type' (f := fun (s : Fin a) (k : Fin b) => f ⟨b * s.val + k.val, tile_lt s.isLt k⟩)]
  refine Fintype.sum_equiv finProdFinEquiv _ _ fun p => congrArg f (Fin.ext ?_)
  show b * p.1.val + p.2.val = (finProdFinEquiv p).val
  rw [finProdFinEquiv_apply_val, Nat.add_comm]

/-- The same with the tiles counted by a range. -/
theorem sum_range_tiles {M : Type*} [AddCommMonoid M] (a b : ℕ) (f : Fin (a * b) → M)
    (g : ℕ → M) (hg : ∀ s : Fin a, g s.val = ∑ k : Fin b, f ⟨b * s.val + k.val, tile_lt s.isLt k⟩) :
    ∑ s ∈ Finset.range a, g s = ∑ c : Fin (a * b), f c := by
  rw [Finset.sum_range, ← sum_tiles a b f]
  exact Finset.sum_congr rfl fun s _ => hg s

end Cert.LibTiles
-- ==== Proof.LibConsts.lean ====
/-
  The float literals both programs spell, as the extended reals their bit patterns denote, and small facts about the
  extended reals used to carry real-valued arrays through sums, products, quotients and square roots.
-/
import Idealize.ShloMosaic.PureOps.Ideal
import Idealize.ShloMosaic.PureOps.Ideal.Laws

noncomputable section

namespace Cert.Consts

open Idealize.ShloMosaic

theorem ofBits_zero : Ideal.ofBits .f32 0x00000000#32 = 0 := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
/-- 65536.0 = 32 · 2048, the number of (graph, node) rows. -/
theorem ofBits_rows : Ideal.ofBits .f32 0x47800000#32 = ((65536 : ℝ) : EReal) := by
  simp [Ideal.ofBits, Ideal.ieee, -EReal.coe_mul]; norm_num
/-- The variance's epsilon is a positive real. -/
theorem ofBits_eps : ∃ ε : ℝ, 0 < ε ∧ Ideal.ofBits .f32 0x3727C5AC#32 = (ε : EReal) := by
  refine ⟨_, ?_, by simp [Ideal.ofBits, Ideal.ieee, -EReal.coe_mul]; rfl⟩
  norm_num

/-- The coercion commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The reciprocal square root of a positive real is the real 1 / √r. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- Division by a nonzero real is real division. -/
theorem div_real (x : ℝ) {y : ℝ} (h : y ≠ 0) : Ideal.div (x : EReal) (y : EReal) = ((x / y : ℝ) : EReal) := by
  rw [Ideal.div_coe h, ← EReal.coe_mul]; congr 1; field_simp

end Cert.Consts

end
-- ==== Proof.Tversky.lean ====
/-
  The mathematics both programs share, over the real numbers and their embedding in the extended reals.

  * A softmax of real logits z taken after subtracting a real shift M, `soft z M c = exp (z c - M) / Σ_k exp (z k - M)`,
    is what both spellings compute: the quotient of the exponential by the sum of exponentials (`soft_quot`), and the
    exponential of the shifted logit minus the logarithm of that sum (`soft_log`), because the sum is positive and
    exp (a - log s) = exp a / s.  The maximum of finitely many reals, folded from minus infinity, is a real (`fold_max_real`),
    so the shift both programs use is one.
  * With p the probabilities and o the 0/1 class indicators of all pixels, and the mask o·1 + e, the three Tversky sums
    Σ p·mask, Σ p·(1 - mask), Σ (1 - p)·mask are e·Σp + 1·Σp·o, Σp minus that, and (e·N + 1·Σo) minus that, N the number
    of pixels (`tp_id`, `fp_id`, `fn_id`); distributivity is used, so the entries have to be real.
  * The two float words involved: 0x322BCC77 is 11258999 / 2^50 (the float nearest 1e-8) and 0x3CABCC77 is the same
    significand 21 binary places higher, 11258999 / 2^29 — exactly 2^21 = 8·512·512 times the first.
-/
import Mathlib.Analysis.SpecialFunctions.Log.Basic
import proofs.«137565_j22840636080773_2_alg».proof.Proof.LibConsts

noncomputable section

open scoped BigOperators

namespace Cert.Dice

open Idealize.ShloMosaic

/-! ## The two words -/

theorem ofBits_e : Ideal.ofBits .f32 0x322BCC77#32 = (((11258999 : ℝ) / 2 ^ 50 : ℝ) : EReal) := by
  simp [Ideal.ofBits, Ideal.ieee, -EReal.coe_mul]; norm_num

theorem ofBits_eN : Ideal.ofBits .f32 0x3CABCC77#32 = (((11258999 : ℝ) / 2 ^ 50 * 2097152 : ℝ) : EReal) := by
  simp [Ideal.ofBits, Ideal.ieee, -EReal.coe_mul]; norm_num

theorem ofBits_negInf : Ideal.ofBits .f32 0xFF800000#32 = (⊥ : EReal) := by
  simp [Ideal.ofBits, Ideal.ieee]

/-! ## Softmax -/

section Softmax

variable {ι : Type} [Fintype ι] [Nonempty ι]

/-- The softmax of the logits `z` computed after subtracting the shift `M`. -/
def soft (z : ι → ℝ) (M : ℝ) (c : ι) : ℝ := Real.exp (z c - M) / ∑ k, Real.exp (z k - M)

theorem expsum_pos (z : ι → ℝ) (M : ℝ) : 0 < ∑ k, Real.exp (z k - M) :=
  Finset.sum_pos (fun k _ => Real.exp_pos _) Finset.univ_nonempty

theorem exp_shift (z : ι → ℝ) (M : ℝ) (k : ι) :
    Ideal.exp ((z k : EReal) - (M : EReal)) = ((Real.exp (z k - M) : ℝ) : EReal) := by
  rw [← EReal.coe_sub, Ideal.exp_coe]

/-- The quotient spelling. -/
theorem soft_quot (z : ι → ℝ) (M : ℝ) (c : ι) :
    Ideal.div (Ideal.exp ((z c : EReal) - (M : EReal))) (∑ k, Ideal.exp ((z k : EReal) - (M : EReal)))
      = ((soft z M c : ℝ) : EReal) := by
  simp only [exp_shift, ← Consts.coe_sum]
  exact Consts.div_real _ (expsum_pos z M).ne'

/-- The log-softmax spelling: the exponential of the shifted logit minus the logarithm of the sum (taken from zero). -/
theorem soft_log (z : ι → ℝ) (M : ℝ) (c : ι) :
    Ideal.exp (((z c : EReal) - (M : EReal)) - Ideal.log (0 + ∑ k, Ideal.exp ((z k : EReal) - (M : EReal))))
      = ((soft z M c : ℝ) : EReal) := by
  simp only [exp_shift, ← Consts.coe_sum, zero_add]
  rw [Ideal.log_coe, if_neg (not_le.mpr (expsum_pos z M)), ← EReal.coe_sub, ← EReal.coe_sub, Ideal.exp_coe]
  congr 1
  unfold soft
  rw [Real.exp_sub, Real.exp_log (expsum_pos z M)]

/-- The maximum of finitely many reals, folded from minus infinity, is a real. -/
theorem fold_max_real (z : ι → ℝ) :
    ∃ M : ℝ, (Finset.univ : Finset ι).fold max (⊥ : EReal) (fun k => (z k : EReal)) = (M : EReal) := by
  classical
  obtain ⟨k0⟩ := ‹Nonempty ι›
  have key : ∀ s : Finset ι, ∃ M : ℝ,
      max ((z k0 : ℝ) : EReal) (s.fold max (⊥ : EReal) (fun k => (z k : EReal))) = (M : EReal) := by
    intro s
    induction s using Finset.induction_on with
    | empty => exact ⟨z k0, by simp⟩
    | insert a s ha ih =>
      obtain ⟨M, hM⟩ := ih
      refine ⟨max (z a) M, ?_⟩
      rw [Finset.fold_insert ha, max_left_comm, hM]
      exact (EReal.coe_strictMono.monotone.map_max).symm
  obtain ⟨M, hM⟩ := key Finset.univ
  refine ⟨M, ?_⟩
  rw [← hM]
  exact (max_eq_right ((Finset.le_fold_max _).mpr (Or.inr ⟨k0, Finset.mem_univ _, le_rfl⟩))).symm

end Softmax

/-! ## The three sums -/

section Sums

variable {Q : Type} [Fintype Q]

theorem tp_id (p o : Q → ℝ) (e : ℝ) :
    e * (∑ q, p q) + 1 * (∑ q, p q * o q) = ∑ q, p q * (o q * 1 + e) := by
  rw [Finset.mul_sum, Finset.mul_sum, ← Finset.sum_add_distrib]
  exact Finset.sum_congr rfl fun q _ => by ring

theorem fp_id (p o : Q → ℝ) (e : ℝ) :
    (∑ q, p q) - (e * (∑ q, p q) + 1 * (∑ q, p q * o q)) = ∑ q, p q * (1 - (o q * 1 + e)) := by
  rw [Finset.mul_sum, Finset.mul_sum, ← Finset.sum_add_distrib, ← Finset.sum_sub_distrib]
  exact Finset.sum_congr rfl fun q _ => by ring

theorem fn_id (p o : Q → ℝ) (e N : ℝ) (hN : (Fintype.card Q : ℝ) = N) :
    (e * N + 1 * (∑ q, o q)) - (e * (∑ q, p q) + 1 * (∑ q, p q * o q)) = ∑ q, (1 - p q) * (o q * 1 + e) := by
  have hc : e * N = ∑ _q : Q, e := by
    rw [Finset.sum_const, Finset.card_univ, nsmul_eq_mul, hN, mul_comm]
  rw [hc, Finset.mul_sum, Finset.mul_sum, Finset.mul_sum, ← Finset.sum_add_distrib, ← Finset.sum_add_distrib,
    ← Finset.sum_sub_distrib]
  exact Finset.sum_congr rfl fun q _ => by ring

/-- The same three identities between extended reals that are real: the left sides as the kernel's epilogue spells them
    from the three totals, the right sides as sums, from zero, of the per-pixel products. -/
theorem tp_ereal (p o : Q → ℝ) (e : ℝ) :
    ((e : ℝ) : EReal) * ((∑ q, p q : ℝ) : EReal) + ((1 : ℝ) : EReal) * ((∑ q, p q * o q : ℝ) : EReal)
      = 0 + ∑ q, ((p q : ℝ) : EReal) * (((o q : ℝ) : EReal) * ((1 : ℝ) : EReal) + ((e : ℝ) : EReal)) := by
  simp only [← EReal.coe_mul, ← EReal.coe_add, ← Consts.coe_sum, zero_add]
  rw [tp_id]

theorem fp_ereal (p o : Q → ℝ) (e : ℝ) :
    ((∑ q, p q : ℝ) : EReal)
        - (((e : ℝ) : EReal) * ((∑ q, p q : ℝ) : EReal) + ((1 : ℝ) : EReal) * ((∑ q, p q * o q : ℝ) : EReal))
      = 0 + ∑ q, ((p q : ℝ) : EReal)
          * (((1 : ℝ) : EReal) - (((o q : ℝ) : EReal) * ((1 : ℝ) : EReal) + ((e : ℝ) : EReal))) := by
  simp only [← EReal.coe_mul, ← EReal.coe_add, ← EReal.coe_sub, ← Consts.coe_sum, zero_add]
  rw [fp_id]

theorem fn_ereal (p o : Q → ℝ) (e N : ℝ) (hN : (Fintype.card Q : ℝ) = N) :
    ((((e * N : ℝ) : EReal) + ((1 : ℝ) : EReal) * ((∑ q, o q : ℝ) : EReal))
        - (((e : ℝ) : EReal) * ((∑ q, p q : ℝ) : EReal) + ((1 : ℝ) : EReal) * ((∑ q, p q * o q : ℝ) : EReal)))
      = 0 + ∑ q, (((1 : ℝ) : EReal) - ((p q : ℝ) : EReal))
          * (((o q : ℝ) : EReal) * ((1 : ℝ) : EReal) + ((e : ℝ) : EReal)) := by
  simp only [← EReal.coe_mul, ← EReal.coe_add, ← EReal.coe_sub, ← Consts.coe_sum, zero_add]
  rw [fn_id p o e N hN]

end Sums

end Cert.Dice

end
-- ==== Proof.Pixels.lean ====
/-
  The pixels, counted two ways, and the per-pixel real numbers.

  The reference lists the 8·512·512 = 2097152 pixels in one row-major axis n, pixel n being image n / 262144, row
  n / 512 % 512, column n % 512.  The kernel visits them tile by tile: tile t (of 64) is image t / 8, rows
  64·(t % 8) … 64·(t % 8) + 63, all 512 columns.  Both enumerate every pixel once, so a sum over one is the sum over
  the other (`pixel_sum`).

  Coordinates are natural numbers here; `xr b k y x` is the (real) logit of class k at pixel (b, y, x) and `g b y x` the
  pixel's label word.  From them: the pixel's softmax probability of class c (its shift being the pixel's largest logit,
  any real would do) and the 0/1 indicator that the label is c.
-/
import proofs.«137565_j22840636080773_2_alg».proof.Proof.LibTiles
import proofs.«137565_j22840636080773_2_alg».proof.Proof.Tversky
import proofs.«137565_j22840636080773_2_alg».proof.Proof.LibIndicator

noncomputable section

open scoped BigOperators

namespace Cert.Dice

open Idealize.ShloMosaic

/-- One axis of 2097152 pixels against 64 tiles of 64 rows of 512 columns. -/
theorem pixel_sum {M : Type} [AddCommMonoid M] (f : ℕ → ℕ → ℕ → M) :
    ∑ n : Fin 2097152, f (n.val / 262144) (n.val / 512 % 512) (n.val % 512)
      = ∑ t : Fin 64, ∑ r : Fin 64, ∑ w : Fin 512, f (t.val / 8) (64 * (t.val % 8) + r.val) w.val := by
  have L : ∑ n : Fin 2097152, f (n.val / 262144) (n.val / 512 % 512) (n.val % 512)
      = ∑ b : Fin 8, ∑ h : Fin 8, ∑ r : Fin 64, ∑ w : Fin 512, f b.val (64 * h.val + r.val) w.val := by
    refine ((LibTiles.sum_tiles 8 262144
      (fun n : Fin (8 * 262144) => f (n.val / 262144) (n.val / 512 % 512) (n.val % 512))).symm.trans ?_)
    refine Finset.sum_congr rfl fun b _ => ?_
    refine ((LibTiles.sum_tiles 512 512
      (fun k : Fin (512 * 512) => f ((262144 * b.val + k.val) / 262144) ((262144 * b.val + k.val) / 512 % 512)
        ((262144 * b.val + k.val) % 512))).symm.trans ?_)
    refine ((LibTiles.sum_tiles 8 64
      (fun y : Fin (8 * 64) => ∑ w : Fin 512, f ((262144 * b.val + (512 * y.val + w.val)) / 262144)
        ((262144 * b.val + (512 * y.val + w.val)) / 512 % 512) ((262144 * b.val + (512 * y.val + w.val)) % 512))).symm.trans ?_)
    refine Finset.sum_congr rfl fun h _ => Finset.sum_congr rfl fun r _ => Finset.sum_congr rfl fun w _ => ?_
    have hb := b.isLt; have hh := h.isLt; have hr := r.isLt; have hw := w.isLt
    exact congr (congr (congrArg f (by dsimp only; omega)) (by dsimp only; omega)) (by dsimp only; omega)
  have R : ∑ t : Fin 64, ∑ r : Fin 64, ∑ w : Fin 512, f (t.val / 8) (64 * (t.val % 8) + r.val) w.val
      = ∑ b : Fin 8, ∑ h : Fin 8, ∑ r : Fin 64, ∑ w : Fin 512, f b.val (64 * h.val + r.val) w.val := by
    refine ((LibTiles.sum_tiles 8 8
      (fun t : Fin (8 * 8) => ∑ r : Fin 64, ∑ w : Fin 512, f (t.val / 8) (64 * (t.val % 8) + r.val) w.val)).symm.trans ?_)
    refine Finset.sum_congr rfl fun b _ => Finset.sum_congr rfl fun h _ => Finset.sum_congr rfl fun r _ =>
      Finset.sum_congr rfl fun w _ => ?_
    have hb := b.isLt; have hh := h.isLt
    exact congr (congr (congrArg f (by dsimp only; omega)) (by dsimp only; omega)) rfl
  exact L.trans R.symm

section Pixel

variable (xr : ℕ → ℕ → ℕ → ℕ → ℝ) (g : ℕ → ℕ → ℕ → BitVec 32)

/-- The 32 logits of pixel (b, y, x). -/
def logits (b y x : ℕ) : Fin 32 → ℝ := fun k => xr b k.val y x

/-- The pixel's largest logit. -/
def shiftOf (b y x : ℕ) : ℝ := Classical.choose (fold_max_real (logits xr b y x))

theorem shiftOf_spec (b y x : ℕ) :
    (Finset.univ : Finset (Fin 32)).fold max (⊥ : EReal) (fun k => ((logits xr b y x k : ℝ) : EReal))
      = ((shiftOf xr b y x : ℝ) : EReal) :=
  Classical.choose_spec (fold_max_real (logits xr b y x))

/-- The pixel's probability of class c. -/
def prob (b y x : ℕ) (c : Fin 32) : ℝ := soft (logits xr b y x) (shiftOf xr b y x) c

/-- The indicator that the pixel's label is class c. -/
def hot (b y x : ℕ) (c : Fin 32) : ℝ := ind (g b y x) (BitVec.ofNat 32 c.val)

end Pixel

end Cert.Dice

end
-- ==== Proof.KAcc.lean ====
/-
  The three output arrays after the run.

  Tile t (of 64) is image t / 8, rows 64·(t % 8) … 64·(t % 8) + 63.  When every logit is real, the body's three totals
  over tile t at class c are the real numbers

    tileS t c = Σ_r Σ_w p,   tileT t c = Σ_r Σ_w p·o,   tileN t c = Σ_r Σ_w o

  (p the pixel's softmax probability of class c, o its class indicator).  By induction over the grid points the output
  blocks hold, after tile t, the sums of those totals over the tiles of t's image up to t; the last tile of an image
  writes its block back, so entry (b, 0, c) of each output array ends at the sum over the image's eight tiles.
-/
import proofs.«137565_j22840636080773_2_alg».proof.Proof.KCases
import proofs.«137565_j22840636080773_2_alg».proof.Proof.Pixels

noncomputable section

open scoped BigOperators

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.Body Idealize.ShloMosaic.ValueIdx Cert.Dice

/-! ## The tile totals, as real numbers -/

section Totals

variable (xr : ℕ → ℕ → ℕ → ℕ → ℝ) (g : ℕ → ℕ → ℕ → BitVec 32)

def tileS (t : ℕ) (cc : Fin 32) : ℝ :=
  ∑ r : Fin 64, ∑ w : Fin 512, prob xr (t / 8) (64 * (t % 8) + r.val) w.val cc

def tileT (t : ℕ) (cc : Fin 32) : ℝ :=
  ∑ r : Fin 64, ∑ w : Fin 512, prob xr (t / 8) (64 * (t % 8) + r.val) w.val cc * hot g (t / 8) (64 * (t % 8) + r.val) w.val cc

def tileN (t : ℕ) (cc : Fin 32) : ℝ :=
  ∑ r : Fin 64, ∑ w : Fin 512, hot g (t / 8) (64 * (t % 8) + r.val) w.val cc

/-- Entry (b, 0, c) of the three output arrays. -/
def arrS : S8x1x32.Idx → EReal := fun i =>
  ((∑ q ∈ Finset.range 8, tileS xr (8 * (i 0).val + q) ⟨(i 2).val, (i 2).isLt⟩ : ℝ) : EReal)
def arrT : S8x1x32.Idx → EReal := fun i =>
  ((∑ q ∈ Finset.range 8, tileT xr g (8 * (i 0).val + q) ⟨(i 2).val, (i 2).isLt⟩ : ℝ) : EReal)
def arrN : S8x1x32.Idx → EReal := fun i =>
  ((∑ q ∈ Finset.range 8, tileN g (8 * (i 0).val + q) ⟨(i 2).val, (i 2).isLt⟩ : ℝ) : EReal)

end Totals

/-! ## The blocks' index maps over the grid -/

theorem idx_in : ∀ t : Fin cfg0.N, win0_0.index t 0 = t.val / 8 ∧ win0_0.index t 1 = 0 ∧ win0_0.index t 2 = t.val % 8
    ∧ win0_0.index t 3 = 0 ∧ win0_1.index t 0 = t.val / 8 ∧ win0_1.index t 1 = t.val % 8 ∧ win0_1.index t 2 = 0 :=
  (by decide +kernel : ∀ t : Fin grid0.N, _)

theorem idx_out2 : ∀ t : Fin cfg0.N, win0_2.index t 0 = t.val / 8 ∧ win0_2.index t 1 = 0 ∧ win0_2.index t 2 = 0 :=
  (by decide +kernel : ∀ t : Fin grid0.N, _)
theorem idx_out3 : ∀ t : Fin cfg0.N, win0_3.index t 0 = t.val / 8 ∧ win0_3.index t 1 = 0 ∧ win0_3.index t 2 = 0 :=
  (by decide +kernel : ∀ t : Fin grid0.N, _)
theorem idx_out4 : ∀ t : Fin cfg0.N, win0_4.index t 0 = t.val / 8 ∧ win0_4.index t 1 = 0 ∧ win0_4.index t 2 = 0 :=
  (by decide +kernel : ∀ t : Fin grid0.N, _)

/-! ## Adding a tile's total to a block -/

theorem add_first (z : Vec Ideal S1x1x32 .f32) (v : FVec Ideal S32x64x512 .f32) (y : S1x1x32.Idx) (s : ℝ)
    (hz : z y = 0) (hs : tileSum v y = (s : EReal)) :
    addf (shapeCast S1x1x32 z shapeCasts_S1x1x32_S1x1x32) (tileSum v) y = (s : EReal) := by
  rw [shapeCast_self]
  show z y + tileSum v y = _
  rw [hz, hs, zero_add]

theorem add_next (acc : Vec Ideal S1x1x32 .f32) (v : FVec Ideal S32x64x512 .f32) (y : S1x1x32.Idx) (a s : ℝ)
    (ha : acc y = (a : EReal)) (hs : tileSum v y = (s : EReal)) :
    addf (shapeCast S1x1x32 acc shapeCasts_S1x1x32_S1x1x32) (tileSum v) y = ((a + s : ℝ) : EReal) := by
  rw [shapeCast_self]
  show acc y + tileSum v y = _
  rw [ha, hs, EReal.coe_add]

/-- The zero block the first tile of an image stores. -/
theorem zero_row (y : S1x1x32.Idx) : (k0_pay3 (F := Ideal)) y = 0 := Cert.Consts.ofBits_zero

section Real

variable (m : (ℓ : Loc nD τ sig) → Buf (Elt Ideal) ℓ) (c : Dev nD)
variable (xr : ℕ → ℕ → ℕ → ℕ → ℝ) (g : ℕ → ℕ → ℕ → BitVec 32)
variable (hx : ∀ i : S8x32x512x512.Idx,
  m ((c : Thread nD τ).loc main_arg0) i = ((xr (i 0).val (i 1).val (i 2).val (i 3).val : ℝ) : EReal))
variable (hg : ∀ i : S8x512x512.Idx, m ((c : Thread nD τ).loc main_arg1) i = g (i 0).val (i 1).val (i 2).val)

/-! ## The input blocks -/

include hx in
theorem blk0_apply (t : Fin cfg0.N) (k : Fin 32) (r : Fin 64) (w : Fin 512) :
    (iblk m c 0 t : Vec Ideal S1x32x64x512 .f32) (ix4 (0 : Fin 1) k r w)
      = ((xr (t.val / 8) k.val (64 * (t.val % 8) + r.val) w.val : ℝ) : EReal) := by
  have hN : t.val < 64 := lt_of_lt_of_eq t.isLt (show cfg0.N = 64 from N_0)
  obtain ⟨e0, e1, e2, e3, -⟩ := idx_in t
  have hi : ((cfg0.win 0).blk t).view.emb (ix4 (0 : Fin 1) k r w)
      = (ix4 (⟨t.val / 8, by omega⟩ : Fin 8) k (⟨64 * (t.val % 8) + r.val, by omega⟩ : Fin 512) w : S8x32x512x512.Idx) := by
    funext a
    apply Fin.ext
    match a with
    | ⟨0, _⟩ => show win0_0.index t 0 * 1 + 1 * 0 = t.val / 8; omega
    | ⟨1, _⟩ => show win0_0.index t 1 * 32 + 1 * k.val = k.val; omega
    | ⟨2, _⟩ => show win0_0.index t 2 * 64 + 1 * r.val = 64 * (t.val % 8) + r.val; omega
    | ⟨3, _⟩ => show win0_0.index t 3 * 512 + 1 * w.val = w.val; omega
  unfold iblk
  rw [View.read_apply]
  show V m c main_arg0 (((cfg0.win 0).blk t).view.emb (ix4 (0 : Fin 1) k r w)) = _
  rw [hi]
  exact hx _

include hg in
theorem blk1_apply (t : Fin cfg0.N) (r : Fin 64) (w : Fin 512) :
    (iblk m c 1 t : Vec Ideal S1x64x512 .i32) (ix3 (0 : Fin 1) r w) = g (t.val / 8) (64 * (t.val % 8) + r.val) w.val := by
  have hN : t.val < 64 := lt_of_lt_of_eq t.isLt (show cfg0.N = 64 from N_0)
  obtain ⟨-, -, -, -, e0, e1, e2⟩ := idx_in t
  have hi : ((cfg0.win 1).blk t).view.emb (ix3 (0 : Fin 1) r w)
      = (ix3 (⟨t.val / 8, by omega⟩ : Fin 8) (⟨64 * (t.val % 8) + r.val, by omega⟩ : Fin 512) w : S8x512x512.Idx) := by
    funext a
    apply Fin.ext
    match a with
    | ⟨0, _⟩ => show win0_1.index t 0 * 1 + 1 * 0 = t.val / 8; omega
    | ⟨1, _⟩ => show win0_1.index t 1 * 64 + 1 * r.val = 64 * (t.val % 8) + r.val; omega
    | ⟨2, _⟩ => show win0_1.index t 2 * 512 + 1 * w.val = w.val; omega
  unfold iblk
  rw [View.read_apply]
  show V m c main_arg1 (((cfg0.win 1).blk t).view.emb (ix3 (0 : Fin 1) r w)) = _
  rw [hi]
  exact hg _

/-! ## One tile's arithmetic, in real numbers -/

include hx in
theorem v4_real (t : Fin cfg0.N) (k : Fin 32) (r : Fin 64) (w : Fin 512) :
    shapeCast S32x64x512 (iblk m c 0 t : Vec Ideal S1x32x64x512 .f32) shapeCasts_S1x32x64x512_S32x64x512 (ix3 k r w)
      = ((logits xr (t.val / 8) (64 * (t.val % 8) + r.val) w.val k : ℝ) : EReal) :=
  (dropLead_apply _ _ k r w).trans (blk0_apply m c xr hx t k r w)

include hx in
theorem top_real (t : Fin cfg0.N) (r : Fin 64) (w : Fin 512) :
    topOf (shapeCast S32x64x512 (iblk m c 0 t : Vec Ideal S1x32x64x512 .f32) shapeCasts_S1x32x64x512_S32x64x512) r w
      = ((shiftOf xr (t.val / 8) (64 * (t.val % 8) + r.val) w.val : ℝ) : EReal) := by
  unfold topOf
  rw [Cert.Dice.ofBits_negInf,
    show (fun k => shapeCast S32x64x512 (iblk m c 0 t : Vec Ideal S1x32x64x512 .f32) shapeCasts_S1x32x64x512_S32x64x512 (ix3 k r w))
      = fun k => ((logits xr (t.val / 8) (64 * (t.val % 8) + r.val) w.val k : ℝ) : EReal) from
      funext fun k => v4_real m c xr hx t k r w]
  exact shiftOf_spec xr _ _ _

include hx in
/-- The probability the body computes is the pixel's softmax probability. -/
theorem soft_real (t : Fin cfg0.N) (cc : Fin 32) (r : Fin 64) (w : Fin 512) :
    k0_pay6 (iblk m c 0 t : Vec Ideal S1x32x64x512 .f32) (ix3 cc r w)
      = ((prob xr (t.val / 8) (64 * (t.val % 8) + r.val) w.val cc : ℝ) : EReal) := by
  rw [pay6_eq]
  refine (tileSoft_apply _ cc r w).trans ?_
  refine (congrArg₂ Ideal.div
    (congrArg Ideal.exp (congrArg₂ (fun a b : EReal => a - b) (v4_real m c xr hx t cc r w) (top_real m c xr hx t r w)))
    (Finset.sum_congr rfl fun k _ => congrArg Ideal.exp
      (congrArg₂ (fun a b : EReal => a - b) (v4_real m c xr hx t k r w) (top_real m c xr hx t r w)))).trans ?_
  exact soft_quot _ _ cc

include hg in
/-- The body's class indicator is the real number 1 or 0. -/
theorem hot_real (t : Fin cfg0.N) (cc : Fin 32) (r : Fin 64) (w : Fin 512) :
    k0_pay7 (F := Ideal) (iblk m c 1 t : Vec Ideal S1x64x512 .i32) (ix3 cc r w)
      = ((hot g (t.val / 8) (64 * (t.val % 8) + r.val) w.val cc : ℝ) : EReal) :=
  (pay7_apply _ cc r w).trans
    (congrArg (fun z => ((ind z (BitVec.ofNat 32 cc.val) : ℝ) : EReal)) (blk1_apply m c g hg t r w))

include hx in
theorem tileS_fact (t : Fin cfg0.N) (cc : Fin 32) :
    tileSum (k0_pay6 (iblk m c 0 t : Vec Ideal S1x32x64x512 .f32)) (ix3 (0 : Fin 1) (0 : Fin 1) cc)
      = ((tileS xr t.val cc : ℝ) : EReal) := by
  refine (tileSum_apply _ cc).trans ?_
  unfold tileS
  rw [Cert.Consts.coe_sum]
  refine Finset.sum_congr rfl fun r _ => ?_
  rw [Cert.Consts.coe_sum]
  exact Finset.sum_congr rfl fun w _ => soft_real m c xr hx t cc r w

include hx hg in
theorem tileT_fact (t : Fin cfg0.N) (cc : Fin 32) :
    tileSum (mulf (k0_pay6 (iblk m c 0 t : Vec Ideal S1x32x64x512 .f32)) (k0_pay7 (F := Ideal) (iblk m c 1 t : Vec Ideal S1x64x512 .i32)))
        (ix3 (0 : Fin 1) (0 : Fin 1) cc)
      = ((tileT xr g t.val cc : ℝ) : EReal) := by
  refine (tileSum_apply _ cc).trans ?_
  unfold tileT
  rw [Cert.Consts.coe_sum]
  refine Finset.sum_congr rfl fun r _ => ?_
  rw [Cert.Consts.coe_sum]
  refine Finset.sum_congr rfl fun w _ => ?_
  rw [EReal.coe_mul]
  exact congrArg₂ (fun a b : EReal => a * b) (soft_real m c xr hx t cc r w) (hot_real m c g hg t cc r w)

include hg in
theorem tileN_fact (t : Fin cfg0.N) (cc : Fin 32) :
    tileSum (k0_pay7 (F := Ideal) (iblk m c 1 t : Vec Ideal S1x64x512 .i32)) (ix3 (0 : Fin 1) (0 : Fin 1) cc)
      = ((tileN g t.val cc : ℝ) : EReal) := by
  refine (tileSum_apply _ cc).trans ?_
  unfold tileN
  rw [Cert.Consts.coe_sum]
  refine Finset.sum_congr rfl fun r _ => ?_
  rw [Cert.Consts.coe_sum]
  exact Finset.sum_congr rfl fun w _ => hot_real m c g hg t cc r w

/-! ## The accumulation, point by point -/

include hx hg in
/-- The first tile of an image leaves its own totals. -/
theorem first_tile (t : Fin cfg0.N) (h0 : t.val % 8 = 0) (cc : Fin 32) :
    (outsAt0 m c t.val t.isLt).1 (ix3 (0 : Fin 1) (0 : Fin 1) cc) = ((tileS xr t.val cc : ℝ) : EReal)
    ∧ (outsAt0 m c t.val t.isLt).2.1 (ix3 (0 : Fin 1) (0 : Fin 1) cc) = ((tileT xr g t.val cc : ℝ) : EReal)
    ∧ (outsAt0 m c t.val t.isLt).2.2 (ix3 (0 : Fin 1) (0 : Fin 1) cc) = ((tileN g t.val cc : ℝ) : EReal) := by
  rw [outsAt0_A m c t h0]
  dsimp only
  refine ⟨?_, ?_, ?_⟩
  · rw [out_A_2, pay10_eq]
    exact add_first _ _ _ _ (zero_row _) (tileS_fact m c xr hx t cc)
  · rw [out_A_3, pay1_eq]
    exact add_first _ _ _ _ (zero_row _) (tileT_fact m c xr g hx hg t cc)
  · rw [out_A_4, pay2_eq]
    exact add_first _ _ _ _ (zero_row _) (tileN_fact m c g hg t cc)

include hx hg in
/-- A later tile adds its totals to what the tile before left. -/
theorem later_tile (t : Fin cfg0.N) (h0 : ¬t.val % 8 = 0) (cc : Fin 32) (a1 a2 a3 : ℝ)
    (p1 : (outsAt0 m c (t.val - 1) (Nat.lt_of_le_of_lt (Nat.sub_le _ _) t.isLt)).1 (ix3 (0 : Fin 1) (0 : Fin 1) cc) = (a1 : EReal))
    (p2 : (outsAt0 m c (t.val - 1) (Nat.lt_of_le_of_lt (Nat.sub_le _ _) t.isLt)).2.1 (ix3 (0 : Fin 1) (0 : Fin 1) cc) = (a2 : EReal))
    (p3 : (outsAt0 m c (t.val - 1) (Nat.lt_of_le_of_lt (Nat.sub_le _ _) t.isLt)).2.2 (ix3 (0 : Fin 1) (0 : Fin 1) cc) = (a3 : EReal)) :
    (outsAt0 m c t.val t.isLt).1 (ix3 (0 : Fin 1) (0 : Fin 1) cc) = ((a1 + tileS xr t.val cc : ℝ) : EReal)
    ∧ (outsAt0 m c t.val t.isLt).2.1 (ix3 (0 : Fin 1) (0 : Fin 1) cc) = ((a2 + tileT xr g t.val cc : ℝ) : EReal)
    ∧ (outsAt0 m c t.val t.isLt).2.2 (ix3 (0 : Fin 1) (0 : Fin 1) cc) = ((a3 + tileN g t.val cc : ℝ) : EReal) := by
  rw [outsAt0_B m c t h0]
  dsimp only
  refine ⟨?_, ?_, ?_⟩
  · rw [out_B_2, pay10_eq]
    exact add_next _ _ _ _ _ p1 (tileS_fact m c xr hx t cc)
  · rw [out_B_3, pay1_eq]
    exact add_next _ _ _ _ _ p2 (tileT_fact m c xr g hx hg t cc)
  · rw [out_B_4, pay2_eq]
    exact add_next _ _ _ _ _ p3 (tileN_fact m c g hg t cc)

include hx hg in
/-- After tile n the blocks hold the totals of the tiles of n's image up to n. -/
theorem outs_class : ∀ (n : ℕ) (hn : n < cfg0.N) (cc : Fin 32),
    (outsAt0 m c n hn).1 (ix3 (0 : Fin 1) (0 : Fin 1) cc)
        = ((∑ q ∈ Finset.range (n % 8 + 1), tileS xr (8 * (n / 8) + q) cc : ℝ) : EReal)
    ∧ (outsAt0 m c n hn).2.1 (ix3 (0 : Fin 1) (0 : Fin 1) cc)
        = ((∑ q ∈ Finset.range (n % 8 + 1), tileT xr g (8 * (n / 8) + q) cc : ℝ) : EReal)
    ∧ (outsAt0 m c n hn).2.2 (ix3 (0 : Fin 1) (0 : Fin 1) cc)
        = ((∑ q ∈ Finset.range (n % 8 + 1), tileN g (8 * (n / 8) + q) cc : ℝ) : EReal) := by
  intro n
  induction n with
  | zero =>
    intro hn cc
    simpa using first_tile m c xr g hx hg ⟨0, hn⟩ rfl cc
  | succ n ih =>
    intro hn cc
    by_cases h0 : (n + 1) % 8 = 0
    · have e : 8 * ((n + 1) / 8) + 0 = n + 1 := by omega
      rw [h0, Finset.sum_range_one, Finset.sum_range_one, Finset.sum_range_one, e]
      exact first_tile m c xr g hx hg ⟨n + 1, hn⟩ h0 cc
    · have e1 : (n + 1) % 8 = n % 8 + 1 := by omega
      have e2 : (n + 1) / 8 = n / 8 := by omega
      have e3 : 8 * (n / 8) + (n % 8 + 1) = n + 1 := by omega
      rw [e1, e2, Finset.sum_range_succ, Finset.sum_range_succ (fun q => tileT xr g (8 * (n / 8) + q) cc),
        Finset.sum_range_succ (fun q => tileN g (8 * (n / 8) + q) cc), e3]
      obtain ⟨q1, q2, q3⟩ := ih (Nat.lt_of_succ_lt hn) cc
      exact later_tile m c xr g hx hg ⟨n + 1, hn⟩ h0 cc _ _ _ q1 q2 q3

include hx hg in
/-- The same at any index of the block. -/
theorem outs_real (n : ℕ) (hn : n < cfg0.N) (y : S1x1x32.Idx) :
    (outsAt0 m c n hn).1 y
        = ((∑ q ∈ Finset.range (n % 8 + 1), tileS xr (8 * (n / 8) + q) ⟨(y 2).val, (y 2).isLt⟩ : ℝ) : EReal)
    ∧ (outsAt0 m c n hn).2.1 y
        = ((∑ q ∈ Finset.range (n % 8 + 1), tileT xr g (8 * (n / 8) + q) ⟨(y 2).val, (y 2).isLt⟩ : ℝ) : EReal)
    ∧ (outsAt0 m c n hn).2.2 y
        = ((∑ q ∈ Finset.range (n % 8 + 1), tileN g (8 * (n / 8) + q) ⟨(y 2).val, (y 2).isLt⟩ : ℝ) : EReal) := by
  obtain ⟨y0, y1, cc, rfl⟩ : ∃ (y0 : Fin 1) (y1 : Fin 1) (cc : Fin 32), y = ix3 y0 y1 cc := ⟨y 0, y 1, y 2, eq_ix3 y⟩
  obtain rfl : y0 = 0 := Subsingleton.elim _ _
  obtain rfl : y1 = 0 := Subsingleton.elim _ _
  exact outs_class m c xr g hx hg n hn cc

/-! ## From blocks to the arrays -/

include hx hg in
/-- What point `t`, the last tile of its image, writes back of output 2: block t / 8 of `arrS`. -/
theorem flushed_eq2 (t : Fin cfg0.N) (hf : (cfg0.win 2).flush t = true) :
    (dats m 0 c).flushed 2 t = ((cfg0.win 2).blk t).view.read (Elt Ideal) (arrS xr) := by
  have h7 : t.val % 8 = 7 := (flush0_2 t).mp hf
  have hN : t.val < 64 := lt_of_lt_of_eq t.isLt (show cfg0.N = 64 from N_0)
  obtain ⟨e0, e1, e2⟩ := idx_out2 t
  show (cfg0.win 2).cut (grid0.coords t) ((dats m 0 c).after 2 t) = _
  rw [after0_2]
  funext j
  have hj0 : (j 0).val < 1 := (j 0).isLt
  have hj1 : (j 1).val < 1 := (j 1).isLt
  have hj2 : (j 2).val < 32 := (j 2).isLt
  show (outsAt0 m c t.val t.isLt).1 j = arrS xr (((cfg0.win 2).blk t).view.emb j)
  refine ((outs_real m c xr g hx hg t.val t.isLt j).1).trans ?_
  have hb : ((((cfg0.win 2).blk t).view.emb j) 0).val = t.val / 8 := by
    show win0_2.index t 0 * 1 + 1 * (j 0).val = t.val / 8
    omega
  have hc2 : ((((cfg0.win 2).blk t).view.emb j) 2).val = (j 2).val := by
    show win0_2.index t 2 * 32 + 1 * (j 2).val = (j 2).val
    omega
  unfold arrS
  rw [h7]
  refine congrArg (fun z : ℝ => (z : EReal)) (Finset.sum_congr rfl fun q _ => ?_)
  rw [hb]
  exact congrArg (tileS xr (8 * (t.val / 8) + q)) (Fin.ext hc2.symm)

include hx hg in
/-- Output 2's array after the run. -/
theorem final2 : (dats m 0 c).arrAt 2 cfg0.N = arrS xr :=
  (dats m 0 c).arrAt_eq_of_cover 2 (arrS xr) (flushed_eq2 m c xr g hx hg) fun i => by
    have hi0 : (i 0).val < 8 := (i 0).isLt
    have hi1 : (i 1).val < 1 := (i 1).isLt
    have hi2 : (i 2).val < 32 := (i 2).isLt
    have ht : 8 * (i 0).val + 7 < cfg0.N := by rw [show cfg0.N = 64 from N_0]; omega
    obtain ⟨e0, e1, e2⟩ := idx_out2 ⟨8 * (i 0).val + 7, ht⟩
    have e0' : win0_2.index ⟨8 * (i 0).val + 7, ht⟩ 0 = (i 0).val := by rw [e0]; show (8 * (i 0).val + 7) / 8 = _; omega
    refine ⟨⟨8 * (i 0).val + 7, ht⟩, (flush0_2 _).mpr (by show (8 * (i 0).val + 7) % 8 = 7; omega), ?_⟩
    show i ∈ ((View.whole main_v0_0).slice (win0_2.rect ⟨8 * (i 0).val + 7, ht⟩)).set
    rw [View.set_slice_whole, Rect.mem_set_unit]
    intro a
    match a with
    | ⟨0, _⟩ =>
      show win0_2.index ⟨8 * (i 0).val + 7, ht⟩ 0 * 1 ≤ (i 0).val ∧ (i 0).val < win0_2.index ⟨8 * (i 0).val + 7, ht⟩ 0 * 1 + 1
      omega
    | ⟨1, _⟩ =>
      show win0_2.index ⟨8 * (i 0).val + 7, ht⟩ 1 * 1 ≤ (i 1).val ∧ (i 1).val < win0_2.index ⟨8 * (i 0).val + 7, ht⟩ 1 * 1 + 1
      omega
    | ⟨2, _⟩ =>
      show win0_2.index ⟨8 * (i 0).val + 7, ht⟩ 2 * 32 ≤ (i 2).val ∧ (i 2).val < win0_2.index ⟨8 * (i 0).val + 7, ht⟩ 2 * 32 + 32
      omega

include hx hg in
/-- What point `t`, the last tile of its image, writes back of output 3: block t / 8 of `arrT`. -/
theorem flushed_eq3 (t : Fin cfg0.N) (hf : (cfg0.win 3).flush t = true) :
    (dats m 0 c).flushed 3 t = ((cfg0.win 3).blk t).view.read (Elt Ideal) (arrT xr g) := by
  have h7 : t.val % 8 = 7 := (flush0_3 t).mp hf
  have hN : t.val < 64 := lt_of_lt_of_eq t.isLt (show cfg0.N = 64 from N_0)
  obtain ⟨e0, e1, e2⟩ := idx_out3 t
  show (cfg0.win 3).cut (grid0.coords t) ((dats m 0 c).after 3 t) = _
  rw [after0_3]
  funext j
  have hj0 : (j 0).val < 1 := (j 0).isLt
  have hj1 : (j 1).val < 1 := (j 1).isLt
  have hj2 : (j 2).val < 32 := (j 2).isLt
  show (outsAt0 m c t.val t.isLt).2.1 j = arrT xr g (((cfg0.win 3).blk t).view.emb j)
  refine ((outs_real m c xr g hx hg t.val t.isLt j).2.1).trans ?_
  have hb : ((((cfg0.win 3).blk t).view.emb j) 0).val = t.val / 8 := by
    show win0_3.index t 0 * 1 + 1 * (j 0).val = t.val / 8
    omega
  have hc2 : ((((cfg0.win 3).blk t).view.emb j) 2).val = (j 2).val := by
    show win0_3.index t 2 * 32 + 1 * (j 2).val = (j 2).val
    omega
  unfold arrT
  rw [h7]
  refine congrArg (fun z : ℝ => (z : EReal)) (Finset.sum_congr rfl fun q _ => ?_)
  rw [hb]
  exact congrArg (tileT xr g (8 * (t.val / 8) + q)) (Fin.ext hc2.symm)

include hx hg in
/-- Output 3's array after the run. -/
theorem final3 : (dats m 0 c).arrAt 3 cfg0.N = arrT xr g :=
  (dats m 0 c).arrAt_eq_of_cover 3 (arrT xr g) (flushed_eq3 m c xr g hx hg) fun i => by
    have hi0 : (i 0).val < 8 := (i 0).isLt
    have hi1 : (i 1).val < 1 := (i 1).isLt
    have hi2 : (i 2).val < 32 := (i 2).isLt
    have ht : 8 * (i 0).val + 7 < cfg0.N := by rw [show cfg0.N = 64 from N_0]; omega
    obtain ⟨e0, e1, e2⟩ := idx_out3 ⟨8 * (i 0).val + 7, ht⟩
    have e0' : win0_3.index ⟨8 * (i 0).val + 7, ht⟩ 0 = (i 0).val := by rw [e0]; show (8 * (i 0).val + 7) / 8 = _; omega
    refine ⟨⟨8 * (i 0).val + 7, ht⟩, (flush0_3 _).mpr (by show (8 * (i 0).val + 7) % 8 = 7; omega), ?_⟩
    show i ∈ ((View.whole main_v0_1).slice (win0_3.rect ⟨8 * (i 0).val + 7, ht⟩)).set
    rw [View.set_slice_whole, Rect.mem_set_unit]
    intro a
    match a with
    | ⟨0, _⟩ =>
      show win0_3.index ⟨8 * (i 0).val + 7, ht⟩ 0 * 1 ≤ (i 0).val ∧ (i 0).val < win0_3.index ⟨8 * (i 0).val + 7, ht⟩ 0 * 1 + 1
      omega
    | ⟨1, _⟩ =>
      show win0_3.index ⟨8 * (i 0).val + 7, ht⟩ 1 * 1 ≤ (i 1).val ∧ (i 1).val < win0_3.index ⟨8 * (i 0).val + 7, ht⟩ 1 * 1 + 1
      omega
    | ⟨2, _⟩ =>
      show win0_3.index ⟨8 * (i 0).val + 7, ht⟩ 2 * 32 ≤ (i 2).val ∧ (i 2).val < win0_3.index ⟨8 * (i 0).val + 7, ht⟩ 2 * 32 + 32
      omega

include hx hg in
/-- What point `t`, the last tile of its image, writes back of output 4: block t / 8 of `arrN`. -/
theorem flushed_eq4 (t : Fin cfg0.N) (hf : (cfg0.win 4).flush t = true) :
    (dats m 0 c).flushed 4 t = ((cfg0.win 4).blk t).view.read (Elt Ideal) (arrN g) := by
  have h7 : t.val % 8 = 7 := (flush0_4 t).mp hf
  have hN : t.val < 64 := lt_of_lt_of_eq t.isLt (show cfg0.N = 64 from N_0)
  obtain ⟨e0, e1, e2⟩ := idx_out4 t
  show (cfg0.win 4).cut (grid0.coords t) ((dats m 0 c).after 4 t) = _
  rw [after0_4]
  funext j
  have hj0 : (j 0).val < 1 := (j 0).isLt
  have hj1 : (j 1).val < 1 := (j 1).isLt
  have hj2 : (j 2).val < 32 := (j 2).isLt
  show (outsAt0 m c t.val t.isLt).2.2 j = arrN g (((cfg0.win 4).blk t).view.emb j)
  refine ((outs_real m c xr g hx hg t.val t.isLt j).2.2).trans ?_
  have hb : ((((cfg0.win 4).blk t).view.emb j) 0).val = t.val / 8 := by
    show win0_4.index t 0 * 1 + 1 * (j 0).val = t.val / 8
    omega
  have hc2 : ((((cfg0.win 4).blk t).view.emb j) 2).val = (j 2).val := by
    show win0_4.index t 2 * 32 + 1 * (j 2).val = (j 2).val
    omega
  unfold arrN
  rw [h7]
  refine congrArg (fun z : ℝ => (z : EReal)) (Finset.sum_congr rfl fun q _ => ?_)
  rw [hb]
  exact congrArg (tileN g (8 * (t.val / 8) + q)) (Fin.ext hc2.symm)

include hx hg in
/-- Output 4's array after the run. -/
theorem final4 : (dats m 0 c).arrAt 4 cfg0.N = arrN g :=
  (dats m 0 c).arrAt_eq_of_cover 4 (arrN g) (flushed_eq4 m c xr g hx hg) fun i => by
    have hi0 : (i 0).val < 8 := (i 0).isLt
    have hi1 : (i 1).val < 1 := (i 1).isLt
    have hi2 : (i 2).val < 32 := (i 2).isLt
    have ht : 8 * (i 0).val + 7 < cfg0.N := by rw [show cfg0.N = 64 from N_0]; omega
    obtain ⟨e0, e1, e2⟩ := idx_out4 ⟨8 * (i 0).val + 7, ht⟩
    have e0' : win0_4.index ⟨8 * (i 0).val + 7, ht⟩ 0 = (i 0).val := by rw [e0]; show (8 * (i 0).val + 7) / 8 = _; omega
    refine ⟨⟨8 * (i 0).val + 7, ht⟩, (flush0_4 _).mpr (by show (8 * (i 0).val + 7) % 8 = 7; omega), ?_⟩
    show i ∈ ((View.whole main_v0_2).slice (win0_4.rect ⟨8 * (i 0).val + 7, ht⟩)).set
    rw [View.set_slice_whole, Rect.mem_set_unit]
    intro a
    match a with
    | ⟨0, _⟩ =>
      show win0_4.index ⟨8 * (i 0).val + 7, ht⟩ 0 * 1 ≤ (i 0).val ∧ (i 0).val < win0_4.index ⟨8 * (i 0).val + 7, ht⟩ 0 * 1 + 1
      omega
    | ⟨1, _⟩ =>
      show win0_4.index ⟨8 * (i 0).val + 7, ht⟩ 1 * 1 ≤ (i 1).val ∧ (i 1).val < win0_4.index ⟨8 * (i 0).val + 7, ht⟩ 1 * 1 + 1
      omega
    | ⟨2, _⟩ =>
      show win0_4.index ⟨8 * (i 0).val + 7, ht⟩ 2 * 32 ≤ (i 2).val ∧ (i 2).val < win0_4.index ⟨8 * (i 0).val + 7, ht⟩ 2 * 32 + 32
      omega

end Real

end Cert.KernelIdeal.Acc

end
-- ==== Proof.Tail.lean ====
/-
  The epilogue both programs end with, as one function of the three per-class sums TP, FP, FN (arrays of 32 numbers):

    alpha = min 0.8 (max 0.2 (FP / ((FP + FN) + smooth)))
    dice  = TP / (((TP + alpha·FP) + (1 - alpha)·FN) + smooth)
    loss  = (0 + Σ_c (1 - dice c)) / 32

  with the float words of 0.2, 0.8, 1e-5, 1, 0 and 32 kept as words: both programs spell the same words, so they are never
  evaluated.  The side conditions of the two layout operations involved are parameters (each program states its own).
-/
import Idealize.ShloMosaic.PureOps
import Idealize.ShloMosaic.PureOps.Ideal

noncomputable section

namespace Cert.Dice

open Idealize.ShloMosaic

/-- The shape of a per-class array and the scalar shape. -/
abbrev C32 : Shape := ⟨1, ![32]⟩
abbrev Sc : Shape := ⟨0, ![]⟩

variable {F : FTy → Type} [FloatOps F]

/-- A scalar word spread over the 32 classes. -/
abbrev spread (hb : Sc.BroadcastsInDim C32 (![] : Fin 0 → Fin C32.rank)) (w : BitVec 32) : FVec F C32 .f32 :=
  broadcastInDim C32 ![] hb (constant Sc .f32 w)

/-- The clipped ratio alpha. -/
def alphaOf (hb : Sc.BroadcastsInDim C32 (![] : Fin 0 → Fin C32.rank)) (FP FN : FVec F C32 .f32) : FVec F C32 .f32 :=
  minimumf (spread hb 0x3F4CCCCD#32)
    (maximumf (spread hb 0x3E4CCCCD#32) (Host.divf FP (addf (addf FP FN) (spread hb 0x3727C5AC#32))))

/-- The loss from the three sums. -/
def tail (hb : Sc.BroadcastsInDim C32 (![] : Fin 0 → Fin C32.rank)) (hr : C32.ReducesTo [0] Sc) (hu : 0 < Sc.numel)
    (TP FP FN : FVec F C32 .f32) : FVec F Sc .f32 :=
  Host.divf
    (Host.reduceAdd
      (subf (spread hb 0x3F800000#32)
        (Host.divf TP
          (addf (addf (addf TP (mulf (alphaOf hb FP FN) FP)) (mulf (subf (spread hb 0x3F800000#32) (alphaOf hb FP FN)) FN))
            (spread hb 0x3727C5AC#32))))
      (constant Sc .f32 0x00000000#32) hr hu)
    (constant Sc .f32 0x42000000#32)

end Cert.Dice

end
-- ==== Proof.LibLineParts.lean ====
/-
  A straight line of host operations run in parts, and contents carried through a typed reference.

  * `after_append`: the buffer contents after a line `a ++ b` of host operations are the contents after `b` run from the
    contents after `a`.  A long line can so be read in stretches — the first up to the values a later stretch needs, the
    later stretch over ANY contents of those buffers — which keeps each stretch's composed term small.
  * `ofBuf_toBuf`: an outlined helper's lines address their buffers through typed references, moving a value to the
    buffer's own type when it is written and back when it is read; the value moved there and back is the value.  (For a
    single move at a literal reference, state `(TRef.of r).toBuf Y = Y` over a variable `Y` and prove it by `rfl`.)
-/
import Idealize.ShloMosaic.Lib.StableHlo.Run

namespace Cert.LibLineParts

open Idealize.ShloMosaic Idealize.ShloMosaic.StableHlo

variable {τ : Topo} {sig : RefSig} {Val : EltTy → Type}

/-- A line run in two parts. -/
theorem after_append : ∀ (a b : List (HloOp τ sig Val)) (V : Valuation τ sig Val),
    after (a ++ b) V = after b (after a V)
  | [], _, _ => rfl
  | o :: a, b, V => after_append a b (o.result V)

/-- Contents moved to a typed reference's buffer type and back are the contents. -/
theorem ofBuf_toBuf {T : BufTy} (x : TRef sig T) (Y : T.Contents Val) : x.ofBuf (x.toBuf Y) = Y := by
  obtain ⟨r, h, h2, h3⟩ := x
  subst h
  rfl

end Cert.LibLineParts
-- ==== Proof.KHost.lean ====
/-
  The kernel's host epilogue.

  After the region, @main sums each of the three [8, 1, 32] output arrays over the 8 images (S, T, N per class), forms

    TP = e·S + 1·T,   FP = S - TP,   FN = (L + 1·N) - TP      (L the word of e·2^21)

  and then runs the same 29 operations as the reference's last 29: the epilogue `Cert.Dice.tail` of TP, FP, FN.
  When every logit is real, S, T, N at class c are the sums over all 2097152 pixels of p, p·o and o.
-/
import proofs.«137565_j22840636080773_2_alg».proof.Proof.KAcc
import proofs.«137565_j22840636080773_2_alg».proof.Proof.Tail
import proofs.«137565_j22840636080773_2_alg».proof.Proof.LibLineParts
import Idealize.ShloMosaic.Lib.StableHlo.Run

noncomputable section

open scoped BigOperators

namespace Cert.KernelIdeal.HostTail

open Cert.KernelIdeal Cert.KernelIdeal.Gen Cert.KernelIdeal.Acc Idealize.ShloMosaic Idealize.ShloMosaic.TcCoe Idealize.SL.Sem
open Idealize.ShloMosaic.StableHlo Idealize.ShloMosaic.ValueIdx Cert.Dice
open Idealize.ShloMosaic.Pipeline (Dat)

variable {F : FTy → Type} [FloatOps F]

/-- The host operations after the region up to the three sums TP, FP, FN. -/
abbrev hA : List (HloOp τ sig (Elt F)) :=
  [ StableHlo.reshape main_v0_0 main_v1 rfl shapeCasts_S8x1x32_S8x32,
    StableHlo.nullary main_cst (constant S_ .f32 0x00000000#32),
    StableHlo.binary main_v1 main_cst main_v2 ((fun x v => Host.reduceAdd x v reducesTo_S8x32_S32_d0 h_S_) : (⟨S8x32, .f32⟩ : BufTy).Contents (Elt F) → (⟨S_, .f32⟩ : BufTy).Contents (Elt F) → (⟨S32, .f32⟩ : BufTy).Contents (Elt F)),
    StableHlo.reshape main_v0_1 main_v3 rfl shapeCasts_S8x1x32_S8x32,
    StableHlo.nullary main_cst_0 (constant S_ .f32 0x00000000#32),
    StableHlo.binary main_v3 main_cst_0 main_v4 ((fun x v => Host.reduceAdd x v reducesTo_S8x32_S32_d0 h_S_) : (⟨S8x32, .f32⟩ : BufTy).Contents (Elt F) → (⟨S_, .f32⟩ : BufTy).Contents (Elt F) → (⟨S32, .f32⟩ : BufTy).Contents (Elt F)),
    StableHlo.reshape main_v0_2 main_v5 rfl shapeCasts_S8x1x32_S8x32,
    StableHlo.nullary main_cst_1 (constant S_ .f32 0x00000000#32),
    StableHlo.binary main_v5 main_cst_1 main_v6 ((fun x v => Host.reduceAdd x v reducesTo_S8x32_S32_d0 h_S_) : (⟨S8x32, .f32⟩ : BufTy).Contents (Elt F) → (⟨S_, .f32⟩ : BufTy).Contents (Elt F) → (⟨S32, .f32⟩ : BufTy).Contents (Elt F)),
    StableHlo.nullary main_cst_2 (constant S_ .f32 0x322BCC77#32),
    StableHlo.unary main_cst_2 main_v7 (broadcastInDim S32 ![] bcast_S_S32 : (⟨S_, .f32⟩ : BufTy).Contents (Elt F) → (⟨S32, .f32⟩ : BufTy).Contents (Elt F)),
    StableHlo.binary main_v7 main_v2 main_v8 (mulf : (⟨S32, .f32⟩ : BufTy).Contents (Elt F) → (⟨S32, .f32⟩ : BufTy).Contents (Elt F) → (⟨S32, .f32⟩ : BufTy).Contents (Elt F)),
    StableHlo.nullary main_cst_3 (constant S_ .f32 0x3F800000#32),
    StableHlo.unary main_cst_3 main_v9 (broadcastInDim S32 ![] bcast_S_S32 : (⟨S_, .f32⟩ : BufTy).Contents (Elt F) → (⟨S32, .f32⟩ : BufTy).Contents (Elt F)),
    StableHlo.binary main_v9 main_v4 main_v10 (mulf : (⟨S32, .f32⟩ : BufTy).Contents (Elt F) → (⟨S32, .f32⟩ : BufTy).Contents (Elt F) → (⟨S32, .f32⟩ : BufTy).Contents (Elt F)),
    StableHlo.binary main_v8 main_v10 main_v11 (addf : (⟨S32, .f32⟩ : BufTy).Contents (Elt F) → (⟨S32, .f32⟩ : BufTy).Contents (Elt F) → (⟨S32, .f32⟩ : BufTy).Contents (Elt F)),
    StableHlo.binary main_v2 main_v11 main_v12 (subf : (⟨S32, .f32⟩ : BufTy).Contents (Elt F) → (⟨S32, .f32⟩ : BufTy).Contents (Elt F) → (⟨S32, .f32⟩ : BufTy).Contents (Elt F)),
    StableHlo.nullary main_cst_4 (constant S_ .f32 0x3F800000#32),
    StableHlo.unary main_cst_4 main_v13 (broadcastInDim S32 ![] bcast_S_S32 : (⟨S_, .f32⟩ : BufTy).Contents (Elt F) → (⟨S32, .f32⟩ : BufTy).Contents (Elt F)),
    StableHlo.binary main_v13 main_v6 main_v14 (mulf : (⟨S32, .f32⟩ : BufTy).Contents (Elt F) → (⟨S32, .f32⟩ : BufTy).Contents (Elt F) → (⟨S32, .f32⟩ : BufTy).Contents (Elt F)),
    StableHlo.nullary main_cst_5 (constant S_ .f32 0x3CABCC77#32),
    StableHlo.unary main_cst_5 main_v15 (broadcastInDim S32 ![] bcast_S_S32 : (⟨S_, .f32⟩ : BufTy).Contents (Elt F) → (⟨S32, .f32⟩ : BufTy).Contents (Elt F)),
    StableHlo.binary main_v15 main_v14 main_v16 (addf : (⟨S32, .f32⟩ : BufTy).Contents (Elt F) → (⟨S32, .f32⟩ : BufTy).Contents (Elt F) → (⟨S32, .f32⟩ : BufTy).Contents (Elt F)),
    StableHlo.binary main_v16 main_v11 main_v17 (subf : (⟨S32, .f32⟩ : BufTy).Contents (Elt F) → (⟨S32, .f32⟩ : BufTy).Contents (Elt F) → (⟨S32, .f32⟩ : BufTy).Contents (Elt F)) ]

/-- The rest. -/
abbrev hT : List (HloOp τ sig (Elt F)) :=
  [ StableHlo.nullary main_cst_6 (constant S_ .f32 0x3727C5AC#32),
    StableHlo.unary main_cst_6 main_v18 (broadcastInDim S32 ![] bcast_S_S32 : (⟨S_, .f32⟩ : BufTy).Contents (Elt F) → (⟨S32, .f32⟩ : BufTy).Contents (Elt F)),
    StableHlo.binary main_v12 main_v17 main_v19 (addf : (⟨S32, .f32⟩ : BufTy).Contents (Elt F) → (⟨S32, .f32⟩ : BufTy).Contents (Elt F) → (⟨S32, .f32⟩ : BufTy).Contents (Elt F)),
    StableHlo.binary main_v19 main_v18 main_v20 (addf : (⟨S32, .f32⟩ : BufTy).Contents (Elt F) → (⟨S32, .f32⟩ : BufTy).Contents (Elt F) → (⟨S32, .f32⟩ : BufTy).Contents (Elt F)),
    StableHlo.binary main_v12 main_v20 main_v21 (Host.divf : (⟨S32, .f32⟩ : BufTy).Contents (Elt F) → (⟨S32, .f32⟩ : BufTy).Contents (Elt F) → (⟨S32, .f32⟩ : BufTy).Contents (Elt F)),
    StableHlo.nullary main_cst_7 (constant S_ .f32 0x3E4CCCCD#32),
    StableHlo.nullary main_cst_8 (constant S_ .f32 0x3F4CCCCD#32),
    StableHlo.TRef.unary (.of main_cst_7 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S32, .f32⟩) (broadcastInDim S32 ![] bcast_S_S32),
    StableHlo.TRef.binary (.of main_call0_v1 : StableHlo.TRef sig ⟨S32, .f32⟩) (.of main_v21 : StableHlo.TRef sig ⟨S32, .f32⟩) (.of main_call0_v2 : StableHlo.TRef sig ⟨S32, .f32⟩) maximumf,
    StableHlo.TRef.unary (.of main_cst_8 : StableHlo.TRef sig ⟨S_, .f32⟩) (.of main_call0_v3 : StableHlo.TRef sig ⟨S_, .f32⟩) id,
    StableHlo.TRef.unary (.of main_call0_v3 : StableHlo.TRef sig ⟨S_, .f32⟩) (.of main_call0_v4 : StableHlo.TRef sig ⟨S32, .f32⟩) (broadcastInDim S32 ![] bcast_S_S32),
    StableHlo.TRef.binary (.of main_call0_v4 : StableHlo.TRef sig ⟨S32, .f32⟩) (.of main_call0_v2 : StableHlo.TRef sig ⟨S32, .f32⟩) (.of main_v22 : StableHlo.TRef sig ⟨S32, .f32⟩) minimumf,
    StableHlo.nullary main_cst_9 (constant S_ .f32 0x3F800000#32),
    StableHlo.unary main_cst_9 main_v23 (broadcastInDim S32 ![] bcast_S_S32 : (⟨S_, .f32⟩ : BufTy).Contents (Elt F) → (⟨S32, .f32⟩ : BufTy).Contents (Elt F)),
    StableHlo.binary main_v23 main_v22 main_v24 (subf : (⟨S32, .f32⟩ : BufTy).Contents (Elt F) → (⟨S32, .f32⟩ : BufTy).Contents (Elt F) → (⟨S32, .f32⟩ : BufTy).Contents (Elt F)),
    StableHlo.binary main_v22 main_v12 main_v25 (mulf : (⟨S32, .f32⟩ : BufTy).Contents (Elt F) → (⟨S32, .f32⟩ : BufTy).Contents (Elt F) → (⟨S32, .f32⟩ : BufTy).Contents (Elt F)),
    StableHlo.binary main_v11 main_v25 main_v26 (addf : (⟨S32, .f32⟩ : BufTy).Contents (Elt F) → (⟨S32, .f32⟩ : BufTy).Contents (Elt F) → (⟨S32, .f32⟩ : BufTy).Contents (Elt F)),
    StableHlo.binary main_v24 main_v17 main_v27 (mulf : (⟨S32, .f32⟩ : BufTy).Contents (Elt F) → (⟨S32, .f32⟩ : BufTy).Contents (Elt F) → (⟨S32, .f32⟩ : BufTy).Contents (Elt F)),
    StableHlo.binary main_v26 main_v27 main_v28 (addf : (⟨S32, .f32⟩ : BufTy).Contents (Elt F) → (⟨S32, .f32⟩ : BufTy).Contents (Elt F) → (⟨S32, .f32⟩ : BufTy).Contents (Elt F)),
    StableHlo.binary main_v28 main_v18 main_v29 (addf : (⟨S32, .f32⟩ : BufTy).Contents (Elt F) → (⟨S32, .f32⟩ : BufTy).Contents (Elt F) → (⟨S32, .f32⟩ : BufTy).Contents (Elt F)),
    StableHlo.binary main_v11 main_v29 main_v30 (Host.divf : (⟨S32, .f32⟩ : BufTy).Contents (Elt F) → (⟨S32, .f32⟩ : BufTy).Contents (Elt F) → (⟨S32, .f32⟩ : BufTy).Contents (Elt F)),
    StableHlo.nullary main_cst_10 (constant S_ .f32 0x3F800000#32),
    StableHlo.unary main_cst_10 main_v31 (broadcastInDim S32 ![] bcast_S_S32 : (⟨S_, .f32⟩ : BufTy).Contents (Elt F) → (⟨S32, .f32⟩ : BufTy).Contents (Elt F)),
    StableHlo.binary main_v31 main_v30 main_v32 (subf : (⟨S32, .f32⟩ : BufTy).Contents (Elt F) → (⟨S32, .f32⟩ : BufTy).Contents (Elt F) → (⟨S32, .f32⟩ : BufTy).Contents (Elt F)),
    StableHlo.nullary main_cst_11 (constant S_ .f32 0x00000000#32),
    StableHlo.binary main_v32 main_cst_11 main_v33 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    StableHlo.nullary main_cst_12 (constant S_ .f32 0x42000000#32),
    StableHlo.binary main_v33 main_cst_12 main_v34 (Host.divf : (⟨S_, .f32⟩ : BufTy).Contents (Elt F) → (⟨S_, .f32⟩ : BufTy).Contents (Elt F) → (⟨S_, .f32⟩ : BufTy).Contents (Elt F)) ]

theorem tail_split :
    (List.flatten [hostOps1, hostOps1_1, hostOps1_2] : List (HloOp τ sig (Elt F))) = hA ++ hT := rfl

/-! ## The three sums as terms of the output arrays -/

/-- An output array summed over the images. -/
def sumB (s : FVec F S8x1x32 .f32) : FVec F S32 .f32 :=
  Host.reduceAdd (shapeCast S8x32 s shapeCasts_S8x1x32_S8x32) (constant S_ .f32 0x00000000#32) reducesTo_S8x32_S32_d0 h_S_

def tpK (s t : FVec F S8x1x32 .f32) : FVec F S32 .f32 :=
  addf (mulf (spread bcast_S_S32 0x322BCC77#32) (sumB s)) (mulf (spread bcast_S_S32 0x3F800000#32) (sumB t))

def fpK (s t : FVec F S8x1x32 .f32) : FVec F S32 .f32 := subf (sumB s) (tpK s t)

def fnK (s t n : FVec F S8x1x32 .f32) : FVec F S32 .f32 :=
  subf (addf (spread bcast_S_S32 0x3CABCC77#32) (mulf (spread bcast_S_S32 0x3F800000#32) (sumB n))) (tpK s t)

section Read

attribute [local irreducible] Host.reduceAdd shapeCast broadcastInDim

set_option maxRecDepth 8192 in
theorem tp_eq (W : Valuation τ sig (Elt F)) :
    after hA W (main_v11 : DevRef τ sig) = tpK (W (main_v0_0 : DevRef τ sig)) (W (main_v0_1 : DevRef τ sig)) := by
  after_results_simp
  rfl

set_option maxRecDepth 8192 in
theorem fp_eq (W : Valuation τ sig (Elt F)) :
    after hA W (main_v12 : DevRef τ sig) = fpK (W (main_v0_0 : DevRef τ sig)) (W (main_v0_1 : DevRef τ sig)) := by
  after_results_simp
  rfl

set_option maxRecDepth 8192 in
theorem fn_eq (W : Valuation τ sig (Elt F)) :
    after hA W (main_v17 : DevRef τ sig)
      = fnK (W (main_v0_0 : DevRef τ sig)) (W (main_v0_1 : DevRef τ sig)) (W (main_v0_2 : DevRef τ sig)) := by
  after_results_simp
  rfl

set_option maxRecDepth 8192 in
set_option maxHeartbeats 1000000 in
theorem tail_eq (W : Valuation τ sig (Elt F)) :
    after hT W (main_v34 : DevRef τ sig)
      = Cert.Dice.tail bcast_S_S32 reducesTo_S32_S_d0 h_S_ (W (main_v11 : DevRef τ sig)) (W (main_v12 : DevRef τ sig))
          (W (main_v17 : DevRef τ sig)) := by
  after_results_simp
  rfl

end Read

/-- The result after the region's tail: the epilogue of the three sums of the three output arrays. -/
theorem out_eq (W : Valuation τ sig (Elt F)) :
    after (List.flatten [hostOps1, hostOps1_1, hostOps1_2]) W (main_v34 : DevRef τ sig)
      = Cert.Dice.tail bcast_S_S32 reducesTo_S32_S_d0 h_S_
          (tpK (W (main_v0_0 : DevRef τ sig)) (W (main_v0_1 : DevRef τ sig)))
          (fpK (W (main_v0_0 : DevRef τ sig)) (W (main_v0_1 : DevRef τ sig)))
          (fnK (W (main_v0_0 : DevRef τ sig)) (W (main_v0_1 : DevRef τ sig)) (W (main_v0_2 : DevRef τ sig))) := by
  rw [tail_split, Cert.LibLineParts.after_append, tail_eq, tp_eq, fp_eq, fn_eq]

/-! ## The sums at a class, in real numbers -/

theorem lift_img (h : S8x32.Reduces [0] S32) (cc : Fin 32) (k : Fin (S8x32.size 0)) :
    h.lift (ix1 cc) k = ix2 (⟨k.val, k.isLt⟩ : Fin 8) cc := by
  funext ax
  refine Fin.ext ?_
  match ax with
  | ⟨0, _⟩ => rfl
  | ⟨1, _⟩ => rfl

/-- An output array summed over the images, at class c. -/
theorem sumB_apply (s : FVec Ideal S8x1x32 .f32) (cc : Fin 32) :
    sumB s (ix1 cc) = 0 + ∑ b : Fin 8, s (ix3 b (0 : Fin 1) cc) := by
  unfold sumB Host.reduceAdd
  rw [Ideal.hostReduceAdd_def, Ideal.hostReduceAdd_single reducesTo_S8x32_S32_d0 (by decide)]
  refine congrArg₂ (fun a b : EReal => a + b) Cert.Consts.ofBits_zero (Finset.sum_congr rfl fun k _ => ?_)
  rw [lift_img]
  exact shapeCast_apply s shapeCasts_S8x1x32_S8x32 _ (ix3 (⟨k.val, k.isLt⟩ : Fin 8) (0 : Fin 1) cc) (by
    rw [Shape.rowMajor_val_three, Shape.rowMajor_val_two]
    show (k.val * 1 + 0) * 32 + cc.val = k.val * 32 + cc.val
    omega)

/-- A scalar word spread over the classes, at a class. -/
theorem spread_apply (w : BitVec 32) (i : S32.Idx) :
    (spread (F := Ideal) bcast_S_S32 w) i = Ideal.ofBits .f32 w :=
  broadcastInDim_apply _ bcast_S_S32 _ i ix0 (fun a => a.elim0)

section Totals

variable (xr : ℕ → ℕ → ℕ → ℕ → ℝ) (g : ℕ → ℕ → ℕ → BitVec 32)

/-- The 64 tiles' totals, image by image, are the sum over all pixels. -/
theorem tiles_total (f : ℕ → ℕ → ℕ → ℝ) :
    ∑ b : Fin 8, ∑ q ∈ Finset.range 8,
        (∑ r : Fin 64, ∑ w : Fin 512, f ((8 * b.val + q) / 8) (64 * ((8 * b.val + q) % 8) + r.val) w.val)
      = ∑ n : Fin 2097152, f (n.val / 262144) (n.val / 512 % 512) (n.val % 512) := by
  have h1 : ∀ b : Fin 8, ∑ q ∈ Finset.range 8,
        (∑ r : Fin 64, ∑ w : Fin 512, f ((8 * b.val + q) / 8) (64 * ((8 * b.val + q) % 8) + r.val) w.val)
      = ∑ q : Fin 8, (∑ r : Fin 64, ∑ w : Fin 512, f ((8 * b.val + q.val) / 8) (64 * ((8 * b.val + q.val) % 8) + r.val) w.val) :=
    fun b => Finset.sum_range _
  rw [Finset.sum_congr rfl fun b _ => h1 b]
  refine (LibTiles.sum_tiles 8 8
    (fun t : Fin (8 * 8) => ∑ r : Fin 64, ∑ w : Fin 512, f (t.val / 8) (64 * (t.val % 8) + r.val) w.val)).trans ?_
  exact (pixel_sum f).symm

theorem sumS_real (cc : Fin 32) :
    sumB (F := Ideal) (arrS xr) (ix1 cc)
      = ((∑ n : Fin 2097152, prob xr (n.val / 262144) (n.val / 512 % 512) (n.val % 512) cc : ℝ) : EReal) := by
  refine (sumB_apply _ cc).trans ?_
  show 0 + ∑ b : Fin 8, ((∑ q ∈ Finset.range 8, tileS xr (8 * b.val + q) cc : ℝ) : EReal) = _
  rw [zero_add, ← Cert.Consts.coe_sum]
  exact congrArg (fun z : ℝ => (z : EReal)) (tiles_total (fun b y x => prob xr b y x cc))

theorem sumT_real (cc : Fin 32) :
    sumB (F := Ideal) (arrT xr g) (ix1 cc)
      = ((∑ n : Fin 2097152, prob xr (n.val / 262144) (n.val / 512 % 512) (n.val % 512) cc
          * hot g (n.val / 262144) (n.val / 512 % 512) (n.val % 512) cc : ℝ) : EReal) := by
  refine (sumB_apply _ cc).trans ?_
  show 0 + ∑ b : Fin 8, ((∑ q ∈ Finset.range 8, tileT xr g (8 * b.val + q) cc : ℝ) : EReal) = _
  rw [zero_add, ← Cert.Consts.coe_sum]
  exact congrArg (fun z : ℝ => (z : EReal)) (tiles_total (fun b y x => prob xr b y x cc * hot g b y x cc))

theorem sumN_real (cc : Fin 32) :
    sumB (F := Ideal) (arrN g) (ix1 cc)
      = ((∑ n : Fin 2097152, hot g (n.val / 262144) (n.val / 512 % 512) (n.val % 512) cc : ℝ) : EReal) := by
  refine (sumB_apply _ cc).trans ?_
  show 0 + ∑ b : Fin 8, ((∑ q ∈ Finset.range 8, tileN g (8 * b.val + q) cc : ℝ) : EReal) = _
  rw [zero_add, ← Cert.Consts.coe_sum]
  exact congrArg (fun z : ℝ => (z : EReal)) (tiles_total (fun b y x => hot g b y x cc))

/-- TP at class c, from the totals. -/
theorem tpK_real (cc : Fin 32) :
    tpK (F := Ideal) (arrS xr) (arrT xr g) (ix1 cc)
      = (((11258999 : ℝ) / 2 ^ 50 : ℝ) : EReal)
          * ((∑ n : Fin 2097152, prob xr (n.val / 262144) (n.val / 512 % 512) (n.val % 512) cc : ℝ) : EReal)
        + ((1 : ℝ) : EReal)
          * ((∑ n : Fin 2097152, prob xr (n.val / 262144) (n.val / 512 % 512) (n.val % 512) cc
              * hot g (n.val / 262144) (n.val / 512 % 512) (n.val % 512) cc : ℝ) : EReal) :=
  congrArg₂ (fun a b : EReal => a + b)
    (congrArg₂ (fun a b : EReal => a * b) ((spread_apply _ _).trans ofBits_e) (sumS_real xr cc))
    (congrArg₂ (fun a b : EReal => a * b) ((spread_apply _ _).trans Cert.Consts.ofBits_one) (sumT_real xr g cc))

theorem fpK_real (cc : Fin 32) :
    fpK (F := Ideal) (arrS xr) (arrT xr g) (ix1 cc)
      = ((∑ n : Fin 2097152, prob xr (n.val / 262144) (n.val / 512 % 512) (n.val % 512) cc : ℝ) : EReal)
        - ((((11258999 : ℝ) / 2 ^ 50 : ℝ) : EReal)
            * ((∑ n : Fin 2097152, prob xr (n.val / 262144) (n.val / 512 % 512) (n.val % 512) cc : ℝ) : EReal)
          + ((1 : ℝ) : EReal)
            * ((∑ n : Fin 2097152, prob xr (n.val / 262144) (n.val / 512 % 512) (n.val % 512) cc
                * hot g (n.val / 262144) (n.val / 512 % 512) (n.val % 512) cc : ℝ) : EReal)) :=
  congrArg₂ (fun a b : EReal => a - b) (sumS_real xr cc) (tpK_real xr g cc)

theorem fnK_real (cc : Fin 32) :
    fnK (F := Ideal) (arrS xr) (arrT xr g) (arrN g) (ix1 cc)
      = ((((11258999 : ℝ) / 2 ^ 50 * 2097152 : ℝ) : EReal)
          + ((1 : ℝ) : EReal)
            * ((∑ n : Fin 2097152, hot g (n.val / 262144) (n.val / 512 % 512) (n.val % 512) cc : ℝ) : EReal))
        - ((((11258999 : ℝ) / 2 ^ 50 : ℝ) : EReal)
            * ((∑ n : Fin 2097152, prob xr (n.val / 262144) (n.val / 512 % 512) (n.val % 512) cc : ℝ) : EReal)
          + ((1 : ℝ) : EReal)
            * ((∑ n : Fin 2097152, prob xr (n.val / 262144) (n.val / 512 % 512) (n.val % 512) cc
                * hot g (n.val / 262144) (n.val / 512 % 512) (n.val % 512) cc : ℝ) : EReal)) :=
  congrArg₂ (fun a b : EReal => a - b)
    (congrArg₂ (fun a b : EReal => a + b) ((spread_apply _ _).trans ofBits_eN)
      (congrArg₂ (fun a b : EReal => a * b) ((spread_apply _ _).trans Cert.Consts.ofBits_one) (sumN_real g cc)))
    (tpK_real xr g cc)

end Totals

/-! ## The run -/

section Run

variable (m : (ℓ : Loc nD τ sig) → Buf (Elt Ideal) ℓ) (ρ : Dev nD → PrngReg)
variable (xr : Dev nD → ℕ → ℕ → ℕ → ℕ → ℝ) (g : Dev nD → ℕ → ℕ → ℕ → BitVec 32)
variable (hx : ∀ (c : Dev nD) (i : S8x32x512x512.Idx),
  m ((c : Thread nD τ).loc main_arg0) i = ((xr c (i 0).val (i 1).val (i 2).val (i 3).val : ℝ) : EReal))
variable (hg : ∀ (c : Dev nD) (i : S8x512x512.Idx), m ((c : Thread nD τ).loc main_arg1) i = g c (i 0).val (i 1).val (i 2).val)

include hx hg in
/-- The kernel's run, read: the result at the epilogue of the three sums of the three output arrays, the arguments
    unchanged. -/
theorem run : θ_run defs (onTc (τ := τ) (main (F := Ideal))) ⟨m, fun _ => 0, ρ⟩ fun r => ∀ c : Dev nD,
      r.2.mem ((c : Thread nD τ).loc main_v34)
          = Cert.Dice.tail (F := Ideal) bcast_S_S32 reducesTo_S32_S_d0 h_S_
              (tpK (F := Ideal) (arrS (xr c)) (arrT (xr c) (g c))) (fpK (F := Ideal) (arrS (xr c)) (arrT (xr c) (g c)))
              (fnK (F := Ideal) (arrS (xr c)) (arrT (xr c) (g c)) (arrN (g c)))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨?_, ((h c).1 0).trans ((dats m 0 c).arrAt_in 0 rfl _),
    ((h c).1 1).trans ((dats m 0 c).arrAt_in 1 rfl _)⟩) (run_main m ρ)
  refine ((h c).2 main_v34 (by decide)).trans ?_
  unfold Pipeline.afterTail₀
  refine (out_eq _).trans ?_
  have e2 := (Pipeline.withArrays_arr (cfgs 0).spec winFacts0.arr_inj c (V0 m c)
    (fun w => (dats m 0 c).arrAt w (cfgs 0).N) 2).trans (final2 m c (xr c) (g c) (hx c) (hg c))
  have e3 := (Pipeline.withArrays_arr (cfgs 0).spec winFacts0.arr_inj c (V0 m c)
    (fun w => (dats m 0 c).arrAt w (cfgs 0).N) 3).trans (final3 m c (xr c) (g c) (hx c) (hg c))
  have e4 := (Pipeline.withArrays_arr (cfgs 0).spec winFacts0.arr_inj c (V0 m c)
    (fun w => (dats m 0 c).arrAt w (cfgs 0).N) 4).trans (final4 m c (xr c) (g c) (hx c) (hg c))
  rw [show Pipeline.withArrays (cfgs 0).spec c (V0 m c) (fun w => (dats m 0 c).arrAt w (cfgs 0).N)
      (main_v0_0 : DevRef τ sig) = arrS (xr c) from e2,
    show Pipeline.withArrays (cfgs 0).spec c (V0 m c) (fun w => (dats m 0 c).arrAt w (cfgs 0).N)
      (main_v0_1 : DevRef τ sig) = arrT (xr c) (g c) from e3,
    show Pipeline.withArrays (cfgs 0).spec c (V0 m c) (fun w => (dats m 0 c).arrAt w (cfgs 0).N)
      (main_v0_2 : DevRef τ sig) = arrN (g c) from e4]

end Run

end Cert.KernelIdeal.HostTail

end
-- ==== Proof.RefRun.lean ====
/-
  The reference program's run, read back.

  Its @main is a straight line of 75 host operations (the two outlined helpers' lines standing at their calls).  Every
  weakly fair execution ends with each buffer at the fold of those operations over the launch contents.  The line is cut
  after the three per-class sums: the first 46 operations compute, from the two arguments,

    TP = 0 + Σ_n P(n,c)·mask(n,c),   FP = 0 + Σ_n P(n,c)·(1 - mask(n,c)),   FN = 0 + Σ_n (1 - P(n,c))·mask(n,c)

  (P the softmax probabilities in the log-softmax spelling, mask = onehot·1 + e), and the remaining 29 turn the three
  sums into the loss — the epilogue `Cert.Dice.tail`.
-/
import proofs.«137565_j22840636080773_2_alg».proof.Proof.Gen.ReferenceIdeal
import Idealize.ShloMosaic.Lib.StableHlo.Run
import proofs.«137565_j22840636080773_2_alg».proof.Proof.Tail

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations up to the three sums. -/
abbrev opsA : List (HloOp τ sig (Elt F)) :=
  [ unary main_arg0 main_v0 ((transpose S8x512x512x32 [0, 2, 3, 1] · transposes_S8x32x512x512_S8x512x512x32_0_2_3_1) : (⟨S8x32x512x512, .f32⟩ : BufTy).Contents (Elt F) → (⟨S8x512x512x32, .f32⟩ : BufTy).Contents (Elt F)),
    reshape main_v0 main_v1 rfl shapeCasts_S8x512x512x32_S2097152x32,
    reshape main_arg1 main_v2 rfl shapeCasts_S8x512x512_S2097152,
    TRef.nullary (TRef.of (T := ⟨S_, .f32⟩) main_call0_cst) (constant S_ .f32 0xFF800000#32),
    TRef.binary (TRef.of (T := ⟨S2097152x32, .f32⟩) main_v1) (TRef.of (T := ⟨S_, .f32⟩) main_call0_cst) (TRef.of (T := ⟨S2097152, .f32⟩) main_call0_v0) (fun x v => Host.reduce FloatOps.maximumf x v reducesTo_S2097152x32_S2097152_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S2097152, .f32⟩) main_call0_v1) (broadcastInDim S2097152 ![] bcast_S_S2097152),
    TRef.binary (TRef.of (T := ⟨S2097152, .f32⟩) main_call0_v1) (TRef.of (T := ⟨S2097152, .f32⟩) main_call0_v0) (TRef.of (T := ⟨S2097152, .f32⟩) main_call0_v2) maximumf,
    TRef.unary (TRef.of (T := ⟨S2097152, .f32⟩) main_call0_v2) (TRef.of (T := ⟨S2097152x1, .f32⟩) main_call0_v3) (broadcastInDim S2097152x1 ![0] bcast_S2097152_S2097152x1_0),
    TRef.unary (TRef.of (T := ⟨S2097152x1, .f32⟩) main_call0_v3) (TRef.of (T := ⟨S2097152x32, .f32⟩) main_call0_v4) (broadcastInDim S2097152x32 ![0, 1] bcast_S2097152x1_S2097152x32_0_1),
    TRef.binary (TRef.of (T := ⟨S2097152x32, .f32⟩) main_v1) (TRef.of (T := ⟨S2097152x32, .f32⟩) main_call0_v4) (TRef.of (T := ⟨S2097152x32, .f32⟩) main_call0_v5) subf,
    TRef.unary (TRef.of (T := ⟨S2097152x32, .f32⟩) main_call0_v5) (TRef.of (T := ⟨S2097152x32, .f32⟩) main_call0_v6) Host.exp,
    TRef.nullary (TRef.of (T := ⟨S_, .f32⟩) main_call0_cst_1) (constant S_ .f32 0x00000000#32),
    TRef.binary (TRef.of (T := ⟨S2097152x32, .f32⟩) main_call0_v6) (TRef.of (T := ⟨S_, .f32⟩) main_call0_cst_1) (TRef.of (T := ⟨S2097152, .f32⟩) main_call0_v7) (fun x v => Host.reduceAdd x v reducesTo_S2097152x32_S2097152_d1 h_S_),
    TRef.unary (TRef.of (T := ⟨S2097152, .f32⟩) main_call0_v7) (TRef.of (T := ⟨S2097152x1, .f32⟩) main_call0_v8) (broadcastInDim S2097152x1 ![0] bcast_S2097152_S2097152x1_0),
    TRef.unary (TRef.of (T := ⟨S2097152x1, .f32⟩) main_call0_v8) (TRef.of (T := ⟨S2097152x1, .f32⟩) main_call0_v9) Host.log,
    TRef.unary (TRef.of (T := ⟨S2097152x1, .f32⟩) main_call0_v9) (TRef.of (T := ⟨S2097152x32, .f32⟩) main_call0_v10) (broadcastInDim S2097152x32 ![0, 1] bcast_S2097152x1_S2097152x32_0_1),
    TRef.binary (TRef.of (T := ⟨S2097152x32, .f32⟩) main_call0_v5) (TRef.of (T := ⟨S2097152x32, .f32⟩) main_call0_v10) (TRef.of (T := ⟨S2097152x32, .f32⟩) main_v3) subf,
    unary main_v3 main_v4 (Host.exp : (⟨S2097152x32, .f32⟩ : BufTy).Contents (Elt F) → (⟨S2097152x32, .f32⟩ : BufTy).Contents (Elt F)),
    TRef.unary (TRef.of (T := ⟨S2097152, .i32⟩) main_v2) (TRef.of (T := ⟨S2097152x1, .i32⟩) main_call1_v0) (broadcastInDim S2097152x1 ![0] bcast_S2097152_S2097152x1_0),
    TRef.nullary (TRef.of (T := ⟨S1x32, .i32⟩) main_call1_v1) (iotaInDim S1x32 32 1),
    TRef.unary (TRef.of (T := ⟨S2097152x1, .i32⟩) main_call1_v0) (TRef.of (T := ⟨S2097152x32, .i32⟩) main_call1_v2) (broadcastInDim S2097152x32 ![0, 1] bcast_S2097152x1_S2097152x32_0_1),
    TRef.unary (TRef.of (T := ⟨S1x32, .i32⟩) main_call1_v1) (TRef.of (T := ⟨S2097152x32, .i32⟩) main_call1_v3) (broadcastInDim S2097152x32 ![0, 1] bcast_S1x32_S2097152x32_0_1),
    TRef.binary (TRef.of (T := ⟨S2097152x32, .i32⟩) main_call1_v2) (TRef.of (T := ⟨S2097152x32, .i32⟩) main_call1_v3) (TRef.of (T := ⟨S2097152x32, .i1⟩) main_call1_v4) (cmpi .eq),
    TRef.unary (TRef.of (T := ⟨S2097152x32, .i1⟩) main_call1_v4) (TRef.of (T := ⟨S2097152x32, .f32⟩) main_v5) (uitofp .f32),
    nullary main_cst (constant S_ .f32 0x3F800000#32),
    unary main_cst main_v6 (broadcastInDim S2097152x32 ![] bcast_S_S2097152x32 : (⟨S_, .f32⟩ : BufTy).Contents (Elt F) → (⟨S2097152x32, .f32⟩ : BufTy).Contents (Elt F)),
    binary main_v5 main_v6 main_v7 (mulf : (⟨S2097152x32, .f32⟩ : BufTy).Contents (Elt F) → (⟨S2097152x32, .f32⟩ : BufTy).Contents (Elt F) → (⟨S2097152x32, .f32⟩ : BufTy).Contents (Elt F)),
    nullary main_cst_0 (constant S_ .f32 0x322BCC77#32),
    unary main_cst_0 main_v8 (broadcastInDim S2097152x32 ![] bcast_S_S2097152x32 : (⟨S_, .f32⟩ : BufTy).Contents (Elt F) → (⟨S2097152x32, .f32⟩ : BufTy).Contents (Elt F)),
    binary main_v7 main_v8 main_v9 (addf : (⟨S2097152x32, .f32⟩ : BufTy).Contents (Elt F) → (⟨S2097152x32, .f32⟩ : BufTy).Contents (Elt F) → (⟨S2097152x32, .f32⟩ : BufTy).Contents (Elt F)),
    binary main_v4 main_v9 main_v10 (mulf : (⟨S2097152x32, .f32⟩ : BufTy).Contents (Elt F) → (⟨S2097152x32, .f32⟩ : BufTy).Contents (Elt F) → (⟨S2097152x32, .f32⟩ : BufTy).Contents (Elt F)),
    nullary main_cst_1 (constant S_ .f32 0x00000000#32),
    binary main_v10 main_cst_1 main_v11 ((fun x v => Host.reduceAdd x v reducesTo_S2097152x32_S32_d0 h_S_) : (⟨S2097152x32, .f32⟩ : BufTy).Contents (Elt F) → (⟨S_, .f32⟩ : BufTy).Contents (Elt F) → (⟨S32, .f32⟩ : BufTy).Contents (Elt F)),
    nullary main_cst_2 (constant S_ .f32 0x3F800000#32),
    unary main_cst_2 main_v12 (broadcastInDim S2097152x32 ![] bcast_S_S2097152x32 : (⟨S_, .f32⟩ : BufTy).Contents (Elt F) → (⟨S2097152x32, .f32⟩ : BufTy).Contents (Elt F)),
    binary main_v12 main_v9 main_v13 (subf : (⟨S2097152x32, .f32⟩ : BufTy).Contents (Elt F) → (⟨S2097152x32, .f32⟩ : BufTy).Contents (Elt F) → (⟨S2097152x32, .f32⟩ : BufTy).Contents (Elt F)),
    binary main_v4 main_v13 main_v14 (mulf : (⟨S2097152x32, .f32⟩ : BufTy).Contents (Elt F) → (⟨S2097152x32, .f32⟩ : BufTy).Contents (Elt F) → (⟨S2097152x32, .f32⟩ : BufTy).Contents (Elt F)),
    nullary main_cst_3 (constant S_ .f32 0x00000000#32),
    binary main_v14 main_cst_3 main_v15 ((fun x v => Host.reduceAdd x v reducesTo_S2097152x32_S32_d0 h_S_) : (⟨S2097152x32, .f32⟩ : BufTy).Contents (Elt F) → (⟨S_, .f32⟩ : BufTy).Contents (Elt F) → (⟨S32, .f32⟩ : BufTy).Contents (Elt F)),
    nullary main_cst_4 (constant S_ .f32 0x3F800000#32),
    unary main_cst_4 main_v16 (broadcastInDim S2097152x32 ![] bcast_S_S2097152x32 : (⟨S_, .f32⟩ : BufTy).Contents (Elt F) → (⟨S2097152x32, .f32⟩ : BufTy).Contents (Elt F)),
    binary main_v16 main_v4 main_v17 (subf : (⟨S2097152x32, .f32⟩ : BufTy).Contents (Elt F) → (⟨S2097152x32, .f32⟩ : BufTy).Contents (Elt F) → (⟨S2097152x32, .f32⟩ : BufTy).Contents (Elt F)),
    binary main_v17 main_v9 main_v18 (mulf : (⟨S2097152x32, .f32⟩ : BufTy).Contents (Elt F) → (⟨S2097152x32, .f32⟩ : BufTy).Contents (Elt F) → (⟨S2097152x32, .f32⟩ : BufTy).Contents (Elt F)),
    nullary main_cst_5 (constant S_ .f32 0x00000000#32),
    binary main_v18 main_cst_5 main_v19 ((fun x v => Host.reduceAdd x v reducesTo_S2097152x32_S32_d0 h_S_) : (⟨S2097152x32, .f32⟩ : BufTy).Contents (Elt F) → (⟨S_, .f32⟩ : BufTy).Contents (Elt F) → (⟨S32, .f32⟩ : BufTy).Contents (Elt F)) ]

/-- The operations after them. -/
abbrev opsB : List (HloOp τ sig (Elt F)) :=
  [ nullary main_cst_6 (constant S_ .f32 0x3727C5AC#32),
    unary main_cst_6 main_v20 (broadcastInDim S32 ![] bcast_S_S32 : (⟨S_, .f32⟩ : BufTy).Contents (Elt F) → (⟨S32, .f32⟩ : BufTy).Contents (Elt F)),
    binary main_v15 main_v19 main_v21 (addf : (⟨S32, .f32⟩ : BufTy).Contents (Elt F) → (⟨S32, .f32⟩ : BufTy).Contents (Elt F) → (⟨S32, .f32⟩ : BufTy).Contents (Elt F)),
    binary main_v21 main_v20 main_v22 (addf : (⟨S32, .f32⟩ : BufTy).Contents (Elt F) → (⟨S32, .f32⟩ : BufTy).Contents (Elt F) → (⟨S32, .f32⟩ : BufTy).Contents (Elt F)),
    binary main_v15 main_v22 main_v23 (Host.divf : (⟨S32, .f32⟩ : BufTy).Contents (Elt F) → (⟨S32, .f32⟩ : BufTy).Contents (Elt F) → (⟨S32, .f32⟩ : BufTy).Contents (Elt F)),
    nullary main_cst_7 (constant S_ .f32 0x3E4CCCCD#32),
    nullary main_cst_8 (constant S_ .f32 0x3F4CCCCD#32),
    TRef.unary (TRef.of (T := ⟨S_, .f32⟩) main_cst_7) (TRef.of (T := ⟨S_, .f32⟩) main_call2_v0) id,
    TRef.unary (TRef.of (T := ⟨S_, .f32⟩) main_call2_v0) (TRef.of (T := ⟨S32, .f32⟩) main_call2_v1) (broadcastInDim S32 ![] bcast_S_S32),
    TRef.binary (TRef.of (T := ⟨S32, .f32⟩) main_call2_v1) (TRef.of (T := ⟨S32, .f32⟩) main_v23) (TRef.of (T := ⟨S32, .f32⟩) main_call2_v2) maximumf,
    TRef.unary (TRef.of (T := ⟨S_, .f32⟩) main_cst_8) (TRef.of (T := ⟨S_, .f32⟩) main_call2_v3) id,
    TRef.unary (TRef.of (T := ⟨S_, .f32⟩) main_call2_v3) (TRef.of (T := ⟨S32, .f32⟩) main_call2_v4) (broadcastInDim S32 ![] bcast_S_S32),
    TRef.binary (TRef.of (T := ⟨S32, .f32⟩) main_call2_v4) (TRef.of (T := ⟨S32, .f32⟩) main_call2_v2) (TRef.of (T := ⟨S32, .f32⟩) main_v24) minimumf,
    nullary main_cst_9 (constant S_ .f32 0x3F800000#32),
    unary main_cst_9 main_v25 (broadcastInDim S32 ![] bcast_S_S32 : (⟨S_, .f32⟩ : BufTy).Contents (Elt F) → (⟨S32, .f32⟩ : BufTy).Contents (Elt F)),
    binary main_v25 main_v24 main_v26 (subf : (⟨S32, .f32⟩ : BufTy).Contents (Elt F) → (⟨S32, .f32⟩ : BufTy).Contents (Elt F) → (⟨S32, .f32⟩ : BufTy).Contents (Elt F)),
    binary main_v24 main_v15 main_v27 (mulf : (⟨S32, .f32⟩ : BufTy).Contents (Elt F) → (⟨S32, .f32⟩ : BufTy).Contents (Elt F) → (⟨S32, .f32⟩ : BufTy).Contents (Elt F)),
    binary main_v11 main_v27 main_v28 (addf : (⟨S32, .f32⟩ : BufTy).Contents (Elt F) → (⟨S32, .f32⟩ : BufTy).Contents (Elt F) → (⟨S32, .f32⟩ : BufTy).Contents (Elt F)),
    binary main_v26 main_v19 main_v29 (mulf : (⟨S32, .f32⟩ : BufTy).Contents (Elt F) → (⟨S32, .f32⟩ : BufTy).Contents (Elt F) → (⟨S32, .f32⟩ : BufTy).Contents (Elt F)),
    binary main_v28 main_v29 main_v30 (addf : (⟨S32, .f32⟩ : BufTy).Contents (Elt F) → (⟨S32, .f32⟩ : BufTy).Contents (Elt F) → (⟨S32, .f32⟩ : BufTy).Contents (Elt F)),
    binary main_v30 main_v20 main_v31 (addf : (⟨S32, .f32⟩ : BufTy).Contents (Elt F) → (⟨S32, .f32⟩ : BufTy).Contents (Elt F) → (⟨S32, .f32⟩ : BufTy).Contents (Elt F)),
    binary main_v11 main_v31 main_v32 (Host.divf : (⟨S32, .f32⟩ : BufTy).Contents (Elt F) → (⟨S32, .f32⟩ : BufTy).Contents (Elt F) → (⟨S32, .f32⟩ : BufTy).Contents (Elt F)),
    nullary main_cst_10 (constant S_ .f32 0x3F800000#32),
    unary main_cst_10 main_v33 (broadcastInDim S32 ![] bcast_S_S32 : (⟨S_, .f32⟩ : BufTy).Contents (Elt F) → (⟨S32, .f32⟩ : BufTy).Contents (Elt F)),
    binary main_v33 main_v32 main_v34 (subf : (⟨S32, .f32⟩ : BufTy).Contents (Elt F) → (⟨S32, .f32⟩ : BufTy).Contents (Elt F) → (⟨S32, .f32⟩ : BufTy).Contents (Elt F)),
    nullary main_cst_11 (constant S_ .f32 0x00000000#32),
    binary main_v34 main_cst_11 main_v35 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    nullary main_cst_12 (constant S_ .f32 0x42000000#32),
    binary main_v35 main_cst_12 main_v36 (Host.divf : (⟨S_, .f32⟩ : BufTy).Contents (Elt F) → (⟨S_, .f32⟩ : BufTy).Contents (Elt F) → (⟨S_, .f32⟩ : BufTy).Contents (Elt F)) ]

/-- @main's operations, in order. -/
abbrev ops : List (HloOp τ sig (Elt F)) :=
  [ unary main_arg0 main_v0 ((transpose S8x512x512x32 [0, 2, 3, 1] · transposes_S8x32x512x512_S8x512x512x32_0_2_3_1) : (⟨S8x32x512x512, .f32⟩ : BufTy).Contents (Elt F) → (⟨S8x512x512x32, .f32⟩ : BufTy).Contents (Elt F)),
    reshape main_v0 main_v1 rfl shapeCasts_S8x512x512x32_S2097152x32,
    reshape main_arg1 main_v2 rfl shapeCasts_S8x512x512_S2097152,
    TRef.nullary (TRef.of (T := ⟨S_, .f32⟩) main_call0_cst) (constant S_ .f32 0xFF800000#32),
    TRef.binary (TRef.of (T := ⟨S2097152x32, .f32⟩) main_v1) (TRef.of (T := ⟨S_, .f32⟩) main_call0_cst) (TRef.of (T := ⟨S2097152, .f32⟩) main_call0_v0) (fun x v => Host.reduce FloatOps.maximumf x v reducesTo_S2097152x32_S2097152_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S2097152, .f32⟩) main_call0_v1) (broadcastInDim S2097152 ![] bcast_S_S2097152),
    TRef.binary (TRef.of (T := ⟨S2097152, .f32⟩) main_call0_v1) (TRef.of (T := ⟨S2097152, .f32⟩) main_call0_v0) (TRef.of (T := ⟨S2097152, .f32⟩) main_call0_v2) maximumf,
    TRef.unary (TRef.of (T := ⟨S2097152, .f32⟩) main_call0_v2) (TRef.of (T := ⟨S2097152x1, .f32⟩) main_call0_v3) (broadcastInDim S2097152x1 ![0] bcast_S2097152_S2097152x1_0),
    TRef.unary (TRef.of (T := ⟨S2097152x1, .f32⟩) main_call0_v3) (TRef.of (T := ⟨S2097152x32, .f32⟩) main_call0_v4) (broadcastInDim S2097152x32 ![0, 1] bcast_S2097152x1_S2097152x32_0_1),
    TRef.binary (TRef.of (T := ⟨S2097152x32, .f32⟩) main_v1) (TRef.of (T := ⟨S2097152x32, .f32⟩) main_call0_v4) (TRef.of (T := ⟨S2097152x32, .f32⟩) main_call0_v5) subf,
    TRef.unary (TRef.of (T := ⟨S2097152x32, .f32⟩) main_call0_v5) (TRef.of (T := ⟨S2097152x32, .f32⟩) main_call0_v6) Host.exp,
    TRef.nullary (TRef.of (T := ⟨S_, .f32⟩) main_call0_cst_1) (constant S_ .f32 0x00000000#32),
    TRef.binary (TRef.of (T := ⟨S2097152x32, .f32⟩) main_call0_v6) (TRef.of (T := ⟨S_, .f32⟩) main_call0_cst_1) (TRef.of (T := ⟨S2097152, .f32⟩) main_call0_v7) (fun x v => Host.reduceAdd x v reducesTo_S2097152x32_S2097152_d1 h_S_),
    TRef.unary (TRef.of (T := ⟨S2097152, .f32⟩) main_call0_v7) (TRef.of (T := ⟨S2097152x1, .f32⟩) main_call0_v8) (broadcastInDim S2097152x1 ![0] bcast_S2097152_S2097152x1_0),
    TRef.unary (TRef.of (T := ⟨S2097152x1, .f32⟩) main_call0_v8) (TRef.of (T := ⟨S2097152x1, .f32⟩) main_call0_v9) Host.log,
    TRef.unary (TRef.of (T := ⟨S2097152x1, .f32⟩) main_call0_v9) (TRef.of (T := ⟨S2097152x32, .f32⟩) main_call0_v10) (broadcastInDim S2097152x32 ![0, 1] bcast_S2097152x1_S2097152x32_0_1),
    TRef.binary (TRef.of (T := ⟨S2097152x32, .f32⟩) main_call0_v5) (TRef.of (T := ⟨S2097152x32, .f32⟩) main_call0_v10) (TRef.of (T := ⟨S2097152x32, .f32⟩) main_v3) subf,
    unary main_v3 main_v4 (Host.exp : (⟨S2097152x32, .f32⟩ : BufTy).Contents (Elt F) → (⟨S2097152x32, .f32⟩ : BufTy).Contents (Elt F)),
    TRef.unary (TRef.of (T := ⟨S2097152, .i32⟩) main_v2) (TRef.of (T := ⟨S2097152x1, .i32⟩) main_call1_v0) (broadcastInDim S2097152x1 ![0] bcast_S2097152_S2097152x1_0),
    TRef.nullary (TRef.of (T := ⟨S1x32, .i32⟩) main_call1_v1) (iotaInDim S1x32 32 1),
    TRef.unary (TRef.of (T := ⟨S2097152x1, .i32⟩) main_call1_v0) (TRef.of (T := ⟨S2097152x32, .i32⟩) main_call1_v2) (broadcastInDim S2097152x32 ![0, 1] bcast_S2097152x1_S2097152x32_0_1),
    TRef.unary (TRef.of (T := ⟨S1x32, .i32⟩) main_call1_v1) (TRef.of (T := ⟨S2097152x32, .i32⟩) main_call1_v3) (broadcastInDim S2097152x32 ![0, 1] bcast_S1x32_S2097152x32_0_1),
    TRef.binary (TRef.of (T := ⟨S2097152x32, .i32⟩) main_call1_v2) (TRef.of (T := ⟨S2097152x32, .i32⟩) main_call1_v3) (TRef.of (T := ⟨S2097152x32, .i1⟩) main_call1_v4) (cmpi .eq),
    TRef.unary (TRef.of (T := ⟨S2097152x32, .i1⟩) main_call1_v4) (TRef.of (T := ⟨S2097152x32, .f32⟩) main_v5) (uitofp .f32),
    nullary main_cst (constant S_ .f32 0x3F800000#32),
    unary main_cst main_v6 (broadcastInDim S2097152x32 ![] bcast_S_S2097152x32 : (⟨S_, .f32⟩ : BufTy).Contents (Elt F) → (⟨S2097152x32, .f32⟩ : BufTy).Contents (Elt F)),
    binary main_v5 main_v6 main_v7 (mulf : (⟨S2097152x32, .f32⟩ : BufTy).Contents (Elt F) → (⟨S2097152x32, .f32⟩ : BufTy).Contents (Elt F) → (⟨S2097152x32, .f32⟩ : BufTy).Contents (Elt F)),
    nullary main_cst_0 (constant S_ .f32 0x322BCC77#32),
    unary main_cst_0 main_v8 (broadcastInDim S2097152x32 ![] bcast_S_S2097152x32 : (⟨S_, .f32⟩ : BufTy).Contents (Elt F) → (⟨S2097152x32, .f32⟩ : BufTy).Contents (Elt F)),
    binary main_v7 main_v8 main_v9 (addf : (⟨S2097152x32, .f32⟩ : BufTy).Contents (Elt F) → (⟨S2097152x32, .f32⟩ : BufTy).Contents (Elt F) → (⟨S2097152x32, .f32⟩ : BufTy).Contents (Elt F)),
    binary main_v4 main_v9 main_v10 (mulf : (⟨S2097152x32, .f32⟩ : BufTy).Contents (Elt F) → (⟨S2097152x32, .f32⟩ : BufTy).Contents (Elt F) → (⟨S2097152x32, .f32⟩ : BufTy).Contents (Elt F)),
    nullary main_cst_1 (constant S_ .f32 0x00000000#32),
    binary main_v10 main_cst_1 main_v11 ((fun x v => Host.reduceAdd x v reducesTo_S2097152x32_S32_d0 h_S_) : (⟨S2097152x32, .f32⟩ : BufTy).Contents (Elt F) → (⟨S_, .f32⟩ : BufTy).Contents (Elt F) → (⟨S32, .f32⟩ : BufTy).Contents (Elt F)),
    nullary main_cst_2 (constant S_ .f32 0x3F800000#32),
    unary main_cst_2 main_v12 (broadcastInDim S2097152x32 ![] bcast_S_S2097152x32 : (⟨S_, .f32⟩ : BufTy).Contents (Elt F) → (⟨S2097152x32, .f32⟩ : BufTy).Contents (Elt F)),
    binary main_v12 main_v9 main_v13 (subf : (⟨S2097152x32, .f32⟩ : BufTy).Contents (Elt F) → (⟨S2097152x32, .f32⟩ : BufTy).Contents (Elt F) → (⟨S2097152x32, .f32⟩ : BufTy).Contents (Elt F)),
    binary main_v4 main_v13 main_v14 (mulf : (⟨S2097152x32, .f32⟩ : BufTy).Contents (Elt F) → (⟨S2097152x32, .f32⟩ : BufTy).Contents (Elt F) → (⟨S2097152x32, .f32⟩ : BufTy).Contents (Elt F)),
    nullary main_cst_3 (constant S_ .f32 0x00000000#32),
    binary main_v14 main_cst_3 main_v15 ((fun x v => Host.reduceAdd x v reducesTo_S2097152x32_S32_d0 h_S_) : (⟨S2097152x32, .f32⟩ : BufTy).Contents (Elt F) → (⟨S_, .f32⟩ : BufTy).Contents (Elt F) → (⟨S32, .f32⟩ : BufTy).Contents (Elt F)),
    nullary main_cst_4 (constant S_ .f32 0x3F800000#32),
    unary main_cst_4 main_v16 (broadcastInDim S2097152x32 ![] bcast_S_S2097152x32 : (⟨S_, .f32⟩ : BufTy).Contents (Elt F) → (⟨S2097152x32, .f32⟩ : BufTy).Contents (Elt F)),
    binary main_v16 main_v4 main_v17 (subf : (⟨S2097152x32, .f32⟩ : BufTy).Contents (Elt F) → (⟨S2097152x32, .f32⟩ : BufTy).Contents (Elt F) → (⟨S2097152x32, .f32⟩ : BufTy).Contents (Elt F)),
    binary main_v17 main_v9 main_v18 (mulf : (⟨S2097152x32, .f32⟩ : BufTy).Contents (Elt F) → (⟨S2097152x32, .f32⟩ : BufTy).Contents (Elt F) → (⟨S2097152x32, .f32⟩ : BufTy).Contents (Elt F)),
    nullary main_cst_5 (constant S_ .f32 0x00000000#32),
    binary main_v18 main_cst_5 main_v19 ((fun x v => Host.reduceAdd x v reducesTo_S2097152x32_S32_d0 h_S_) : (⟨S2097152x32, .f32⟩ : BufTy).Contents (Elt F) → (⟨S_, .f32⟩ : BufTy).Contents (Elt F) → (⟨S32, .f32⟩ : BufTy).Contents (Elt F)),
    nullary main_cst_6 (constant S_ .f32 0x3727C5AC#32),
    unary main_cst_6 main_v20 (broadcastInDim S32 ![] bcast_S_S32 : (⟨S_, .f32⟩ : BufTy).Contents (Elt F) → (⟨S32, .f32⟩ : BufTy).Contents (Elt F)),
    binary main_v15 main_v19 main_v21 (addf : (⟨S32, .f32⟩ : BufTy).Contents (Elt F) → (⟨S32, .f32⟩ : BufTy).Contents (Elt F) → (⟨S32, .f32⟩ : BufTy).Contents (Elt F)),
    binary main_v21 main_v20 main_v22 (addf : (⟨S32, .f32⟩ : BufTy).Contents (Elt F) → (⟨S32, .f32⟩ : BufTy).Contents (Elt F) → (⟨S32, .f32⟩ : BufTy).Contents (Elt F)),
    binary main_v15 main_v22 main_v23 (Host.divf : (⟨S32, .f32⟩ : BufTy).Contents (Elt F) → (⟨S32, .f32⟩ : BufTy).Contents (Elt F) → (⟨S32, .f32⟩ : BufTy).Contents (Elt F)),
    nullary main_cst_7 (constant S_ .f32 0x3E4CCCCD#32),
    nullary main_cst_8 (constant S_ .f32 0x3F4CCCCD#32),
    TRef.unary (TRef.of (T := ⟨S_, .f32⟩) main_cst_7) (TRef.of (T := ⟨S_, .f32⟩) main_call2_v0) id,
    TRef.unary (TRef.of (T := ⟨S_, .f32⟩) main_call2_v0) (TRef.of (T := ⟨S32, .f32⟩) main_call2_v1) (broadcastInDim S32 ![] bcast_S_S32),
    TRef.binary (TRef.of (T := ⟨S32, .f32⟩) main_call2_v1) (TRef.of (T := ⟨S32, .f32⟩) main_v23) (TRef.of (T := ⟨S32, .f32⟩) main_call2_v2) maximumf,
    TRef.unary (TRef.of (T := ⟨S_, .f32⟩) main_cst_8) (TRef.of (T := ⟨S_, .f32⟩) main_call2_v3) id,
    TRef.unary (TRef.of (T := ⟨S_, .f32⟩) main_call2_v3) (TRef.of (T := ⟨S32, .f32⟩) main_call2_v4) (broadcastInDim S32 ![] bcast_S_S32),
    TRef.binary (TRef.of (T := ⟨S32, .f32⟩) main_call2_v4) (TRef.of (T := ⟨S32, .f32⟩) main_call2_v2) (TRef.of (T := ⟨S32, .f32⟩) main_v24) minimumf,
    nullary main_cst_9 (constant S_ .f32 0x3F800000#32),
    unary main_cst_9 main_v25 (broadcastInDim S32 ![] bcast_S_S32 : (⟨S_, .f32⟩ : BufTy).Contents (Elt F) → (⟨S32, .f32⟩ : BufTy).Contents (Elt F)),
    binary main_v25 main_v24 main_v26 (subf : (⟨S32, .f32⟩ : BufTy).Contents (Elt F) → (⟨S32, .f32⟩ : BufTy).Contents (Elt F) → (⟨S32, .f32⟩ : BufTy).Contents (Elt F)),
    binary main_v24 main_v15 main_v27 (mulf : (⟨S32, .f32⟩ : BufTy).Contents (Elt F) → (⟨S32, .f32⟩ : BufTy).Contents (Elt F) → (⟨S32, .f32⟩ : BufTy).Contents (Elt F)),
    binary main_v11 main_v27 main_v28 (addf : (⟨S32, .f32⟩ : BufTy).Contents (Elt F) → (⟨S32, .f32⟩ : BufTy).Contents (Elt F) → (⟨S32, .f32⟩ : BufTy).Contents (Elt F)),
    binary main_v26 main_v19 main_v29 (mulf : (⟨S32, .f32⟩ : BufTy).Contents (Elt F) → (⟨S32, .f32⟩ : BufTy).Contents (Elt F) → (⟨S32, .f32⟩ : BufTy).Contents (Elt F)),
    binary main_v28 main_v29 main_v30 (addf : (⟨S32, .f32⟩ : BufTy).Contents (Elt F) → (⟨S32, .f32⟩ : BufTy).Contents (Elt F) → (⟨S32, .f32⟩ : BufTy).Contents (Elt F)),
    binary main_v30 main_v20 main_v31 (addf : (⟨S32, .f32⟩ : BufTy).Contents (Elt F) → (⟨S32, .f32⟩ : BufTy).Contents (Elt F) → (⟨S32, .f32⟩ : BufTy).Contents (Elt F)),
    binary main_v11 main_v31 main_v32 (Host.divf : (⟨S32, .f32⟩ : BufTy).Contents (Elt F) → (⟨S32, .f32⟩ : BufTy).Contents (Elt F) → (⟨S32, .f32⟩ : BufTy).Contents (Elt F)),
    nullary main_cst_10 (constant S_ .f32 0x3F800000#32),
    unary main_cst_10 main_v33 (broadcastInDim S32 ![] bcast_S_S32 : (⟨S_, .f32⟩ : BufTy).Contents (Elt F) → (⟨S32, .f32⟩ : BufTy).Contents (Elt F)),
    binary main_v33 main_v32 main_v34 (subf : (⟨S32, .f32⟩ : BufTy).Contents (Elt F) → (⟨S32, .f32⟩ : BufTy).Contents (Elt F) → (⟨S32, .f32⟩ : BufTy).Contents (Elt F)),
    nullary main_cst_11 (constant S_ .f32 0x00000000#32),
    binary main_v34 main_cst_11 main_v35 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    nullary main_cst_12 (constant S_ .f32 0x42000000#32),
    binary main_v35 main_cst_12 main_v36 (Host.divf : (⟨S_, .f32⟩ : BufTy).Contents (Elt F) → (⟨S_, .f32⟩ : BufTy).Contents (Elt F) → (⟨S_, .f32⟩ : BufTy).Contents (Elt F)) ]

theorem ops_split : (ops : List (HloOp τ sig (Elt F))) = opsA ++ opsB := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., unary_bufs_sub .., nullary_bufs_sub .., unary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., binary_bufs_sub .., nullary_bufs_sub .., unary_bufs_sub .., binary_bufs_sub .., binary_bufs_sub .., nullary_bufs_sub .., binary_bufs_sub .., nullary_bufs_sub .., unary_bufs_sub .., binary_bufs_sub .., binary_bufs_sub .., nullary_bufs_sub .., binary_bufs_sub .., nullary_bufs_sub .., unary_bufs_sub .., binary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., binary_bufs_sub .., binary_bufs_sub .., binary_bufs_sub .., binary_bufs_sub .., binary_bufs_sub .., binary_bufs_sub .., nullary_bufs_sub .., unary_bufs_sub .., binary_bufs_sub .., nullary_bufs_sub .., binary_bufs_sub .., nullary_bufs_sub .., binary_bufs_sub ..⟩

set_option maxRecDepth 8192 in
set_option maxHeartbeats 4000000 in
/-- Every buffer ends at the fold of the line over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The three sums as terms of the arguments -/

/-- The logits, one row of 32 per pixel. -/
def pix (x0 : FVec F S8x32x512x512 .f32) : FVec F S2097152x32 .f32 :=
  shapeCast S2097152x32 (transpose S8x512x512x32 [0, 2, 3, 1] x0 transposes_S8x32x512x512_S8x512x512x32_0_2_3_1)
    shapeCasts_S8x512x512x32_S2097152x32

/-- Each pixel's largest logit. -/
def top (x0 : FVec F S8x32x512x512 .f32) : FVec F S2097152 .f32 :=
  maximumf (broadcastInDim S2097152 ![] bcast_S_S2097152 (constant S_ .f32 0xFF800000#32))
    (Host.reduce FloatOps.maximumf (pix x0) (constant S_ .f32 0xFF800000#32) reducesTo_S2097152x32_S2097152_d1 h_S_)

/-- The logits minus their pixel's largest. -/
def shifted (x0 : FVec F S8x32x512x512 .f32) : FVec F S2097152x32 .f32 :=
  subf (pix x0) (broadcastInDim S2097152x32 ![0, 1] bcast_S2097152x1_S2097152x32_0_1
    (broadcastInDim S2097152x1 ![0] bcast_S2097152_S2097152x1_0 (top x0)))

/-- The logarithm of each pixel's sum of exponentials, as a column. -/
def lse (x0 : FVec F S8x32x512x512 .f32) : FVec F S2097152x1 .f32 :=
  Host.log (broadcastInDim S2097152x1 ![0] bcast_S2097152_S2097152x1_0
    (Host.reduceAdd (Host.exp (shifted x0)) (constant S_ .f32 0x00000000#32) reducesTo_S2097152x32_S2097152_d1 h_S_))

/-- The probabilities. -/
def probs (x0 : FVec F S8x32x512x512 .f32) : FVec F S2097152x32 .f32 :=
  Host.exp (subf (shifted x0) (broadcastInDim S2097152x32 ![0, 1] bcast_S2097152x1_S2097152x32_0_1 (lse x0)))

/-- The class indicators. -/
def onehot (x1 : IVec S8x512x512 32) : FVec F S2097152x32 .f32 :=
  uitofp .f32 (cmpi .eq
    (broadcastInDim S2097152x32 ![0, 1] bcast_S2097152x1_S2097152x32_0_1
      (broadcastInDim S2097152x1 ![0] bcast_S2097152_S2097152x1_0 (shapeCast S2097152 x1 shapeCasts_S8x512x512_S2097152)))
    (broadcastInDim S2097152x32 ![0, 1] bcast_S1x32_S2097152x32_0_1 (iotaInDim S1x32 32 1)))

/-- The mask: indicator · 1 + e. -/
def mask (x1 : IVec S8x512x512 32) : FVec F S2097152x32 .f32 :=
  addf (mulf (onehot x1) (broadcastInDim S2097152x32 ![] bcast_S_S2097152x32 (constant S_ .f32 0x3F800000#32)))
    (broadcastInDim S2097152x32 ![] bcast_S_S2097152x32 (constant S_ .f32 0x322BCC77#32))

def tpR (x0 : FVec F S8x32x512x512 .f32) (x1 : IVec S8x512x512 32) : FVec F S32 .f32 :=
  Host.reduceAdd (mulf (probs x0) (mask x1)) (constant S_ .f32 0x00000000#32) reducesTo_S2097152x32_S32_d0 h_S_

def fpR (x0 : FVec F S8x32x512x512 .f32) (x1 : IVec S8x512x512 32) : FVec F S32 .f32 :=
  Host.reduceAdd (mulf (probs x0)
      (subf (broadcastInDim S2097152x32 ![] bcast_S_S2097152x32 (constant S_ .f32 0x3F800000#32)) (mask x1)))
    (constant S_ .f32 0x00000000#32) reducesTo_S2097152x32_S32_d0 h_S_

def fnR (x0 : FVec F S8x32x512x512 .f32) (x1 : IVec S8x512x512 32) : FVec F S32 .f32 :=
  Host.reduceAdd (mulf
      (subf (broadcastInDim S2097152x32 ![] bcast_S_S2097152x32 (constant S_ .f32 0x3F800000#32)) (probs x0)) (mask x1))
    (constant S_ .f32 0x00000000#32) reducesTo_S2097152x32_S32_d0 h_S_

end Cert.ReferenceIdeal.RefRun

end
-- ==== Proof.RefRead.lean ====
/-
  The reference's fold, read: what the buffers of the three sums and of the result hold, as terms of the arguments.

  The two outlined helpers' lines address their buffers through typed references; contents moved to a buffer's own type
  and back are the contents, so the fold of the first 46 operations at the buffers of TP, FP and FN is the terms
  `tpR`, `fpR`, `fnR`, and the fold of the last 29 at the result is the epilogue of what the three buffers hold.
-/
import proofs.«137565_j22840636080773_2_alg».proof.Proof.RefRun
import proofs.«137565_j22840636080773_2_alg».proof.Proof.LibLineParts

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem toBuf_v3 (Y : (⟨S2097152x32, .f32⟩ : BufTy).Contents (Elt F)) :
    (TRef.of (T := ⟨S2097152x32, .f32⟩) main_v3).toBuf Y = Y := rfl
theorem toBuf_v5 (Y : (⟨S2097152x32, .f32⟩ : BufTy).Contents (Elt F)) :
    (TRef.of (T := ⟨S2097152x32, .f32⟩) main_v5).toBuf Y = Y := rfl
theorem ofBuf_v1 (Y : (⟨S2097152x32, .f32⟩ : BufTy).Contents (Elt F)) :
    (TRef.of (T := ⟨S2097152x32, .f32⟩) main_v1).ofBuf Y = Y := rfl
theorem ofBuf_v2 (Y : (⟨S2097152, .i32⟩ : BufTy).Contents (Elt F)) :
    (TRef.of (T := ⟨S2097152, .i32⟩) main_v2).ofBuf Y = Y := rfl

section Read

attribute [local irreducible] Host.reduce Host.reduceAdd transpose shapeCast broadcastInDim iotaInDim

set_option maxRecDepth 8192 in
set_option maxHeartbeats 1000000 in
theorem tp_eq (V : Valuation τ sig (Elt F)) :
    after opsA V (main_v11 : DevRef τ sig) = tpR (V (main_arg0 : DevRef τ sig)) (V (main_arg1 : DevRef τ sig)) := by
  after_results_simp
  simp only [Cert.LibLineParts.ofBuf_toBuf, toBuf_v3, toBuf_v5, ofBuf_v1, ofBuf_v2]
  rfl

set_option maxRecDepth 8192 in
set_option maxHeartbeats 1000000 in
theorem fp_eq (V : Valuation τ sig (Elt F)) :
    after opsA V (main_v15 : DevRef τ sig) = fpR (V (main_arg0 : DevRef τ sig)) (V (main_arg1 : DevRef τ sig)) := by
  after_results_simp
  simp only [Cert.LibLineParts.ofBuf_toBuf, toBuf_v3, toBuf_v5, ofBuf_v1, ofBuf_v2]
  rfl

set_option maxRecDepth 8192 in
set_option maxHeartbeats 1000000 in
theorem fn_eq (V : Valuation τ sig (Elt F)) :
    after opsA V (main_v19 : DevRef τ sig) = fnR (V (main_arg0 : DevRef τ sig)) (V (main_arg1 : DevRef τ sig)) := by
  after_results_simp
  simp only [Cert.LibLineParts.ofBuf_toBuf, toBuf_v3, toBuf_v5, ofBuf_v1, ofBuf_v2]
  rfl

set_option maxRecDepth 8192 in
set_option maxHeartbeats 1000000 in
theorem tail_eq (W : Valuation τ sig (Elt F)) :
    after opsB W (main_v36 : DevRef τ sig)
      = Cert.Dice.tail bcast_S_S32 reducesTo_S32_S_d0 h_S_ (W (main_v11 : DevRef τ sig)) (W (main_v15 : DevRef τ sig))
          (W (main_v19 : DevRef τ sig)) := by
  after_results_simp
  rfl

set_option maxRecDepth 8192 in
theorem arg0_eq (V : Valuation τ sig (Elt F)) : after ops V (main_arg0 : DevRef τ sig) = V (main_arg0 : DevRef τ sig) := by
  after_results_simp

set_option maxRecDepth 8192 in
theorem arg1_eq (V : Valuation τ sig (Elt F)) : after ops V (main_arg1 : DevRef τ sig) = V (main_arg1 : DevRef τ sig) := by
  after_results_simp

end Read

/-- The result is the epilogue of the three sums of the arguments. -/
theorem out_eq (V : Valuation τ sig (Elt F)) :
    after ops V (main_v36 : DevRef τ sig)
      = Cert.Dice.tail bcast_S_S32 reducesTo_S32_S_d0 h_S_
          (tpR (V (main_arg0 : DevRef τ sig)) (V (main_arg1 : DevRef τ sig)))
          (fpR (V (main_arg0 : DevRef τ sig)) (V (main_arg1 : DevRef τ sig)))
          (fnR (V (main_arg0 : DevRef τ sig)) (V (main_arg1 : DevRef τ sig))) := by
  rw [ops_split, Cert.LibLineParts.after_append, tail_eq, tp_eq, fp_eq, fn_eq]

/-- The run: the result buffer at the epilogue of the three sums of the arguments' launch contents, the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36)
          = Cert.Dice.tail bcast_S_S32 reducesTo_S32_S_d0 h_S_
              (tpR (m ((c.tc : Thread nD τ).loc main_arg0)) (m ((c.tc : Thread nD τ).loc main_arg1)))
              (fpR (m ((c.tc : Thread nD τ).loc main_arg0)) (m ((c.tc : Thread nD τ).loc main_arg1)))
              (fnR (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v36).trans (out_eq _), (h c main_arg0).trans (arg0_eq _),
    (h c main_arg1).trans (arg1_eq _)⟩) (run_all m ρ)

end Cert.ReferenceIdeal.RefRun

end
-- ==== Proof.RefValue.lean ====
/-
  The reference's three sums, read at a class.

  The reference lays the logits out one row of 32 per pixel n (pixel n = image n / 262144, row n / 512 % 512, column
  n % 512).  When every logit is a real number, at class c and pixel n:

    * the probability it computes, exp((x - top) - log(0 + Σ_k exp(x_k - top))), is the pixel's softmax probability;
    * its class indicator is the real number 1 or 0;
    * its mask is indicator · 1 + e;

  and each of its three sums at class c is the initial zero plus the sum over the 2097152 pixels of the product it forms.
-/
import proofs.«137565_j22840636080773_2_alg».proof.Proof.RefRun
import proofs.«137565_j22840636080773_2_alg».proof.Proof.LibRowReduce
import proofs.«137565_j22840636080773_2_alg».proof.Proof.Pixels
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.ReferenceIdeal.RefValue

open Cert.ReferenceIdeal Cert.ReferenceIdeal.Gen Cert.ReferenceIdeal.RefRun Idealize.ShloMosaic Idealize.ShloMosaic.ValueIdx
open Cert.Dice

/-! ## Layout operations of these shapes, read at an index -/

section Layout

variable {α : Type}

/-- A length-N array as a column. -/
theorem col_apply (u : S2097152.Idx → α) (n : Fin 2097152) :
    broadcastInDim S2097152x1 ![0] bcast_S2097152_S2097152x1_0 u (ix2 n (0 : Fin 1)) = u (ix1 n) :=
  broadcastInDim_apply _ bcast_S2097152_S2097152x1_0 u _ (ix1 n) (fun a => by
    match a with
    | ⟨0, _⟩ => show n.val = if (2097152 : ℕ) = 1 then 0 else n.val; rw [if_neg (by decide)])

/-- A column spread over the 32 classes. -/
theorem spread_apply (v : S2097152x1.Idx → α) (n : Fin 2097152) (k : Fin 32) :
    broadcastInDim S2097152x32 ![0, 1] bcast_S2097152x1_S2097152x32_0_1 v (ix2 n k) = v (ix2 n (0 : Fin 1)) :=
  broadcastInDim_apply _ bcast_S2097152x1_S2097152x32_0_1 v _ (ix2 n (0 : Fin 1)) (fun a => by
    match a with
    | ⟨0, _⟩ => show n.val = if (2097152 : ℕ) = 1 then 0 else n.val; rw [if_neg (by decide)]
    | ⟨1, _⟩ => show (0 : ℕ) = if (1 : ℕ) = 1 then 0 else k.val; rw [if_pos rfl])

/-- A row of 32 spread over the pixels. -/
theorem rowSpread_apply (v : S1x32.Idx → α) (n : Fin 2097152) (k : Fin 32) :
    broadcastInDim S2097152x32 ![0, 1] bcast_S1x32_S2097152x32_0_1 v (ix2 n k) = v (ix2 (0 : Fin 1) k) :=
  broadcastInDim_apply _ bcast_S1x32_S2097152x32_0_1 v _ (ix2 (0 : Fin 1) k) (fun a => by
    match a with
    | ⟨0, _⟩ => show (0 : ℕ) = if (1 : ℕ) = 1 then 0 else n.val; rw [if_pos rfl]
    | ⟨1, _⟩ => show k.val = if (32 : ℕ) = 1 then 0 else k.val; rw [if_neg (by decide)])

/-- A scalar spread over the whole [N, 32] array. -/
theorem splat_apply (v : S_.Idx → α) (i : S2097152x32.Idx) :
    broadcastInDim S2097152x32 ![] bcast_S_S2097152x32 v i = v ix0 :=
  broadcastInDim_apply _ bcast_S_S2097152x32 v i ix0 (fun a => a.elim0)

/-- A scalar spread over the pixels. -/
theorem splatN_apply (v : S_.Idx → α) (i : S2097152.Idx) :
    broadcastInDim S2097152 ![] bcast_S_S2097152 v i = v ix0 :=
  broadcastInDim_apply _ bcast_S_S2097152 v i ix0 (fun a => a.elim0)

end Layout

/-- Pixel n's image, row and column. -/
abbrev nb (n : Fin 2097152) : Fin 8 := ⟨n.val / 262144, by have := n.isLt; omega⟩
abbrev ny (n : Fin 2097152) : Fin 512 := ⟨n.val / 512 % 512, by omega⟩
abbrev nx (n : Fin 2097152) : Fin 512 := ⟨n.val % 512, by omega⟩

/-- The index (c) with the pixel k put back in front is (k, c). -/
theorem lift_pixel (h : S2097152x32.Reduces [0] S32) (c : Fin 32) (k : Fin (S2097152x32.size 0)) :
    h.lift (ix1 c) k = ix2 (⟨k.val, k.isLt⟩ : Fin 2097152) c := by
  funext ax
  refine Fin.ext ?_
  match ax with
  | ⟨0, _⟩ => rfl
  | ⟨1, _⟩ => rfl

/-- The host's sum over the pixels at class c: the initial value plus the sum over n of the entries (n, c). -/
theorem pixelSum_apply (x : FVec Ideal S2097152x32 .f32) (init : S_.Idx → Ideal .f32) (c : Fin 32) :
    Host.reduceAdd (F := Ideal) x init reducesTo_S2097152x32_S32_d0 h_S_ (ix1 c)
      = init (Shape.Idx.first h_S_) + ∑ n : Fin 2097152, x (ix2 n c) := by
  unfold Host.reduceAdd
  rw [Ideal.hostReduceAdd_def, Ideal.hostReduceAdd_single reducesTo_S2097152x32_S32_d0 (by decide)]
  exact congrArg (_ + ·) (Finset.sum_congr rfl fun k _ => congrArg x (lift_pixel _ c k))

/-! ## The host's pointwise operations at an index -/

theorem hostExp_apply {s : Shape} (Y : FVec Ideal s .f32) (i : s.Idx) : Host.exp Y i = Ideal.exp (Y i) := rfl

theorem hostLog_apply {s : Shape} (Y : FVec Ideal s .f32) (i : s.Idx) : Host.log Y i = Ideal.log (Y i) := rfl

theorem uitofp_cmpi_apply {s : Shape} (A B : IVec s 32) (i : s.Idx) :
    (uitofp .f32 (cmpi .eq A B) : FVec Ideal s .f32) i = FloatOps.uitofp (F := Ideal) .f32 (IntOp.cmpi .eq (A i) (B i)) := rfl

/-! ## The reference's stages over arbitrary arrays -/

section Generic

attribute [local irreducible] Host.reduce Host.reduceAdd transpose shapeCast broadcastInDim

/-- The reference's shift at pixel n: the fold of max from minus infinity over the row's 32 entries. -/
theorem top_generic (P : FVec Ideal S2097152x32 .f32) (n : Fin 2097152) :
    maximumf (broadcastInDim S2097152 ![] bcast_S_S2097152 (constant S_ .f32 0xFF800000#32))
        (Host.reduce FloatOps.maximumf P (constant S_ .f32 0xFF800000#32) reducesTo_S2097152x32_S2097152_d1 h_S_) (ix1 n)
      = (Finset.univ : Finset (Fin 32)).fold max (⊥ : EReal) (fun k => P (ix2 n k)) := by
  have h1 : Host.reduce (FloatOps.maximumf (F := Ideal) (φ := .f32)) P (constant S_ .f32 0xFF800000#32)
        reducesTo_S2097152x32_S2097152_d1 h_S_ (ix1 n)
      = (Finset.univ : Finset (Fin 32)).fold max (Ideal.ofBits .f32 0xFF800000#32) (fun k => P (ix2 n k)) :=
    LibRowReduce.hostRowMax_apply P _ reducesTo_S2097152x32_S2097152_d1 (by decide) h_S_ n
  have h2 : broadcastInDim S2097152 ![] bcast_S_S2097152 (constant (F := Ideal) S_ .f32 0xFF800000#32) (ix1 n)
      = Ideal.ofBits .f32 0xFF800000#32 := splatN_apply _ _
  refine (maximumf_apply _ _ (ix1 n)).trans ?_
  rw [h2, h1, LibRowReduce.max_negInf_left, Cert.Dice.ofBits_negInf]

/-- A row entry minus its pixel's shift. -/
theorem shifted_generic (P : FVec Ideal S2097152x32 .f32) (T : FVec Ideal S2097152 .f32) (n : Fin 2097152) (k : Fin 32) :
    subf P (broadcastInDim S2097152x32 ![0, 1] bcast_S2097152x1_S2097152x32_0_1
        (broadcastInDim S2097152x1 ![0] bcast_S2097152_S2097152x1_0 T)) (ix2 n k)
      = P (ix2 n k) - T (ix1 n) :=
  (subf_apply _ _ _).trans (congrArg (fun z => P (ix2 n k) - z) ((spread_apply _ n k).trans (col_apply _ n)))

/-- The logarithm of a pixel's sum of exponentials. -/
theorem lse_generic (Sh : FVec Ideal S2097152x32 .f32) (n : Fin 2097152) :
    Host.log (broadcastInDim S2097152x1 ![0] bcast_S2097152_S2097152x1_0
        (Host.reduceAdd (Host.exp Sh) (constant S_ .f32 0x00000000#32) reducesTo_S2097152x32_S2097152_d1 h_S_))
        (ix2 n (0 : Fin 1))
      = Ideal.log (0 + ∑ j : Fin 32, Ideal.exp (Sh (ix2 n j))) := by
  have hsum : Host.reduceAdd (F := Ideal) (Host.exp Sh) (constant S_ .f32 0x00000000#32)
        reducesTo_S2097152x32_S2097152_d1 h_S_ (ix1 n) = 0 + ∑ j : Fin 32, Ideal.exp (Sh (ix2 n j)) :=
    (LibRowReduce.hostRowSum_apply (Host.exp Sh) _ reducesTo_S2097152x32_S2097152_d1 (by decide) h_S_ n).trans
      (congrArg (fun z : EReal => z + ∑ j : Fin 32, Ideal.exp (Sh (ix2 n j))) Cert.Consts.ofBits_zero)
  exact (hostLog_apply _ _).trans (congrArg Ideal.log ((col_apply _ n).trans hsum))

/-- The exponential of a shifted entry minus its pixel's log-sum. -/
theorem probs_generic (Sh : FVec Ideal S2097152x32 .f32) (L : FVec Ideal S2097152x1 .f32) (n : Fin 2097152) (k : Fin 32) :
    Host.exp (subf Sh (broadcastInDim S2097152x32 ![0, 1] bcast_S2097152x1_S2097152x32_0_1 L)) (ix2 n k)
      = Ideal.exp (Sh (ix2 n k) - L (ix2 n (0 : Fin 1))) :=
  (hostExp_apply _ _).trans (congrArg Ideal.exp
    ((subf_apply _ _ _).trans (congrArg (fun z => Sh (ix2 n k) - z) (spread_apply _ n k))))

/-- The indicator of "pixel n's label is class k". -/
theorem onehot_generic (t1 : IVec S2097152 32) (n : Fin 2097152) (k : Fin 32) :
    (uitofp .f32 (cmpi .eq
      (broadcastInDim S2097152x32 ![0, 1] bcast_S2097152x1_S2097152x32_0_1
        (broadcastInDim S2097152x1 ![0] bcast_S2097152_S2097152x1_0 t1))
      (broadcastInDim S2097152x32 ![0, 1] bcast_S1x32_S2097152x32_0_1 (iotaInDim S1x32 32 1))) : FVec Ideal S2097152x32 .f32)
        (ix2 n k)
      = ((ind (t1 (ix1 n)) (BitVec.ofNat 32 k.val) : ℝ) : EReal) := by
  have hA : broadcastInDim S2097152x32 ![0, 1] bcast_S2097152x1_S2097152x32_0_1
      (broadcastInDim S2097152x1 ![0] bcast_S2097152_S2097152x1_0 t1) (ix2 n k) = t1 (ix1 n) :=
    (spread_apply _ n k).trans (col_apply _ n)
  have hB : broadcastInDim S2097152x32 ![0, 1] bcast_S1x32_S2097152x32_0_1 (iotaInDim S1x32 32 1) (ix2 n k)
      = BitVec.ofNat 32 k.val := (rowSpread_apply _ n k).trans (iotaInDim_apply 32 1 _)
  exact (uitofp_cmpi_apply _ _ _).trans
    ((congrArg₂ (fun a b : BitVec 32 => FloatOps.uitofp (F := Ideal) .f32 (IntOp.cmpi .eq a b)) hA hB).trans (uitofp_ind _ _))

/-- indicator · 1 + e, entry by entry. -/
theorem mask_generic (O : FVec Ideal S2097152x32 .f32) (i : S2097152x32.Idx) :
    addf (mulf O (broadcastInDim S2097152x32 ![] bcast_S_S2097152x32 (constant S_ .f32 0x3F800000#32)))
        (broadcastInDim S2097152x32 ![] bcast_S_S2097152x32 (constant S_ .f32 0x322BCC77#32)) i
      = O i * ((1 : ℝ) : EReal) + (((11258999 : ℝ) / 2 ^ 50 : ℝ) : EReal) :=
  (addf_apply _ _ i).trans (congrArg₂ (fun a b : EReal => a + b)
    ((mulf_apply _ _ i).trans (congrArg (fun z : EReal => O i * z) ((splat_apply _ _).trans Cert.Consts.ofBits_one)))
    ((splat_apply _ _).trans ofBits_e))

end Generic

section Real

attribute [local irreducible] Host.reduce Host.reduceAdd transpose shapeCast broadcastInDim

variable (x0 : FVec Ideal S8x32x512x512 .f32) (x1 : IVec S8x512x512 32)
variable (xr : ℕ → ℕ → ℕ → ℕ → ℝ) (g : ℕ → ℕ → ℕ → BitVec 32)
variable (hx : ∀ i : S8x32x512x512.Idx, x0 i = ((xr (i 0).val (i 1).val (i 2).val (i 3).val : ℝ) : EReal))
variable (hg : ∀ i : S8x512x512.Idx, x1 i = g (i 0).val (i 1).val (i 2).val)

/-- Row n of the logits is pixel n's logits. -/
theorem pix_apply (n : Fin 2097152) (k : Fin 32) : pix x0 (ix2 n k) = x0 (ix4 (nb n) k (ny n) (nx n)) := by
  unfold pix
  refine (shapeCast_apply _ shapeCasts_S8x512x512x32_S2097152x32 (ix2 n k) (ix4 (nb n) (ny n) (nx n) k) ?_).trans ?_
  · rw [Shape.rowMajor_val_four, Shape.rowMajor_val_two]
    show ((n.val / 262144 * 512 + n.val / 512 % 512) * 512 + n.val % 512) * 32 + k.val = n.val * 32 + k.val
    omega
  · exact transpose_apply [0, 2, 3, 1] x0 transposes_S8x32x512x512_S8x512x512x32_0_2_3_1 (ix4 (nb n) (ny n) (nx n) k)
      (ix4 (nb n) k (ny n) (nx n)) (fun b => match b with
        | ⟨0, _⟩ => rfl
        | ⟨1, _⟩ => rfl
        | ⟨2, _⟩ => rfl
        | ⟨3, _⟩ => rfl)

include hx in
theorem pix_real (n : Fin 2097152) (k : Fin 32) :
    pix x0 (ix2 n k) = ((logits xr (n.val / 262144) (n.val / 512 % 512) (n.val % 512) k : ℝ) : EReal) :=
  (pix_apply x0 n k).trans (hx _)

include hx in
/-- The shift is the pixel's largest logit, a real. -/
theorem top_real (n : Fin 2097152) :
    top x0 (ix1 n) = ((shiftOf xr (n.val / 262144) (n.val / 512 % 512) (n.val % 512) : ℝ) : EReal) := by
  unfold top
  refine (top_generic (pix x0) n).trans ?_
  refine (congrArg (fun f : Fin 32 → EReal => (Finset.univ : Finset (Fin 32)).fold max (⊥ : EReal) f)
    (funext fun k => pix_real x0 xr hx n k)).trans ?_
  exact shiftOf_spec xr _ _ _

include hx in
theorem shifted_real (n : Fin 2097152) (k : Fin 32) :
    shifted x0 (ix2 n k)
      = ((logits xr (n.val / 262144) (n.val / 512 % 512) (n.val % 512) k : ℝ) : EReal)
        - ((shiftOf xr (n.val / 262144) (n.val / 512 % 512) (n.val % 512) : ℝ) : EReal) := by
  unfold shifted
  refine (shifted_generic (pix x0) (top x0) n k).trans ?_
  exact congrArg₂ (fun a b : EReal => a - b) (pix_real x0 xr hx n k) (top_real x0 xr hx n)

include hx in
/-- The probability the reference computes is the pixel's softmax probability. -/
theorem probs_real (n : Fin 2097152) (k : Fin 32) :
    probs x0 (ix2 n k) = ((prob xr (n.val / 262144) (n.val / 512 % 512) (n.val % 512) k : ℝ) : EReal) := by
  have hlse : lse x0 (ix2 n (0 : Fin 1))
      = Ideal.log (0 + ∑ j : Fin 32, Ideal.exp
          (((logits xr (n.val / 262144) (n.val / 512 % 512) (n.val % 512) j : ℝ) : EReal)
            - ((shiftOf xr (n.val / 262144) (n.val / 512 % 512) (n.val % 512) : ℝ) : EReal))) := by
    unfold lse
    refine (lse_generic (shifted x0) n).trans ?_
    exact congrArg (fun z : EReal => Ideal.log (0 + z))
      (Finset.sum_congr rfl fun j _ => congrArg Ideal.exp (shifted_real x0 xr hx n j))
  unfold probs
  refine (probs_generic (shifted x0) (lse x0) n k).trans ?_
  refine (congrArg Ideal.exp (congrArg₂ (fun a b : EReal => a - b) (shifted_real x0 xr hx n k) hlse)).trans ?_
  exact soft_log _ _ k

include hg in
/-- The reference's class indicator is the real number 1 or 0. -/
theorem onehot_real (n : Fin 2097152) (k : Fin 32) :
    onehot (F := Ideal) x1 (ix2 n k) = ((hot g (n.val / 262144) (n.val / 512 % 512) (n.val % 512) k : ℝ) : EReal) := by
  have hA : shapeCast S2097152 x1 shapeCasts_S8x512x512_S2097152 (ix1 n)
      = g (n.val / 262144) (n.val / 512 % 512) (n.val % 512) := by
    refine (shapeCast_apply x1 shapeCasts_S8x512x512_S2097152 (ix1 n) (ix3 (nb n) (ny n) (nx n)) ?_).trans (hg _)
    rw [Shape.rowMajor_val_three, Shape.rowMajor_val_one]
    show (n.val / 262144 * 512 + n.val / 512 % 512) * 512 + n.val % 512 = n.val
    omega
  unfold onehot
  refine (onehot_generic (shapeCast S2097152 x1 shapeCasts_S8x512x512_S2097152) n k).trans ?_
  exact congrArg (fun z : BitVec 32 => ((ind z (BitVec.ofNat 32 k.val) : ℝ) : EReal)) hA

include hg in
/-- The mask: indicator · 1 + e. -/
theorem mask_real (n : Fin 2097152) (k : Fin 32) :
    mask (F := Ideal) x1 (ix2 n k)
      = ((hot g (n.val / 262144) (n.val / 512 % 512) (n.val % 512) k : ℝ) : EReal) * ((1 : ℝ) : EReal)
        + (((11258999 : ℝ) / 2 ^ 50 : ℝ) : EReal) := by
  unfold mask
  refine (mask_generic (onehot x1) (ix2 n k)).trans ?_
  exact congrArg (fun z : EReal => z * ((1 : ℝ) : EReal) + (((11258999 : ℝ) / 2 ^ 50 : ℝ) : EReal)) (onehot_real x1 g hg n k)

/-- The real 1 spread over the [N, 32] array. -/
theorem one_real (i : S2097152x32.Idx) :
    broadcastInDim S2097152x32 ![] bcast_S_S2097152x32 (constant (F := Ideal) S_ .f32 0x3F800000#32) i = ((1 : ℝ) : EReal) :=
  (splat_apply _ _).trans Cert.Consts.ofBits_one

include hx hg in
theorem tpR_real (c : Fin 32) :
    tpR x0 x1 (ix1 c) = 0 + ∑ n : Fin 2097152,
      ((prob xr (n.val / 262144) (n.val / 512 % 512) (n.val % 512) c : ℝ) : EReal)
        * (((hot g (n.val / 262144) (n.val / 512 % 512) (n.val % 512) c : ℝ) : EReal) * ((1 : ℝ) : EReal)
          + (((11258999 : ℝ) / 2 ^ 50 : ℝ) : EReal)) := by
  unfold tpR
  refine (pixelSum_apply _ _ c).trans ?_
  refine congrArg₂ (fun a b : EReal => a + b) Cert.Consts.ofBits_zero (Finset.sum_congr rfl fun n _ => ?_)
  exact (mulf_apply _ _ _).trans
    (congrArg₂ (fun a b : EReal => a * b) (probs_real x0 xr hx n c) (mask_real x1 g hg n c))

include hx hg in
theorem fpR_real (c : Fin 32) :
    fpR x0 x1 (ix1 c) = 0 + ∑ n : Fin 2097152,
      ((prob xr (n.val / 262144) (n.val / 512 % 512) (n.val % 512) c : ℝ) : EReal)
        * (((1 : ℝ) : EReal)
          - (((hot g (n.val / 262144) (n.val / 512 % 512) (n.val % 512) c : ℝ) : EReal) * ((1 : ℝ) : EReal)
            + (((11258999 : ℝ) / 2 ^ 50 : ℝ) : EReal))) := by
  unfold fpR
  refine (pixelSum_apply _ _ c).trans ?_
  refine congrArg₂ (fun a b : EReal => a + b) Cert.Consts.ofBits_zero (Finset.sum_congr rfl fun n _ => ?_)
  exact (mulf_apply _ _ _).trans (congrArg₂ (fun a b : EReal => a * b) (probs_real x0 xr hx n c)
    ((subf_apply _ _ _).trans (congrArg₂ (fun a b : EReal => a - b) (one_real _) (mask_real x1 g hg n c))))

include hx hg in
theorem fnR_real (c : Fin 32) :
    fnR x0 x1 (ix1 c) = 0 + ∑ n : Fin 2097152,
      (((1 : ℝ) : EReal) - ((prob xr (n.val / 262144) (n.val / 512 % 512) (n.val % 512) c : ℝ) : EReal))
        * (((hot g (n.val / 262144) (n.val / 512 % 512) (n.val % 512) c : ℝ) : EReal) * ((1 : ℝ) : EReal)
          + (((11258999 : ℝ) / 2 ^ 50 : ℝ) : EReal)) := by
  unfold fnR
  refine (pixelSum_apply _ _ c).trans ?_
  refine congrArg₂ (fun a b : EReal => a + b) Cert.Consts.ofBits_zero (Finset.sum_congr rfl fun n _ => ?_)
  exact (mulf_apply _ _ _).trans (congrArg₂ (fun a b : EReal => a * b)
    ((subf_apply _ _ _).trans (congrArg₂ (fun a b : EReal => a - b) (one_real _) (probs_real x0 xr hx n c)))
    (mask_real x1 g hg n c))

end Real

end Cert.ReferenceIdeal.RefValue

end
-- ==== Proof.LibFiniteAll.lean ====
/-
  "Every entry is finite", decoded.

  A precondition of the form `jnp.all(jnp.abs(x) < inf)` prints as an all-reduction by `and`, into a scalar, of the bits
  of the comparison `|x i| < (the f32 word of +inf)`.  On the extended reals `|x|` is `max x (-x)`, and it is below `⊤`
  exactly when `x` is neither infinity, that is, when `x` is a real number.  So:

  * `real_of_abs_lt_inf`: an extended real whose absolute value compares below the word `0x7F800000` is a real number;
  * `all_real`: when the all-reduction (over any axes, into the scalar shape, from any initial word) of those bits for
    an array `x` of any shape is 1, every entry of `x` is a real number.

  The scalar shape here is `S0 = ⟨0, ![]⟩`, the shape a printed program calls `S_`; its one index is `ValueIdx.ix0`.
-/
import Idealize.ShloMosaic.PureOps.Ideal
import Idealize.ShloMosaic.Lib.ReduceAll
import Idealize.ShloMosaic.Lib.Pipeline.Value
import Idealize.ShloMosaic.Lib.ValueIdx

noncomputable section

namespace Cert.LibFiniteAll

open Idealize.ShloMosaic Idealize.ShloMosaic.ValueIdx

/-- The scalar shape. -/
abbrev S0 : Shape := ⟨0, ![]⟩

instance : Subsingleton S0.Idx := ⟨fun _ _ => funext fun d => d.elim0⟩

/-- An extended real whose absolute value is below the f32 word of +inf is a real number. -/
theorem real_of_abs_lt_inf (x : EReal)
    (h : FloatOps.cmpf (F := Ideal) .olt (FloatOps.hostAbsf x) (Ideal.ofBits .f32 0x7F800000#32) = 1#1) :
    ∃ r : ℝ, x = r := by
  have htop : Ideal.ofBits .f32 0x7F800000#32 = ⊤ := by simp [Ideal.ofBits, Ideal.ieee]
  rw [htop] at h
  change BitVec.ofBool (decide (max x (-x) < ⊤)) = 1#1 at h
  have hlt : max x (-x) < ⊤ := by
    by_contra hn
    rw [decide_eq_false hn] at h
    exact absurd h (by decide)
  induction x using EReal.rec with
  | bot => exact absurd hlt (by simp)
  | coe r => exact ⟨r, rfl⟩
  | top => exact absurd hlt (by simp)

/-- `jnp.all(|x| < inf)`: when the all-reduction of the comparison's bits is 1, every entry of `x` is a real. -/
theorem all_real {s : Shape} {axes : List (Fin s.rank)} (x : FVec Ideal s .f32) (dims : Fin S0.rank → Fin s.rank)
    (hb : S0.BroadcastsInDim s dims) (h : s.ReducesTo axes S0) (hu : 0 < S0.numel)
    (e : Host.reduce IntOp.andi (cmpf .olt (Host.absf x) (broadcastInDim s dims hb (constant (F := Ideal) S0 .f32 0x7F800000#32)))
      (constantI S0 1 1#1) h hu ix0 = 1#1) (i : s.Idx) : ∃ r : ℝ, x i = r := by
  have hi := Host.reduce_andi_all _ _ h hu ix0 e i
  have hbc : broadcastInDim s dims hb (constant (F := Ideal) S0 .f32 0x7F800000#32) i = Ideal.ofBits .f32 0x7F800000#32 :=
    broadcastInDim_apply dims hb _ i (fun a => a.elim0) (fun a => a.elim0)
  refine real_of_abs_lt_inf (x i) ?_
  rw [← hbc]
  exact hi

end Cert.LibFiniteAll

end
-- ==== Proof.Bridge.lean ====
/-
  The two programs' three sums are equal, class by class.

  Under the precondition every logit is a real number.  Then at class c, with p(n) and o(n) the softmax probability and
  the class indicator of pixel n (both real):

    kernel:     TP = e·Σp + 1·Σp·o,        FP = Σp - TP,            FN = (e·2^21 + 1·Σo) - TP
    reference:  TP = 0 + Σ p·(o·1 + e),    FP = 0 + Σ p·(1 - (o·1 + e)),   FN = 0 + Σ (1 - p)·(o·1 + e)

  over the same 2097152 pixels, and these agree by distributivity over the reals (2097152 = 2^21 pixels in all).  Both
  programs then apply the same epilogue to the three sums.
-/
import proofs.«137565_j22840636080773_2_alg».proof.Defs
import proofs.«137565_j22840636080773_2_alg».proof.Proof.Gen.Pre_finite_inputs
import proofs.«137565_j22840636080773_2_alg».proof.Proof.KHost
import proofs.«137565_j22840636080773_2_alg».proof.Proof.RefRead
import proofs.«137565_j22840636080773_2_alg».proof.Proof.RefValue
import proofs.«137565_j22840636080773_2_alg».proof.Proof.LibFiniteAll

noncomputable section

open scoped BigOperators

namespace Cert.Proof.Bridge

open Idealize.ShloMosaic Idealize.ShloMosaic.ValueIdx Idealize.ShloMosaic.TcCoe Idealize.SL.Sem Cert.Dice
open Cert.KernelIdeal.Acc Cert.KernelIdeal.HostTail Cert.ReferenceIdeal.RefRun Cert.ReferenceIdeal.RefValue

/-- The logits' and the labels' shapes. -/
abbrev Big : Shape := ⟨4, ![8, 32, 512, 512]⟩
abbrev Lab : Shape := ⟨3, ![8, 512, 512]⟩

/-- An array of reals over the logits' shape, by natural-number coordinates (zero outside the array). -/
def natLogits (xr' : Big.Idx → ℝ) (b k y x : ℕ) : ℝ :=
  if h : b < 8 ∧ k < 32 ∧ y < 512 ∧ x < 512 then xr' (ix4 ⟨b, h.1⟩ ⟨k, h.2.1⟩ ⟨y, h.2.2.1⟩ ⟨x, h.2.2.2⟩) else 0

theorem natLogits_spec (xr' : Big.Idx → ℝ) (i : Big.Idx) :
    natLogits xr' (i 0).val (i 1).val (i 2).val (i 3).val = xr' i := by
  unfold natLogits
  rw [dif_pos (⟨(i 0).isLt, (i 1).isLt, (i 2).isLt, (i 3).isLt⟩ :
    (i 0).val < 8 ∧ (i 1).val < 32 ∧ (i 2).val < 512 ∧ (i 3).val < 512)]
  exact congrArg xr' (eq_ix4 i).symm

/-- The labels by natural-number coordinates (the zero word outside the array). -/
def natLabels (x1 : Lab.Idx → BitVec 32) (b y x : ℕ) : BitVec 32 :=
  if h : b < 8 ∧ y < 512 ∧ x < 512 then x1 (ix3 ⟨b, h.1⟩ ⟨y, h.2.1⟩ ⟨x, h.2.2⟩) else 0

theorem natLabels_spec (x1 : Lab.Idx → BitVec 32) (i : Lab.Idx) :
    natLabels x1 (i 0).val (i 1).val (i 2).val = x1 i := by
  unfold natLabels
  rw [dif_pos (⟨(i 0).isLt, (i 1).isLt, (i 2).isLt⟩ : (i 0).val < 8 ∧ (i 1).val < 512 ∧ (i 2).val < 512)]
  exact congrArg x1 (eq_ix3 i).symm

/-- The three sums of the two programs are equal. -/
theorem sums_eq (xr : ℕ → ℕ → ℕ → ℕ → ℝ) (g : ℕ → ℕ → ℕ → BitVec 32)
    (x0 : FVec Ideal Cert.ReferenceIdeal.S8x32x512x512 .f32) (x1 : IVec Cert.ReferenceIdeal.S8x512x512 32)
    (hx : ∀ i : Cert.ReferenceIdeal.S8x32x512x512.Idx, x0 i = ((xr (i 0).val (i 1).val (i 2).val (i 3).val : ℝ) : EReal))
    (hg : ∀ i : Cert.ReferenceIdeal.S8x512x512.Idx, x1 i = g (i 0).val (i 1).val (i 2).val) :
    tpK (F := Ideal) (arrS xr) (arrT xr g) = tpR x0 x1
    ∧ fpK (F := Ideal) (arrS xr) (arrT xr g) = fpR x0 x1
    ∧ fnK (F := Ideal) (arrS xr) (arrT xr g) (arrN g) = fnR x0 x1 := by
  have hN : ((Fintype.card (Fin 2097152) : ℕ) : ℝ) = 2097152 := by simp
  refine ⟨funext fun i => ?_, funext fun i => ?_, funext fun i => ?_⟩
  · rw [eq_ix1 i]
    exact (tpK_real xr g (i 0)).trans
      ((tp_ereal (fun n : Fin 2097152 => prob xr (n.val / 262144) (n.val / 512 % 512) (n.val % 512) (i 0))
        (fun n : Fin 2097152 => hot g (n.val / 262144) (n.val / 512 % 512) (n.val % 512) (i 0)) _).trans
        (tpR_real x0 x1 xr g hx hg (i 0)).symm)
  · rw [eq_ix1 i]
    exact (fpK_real xr g (i 0)).trans
      ((fp_ereal (fun n : Fin 2097152 => prob xr (n.val / 262144) (n.val / 512 % 512) (n.val % 512) (i 0))
        (fun n : Fin 2097152 => hot g (n.val / 262144) (n.val / 512 % 512) (n.val % 512) (i 0)) _).trans
        (fpR_real x0 x1 xr g hx hg (i 0)).symm)
  · rw [eq_ix1 i]
    exact (fnK_real xr g (i 0)).trans
      ((fn_ereal (fun n : Fin 2097152 => prob xr (n.val / 262144) (n.val / 512 % 512) (n.val % 512) (i 0))
        (fun n : Fin 2097152 => hot g (n.val / 262144) (n.val / 512 % 512) (n.val % 512) (i 0)) _ 2097152 hN).trans
        (fnR_real x0 x1 xr g hx hg (i 0)).symm)

/-- Under the precondition every logit is a real number. -/
theorem finite_of_pre (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m)
    (c : Dev Cert.KernelIdeal.nD) (i : Big.Idx) :
    ∃ r : ℝ, m ((c.tc : Thread Cert.KernelIdeal.nD Cert.KernelIdeal.τ).loc Cert.KernelIdeal.main_arg0) i = (r : EReal) := by
  have h := congrFun (hpre c) ix0
  exact LibFiniteAll.all_real _ _ _ _ _ h i

/-- The algebraic claim. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  choose xr' hxr' using finite_of_pre m hpre
  have hx : ∀ (c : Dev Cert.KernelIdeal.nD) (i : Cert.KernelIdeal.S8x32x512x512.Idx),
      m ((c : Thread Cert.KernelIdeal.nD Cert.KernelIdeal.τ).loc Cert.KernelIdeal.main_arg0) i
        = ((natLogits (xr' c) (i 0).val (i 1).val (i 2).val (i 3).val : ℝ) : EReal) := fun c i =>
    (hxr' c i).trans (congrArg (fun z : ℝ => (z : EReal)) (natLogits_spec (xr' c) i).symm)
  have hg : ∀ (c : Dev Cert.KernelIdeal.nD) (i : Cert.KernelIdeal.S8x512x512.Idx),
      m ((c : Thread Cert.KernelIdeal.nD Cert.KernelIdeal.τ).loc Cert.KernelIdeal.main_arg1) i
        = natLabels (m ((c : Thread Cert.KernelIdeal.nD Cert.KernelIdeal.τ).loc Cert.KernelIdeal.main_arg1))
            (i 0).val (i 1).val (i 2).val := fun c i => (natLabels_spec _ i).symm
  refine ⟨fun c => Cert.Dice.tail (F := Ideal) Cert.KernelIdeal.Gen.bcast_S_S32 Cert.KernelIdeal.Gen.reducesTo_S32_S_d0
      Cert.KernelIdeal.Gen.h_S_
      (tpK (F := Ideal) (arrS (natLogits (xr' c))) (arrT (natLogits (xr' c)) (natLabels (m ((c : Thread Cert.KernelIdeal.nD Cert.KernelIdeal.τ).loc Cert.KernelIdeal.main_arg1)))))
      (fpK (F := Ideal) (arrS (natLogits (xr' c))) (arrT (natLogits (xr' c)) (natLabels (m ((c : Thread Cert.KernelIdeal.nD Cert.KernelIdeal.τ).loc Cert.KernelIdeal.main_arg1)))))
      (fnK (F := Ideal) (arrS (natLogits (xr' c))) (arrT (natLogits (xr' c)) (natLabels (m ((c : Thread Cert.KernelIdeal.nD Cert.KernelIdeal.τ).loc Cert.KernelIdeal.main_arg1))))
        (arrN (natLabels (m ((c : Thread Cert.KernelIdeal.nD Cert.KernelIdeal.τ).loc Cert.KernelIdeal.main_arg1))))),
    Cert.KernelIdeal.HostTail.run m ρ (fun c => natLogits (xr' c))
      (fun c => natLabels (m ((c : Thread Cert.KernelIdeal.nD Cert.KernelIdeal.τ).loc Cert.KernelIdeal.main_arg1))) hx hg, ?_⟩
  refine (θ_run Cert.ReferenceIdeal.defs _ _).mono (fun r h c => ⟨(h c).1.trans ?_, (h c).2⟩)
    (Cert.ReferenceIdeal.RefRun.run (F := Ideal) m' ρ')
  obtain ⟨e1, e2, e3⟩ := sums_eq (natLogits (xr' c))
    (natLabels (m ((c : Thread Cert.KernelIdeal.nD Cert.KernelIdeal.τ).loc Cert.KernelIdeal.main_arg1)))
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (fun i => by rw [(hagree c).1]; exact hx c i)
    (fun i => by rw [(hagree c).2]; exact hg c i)
  rw [← e1, ← e2, ← e3]

end Cert.Proof.Bridge

end
-- ==== Proof.lean ====
/-
  A Tversky / Dice loss over 8 images of 512 × 512 pixels and 32 classes: a kernel that streams the logits tile by tile
  and keeps three per-class totals, against the textbook jnp computation.

  Per pixel both take the softmax p over the 32 classes — the kernel as exp(x - top) / Σ exp(x - top), the reference as
  exp((x - top) - log Σ exp(x - top)) — and the 0/1 indicator o of the pixel's label.  The reference sums, over all
  pixels, p·mask, p·(1 - mask) and (1 - p)·mask with mask = o·1 + e (e the float nearest 1e-8).  The kernel sums p, p·o
  and o (64 tiles of 64 rows, accumulated image by image in the output blocks, then over the 8 images on the host) and
  expands the mask algebra: TP = e·Σp + Σp·o, FP = Σp - TP, FN = (e·N + Σo) - TP, with e·N spelt as one float word — the
  word of e moved 21 binary places up, N = 2^21 being the number of pixels.  Over real numbers the two are the same by
  distributivity, which is where the precondition (every logit finite) is used.  Both programs then run the same
  epilogue on the three sums (the clipped ratio, the dice quotient, the mean over the classes).

  The frames of the two kernel programs are the generated ones; the reference's frame is its run with the result dropped;
  the ideal pass rewrote nothing, so `preserves` is trivial.
-/
import proofs.«137565_j22840636080773_2_alg».proof.Defs
import proofs.«137565_j22840636080773_2_alg».proof.Proof.Gen.Kernel
import proofs.«137565_j22840636080773_2_alg».proof.Proof.Gen.Kernel.Skeleton
import proofs.«137565_j22840636080773_2_alg».proof.Proof.Gen.Kernel.Launch
import proofs.«137565_j22840636080773_2_alg».proof.Proof.Gen.Kernel.Points
import proofs.«137565_j22840636080773_2_alg».proof.Proof.Gen.Kernel.Frame
import proofs.«137565_j22840636080773_2_alg».proof.Proof.Gen.KernelIdeal
import proofs.«137565_j22840636080773_2_alg».proof.Proof.Gen.KernelIdeal.Skeleton
import proofs.«137565_j22840636080773_2_alg».proof.Proof.Gen.KernelIdeal.Launch
import proofs.«137565_j22840636080773_2_alg».proof.Proof.Gen.KernelIdeal.Points
import proofs.«137565_j22840636080773_2_alg».proof.Proof.Gen.KernelIdeal.Frame
import proofs.«137565_j22840636080773_2_alg».proof.Proof.Gen.ReferenceIdeal
import proofs.«137565_j22840636080773_2_alg».proof.Proof.Gen.Pre_finite_inputs
import proofs.«137565_j22840636080773_2_alg».proof.Proof.Bridge
import Idealize.ShloMosaic.Adequacy
import Idealize.ShloMosaic.Init

noncomputable section

namespace Cert.Proof

open Idealize.ShloMosaic Idealize.SL.Sem Cert.Kernel

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts)
    (hPre_finite_inputs := Cert.Pre_finite_inputs.Gen.facts) :=
  fun m ρ _ => Cert.KernelIdeal.Gen.frame m ρ

/-- The reference's frame: its run, with what the result holds dropped. -/
theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.RefRun.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Proof.Bridge.algebraic⟩

end Cert.Proof

end
